-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2624 : Shape := ⟨2, ![8192, 2624]⟩
abbrev S1024 : Shape := ⟨1, ![1024]⟩
abbrev S512x11 : Shape := ⟨2, ![512, 11]⟩
abbrev S64x16 : Shape := ⟨2, ![64, 16]⟩
abbrev S_ : Shape := ⟨0, ![]⟩

class Facts : Prop where
  bcast_S_S8192x2624 : S_.BroadcastsInDim S8192x2624 (![] : Fin 0 → Fin S8192x2624.rank)
  reducesTo_S8192x2624_S_d0_1 : S8192x2624.ReducesTo [0, 1] S_
  h_S_ : 0 < S_.numel
  bcast_S_S1024 : S_.BroadcastsInDim S1024 (![] : Fin 0 → Fin S1024.rank)
  reducesTo_S1024_S_d0 : S1024.ReducesTo [0] S_
  bcast_S_S512x11 : S_.BroadcastsInDim S512x11 (![] : Fin 0 → Fin S512x11.rank)
  reducesTo_S512x11_S_d0_1 : S512x11.ReducesTo [0, 1] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_arg4 : FVec F S64x16 .f32) (main_v13 : IVec S_ 1) (main_v16 : IVec S512x11 1) : IVec S_ 1 :=
  let main_c_5 : IVec S_ 1 := constantI S_ 1 1#1
  let main_v17 : IVec S_ 1 := (fun x v => Host.reduce IntOp.andi x v reducesTo_S512x11_S_d0_1 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  main_v23

def fn {F : FTy → Type} [FloatOps F] (main_arg0 : FVec F S8192x2624 .f32) (main_arg1 : FVec F S1024 .f32) (main_arg2 : FVec F S1024 .f32) (main_arg3 : FVec F S512x11 .f32) (main_arg4 : FVec F S64x16 .f32) : IVec S_ 1 :=
  let main_v0 : FVec F S8192x2624 .f32 := Host.absf main_arg0
  let main_cst : FVec F S_ .f32 := constant S_ .f32 0x7F800000#32
  let main_v1 : FVec F S8192x2624 .f32 := broadcastInDim S8192x2624 ![] bcast_S_S8192x2624 main_cst
  let main_v2 : IVec S8192x2624 1 := cmpf .olt main_v0 main_v1
  let main_c : IVec S_ 1 := constantI S_ 1 1#1
  let main_v3 : IVec S_ 1 := (fun x v => Host.reduce IntOp.andi x v reducesTo_S8192x2624_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S512x11 .f32 := Host.absf main_arg3
  let main_cst_4 : FVec F S_ .f32 := constant S_ .f32 0x7F800000#32
  let main_v15 : FVec F S512x11 .f32 := broadcastInDim S512x11 ![] bcast_S_S512x11 main_cst_4
  let main_v16 : IVec S512x11 1 := cmpf .olt main_v14 main_v15
  fn_part1 (F := F) main_arg4 main_v13 main_v16
-- ==== Kernel.lean ====
abbrev S8192x2624 : Shape := ⟨2, ![8192, 2624]⟩
abbrev S1024 : Shape := ⟨1, ![1024]⟩
abbrev S512x11 : Shape := ⟨2, ![512, 11]⟩
abbrev S64x16 : Shape := ⟨2, ![64, 16]⟩
abbrev S8192x512 : Shape := ⟨2, ![8192, 512]⟩
abbrev S8192x1024 : Shape := ⟨2, ![8192, 1024]⟩
abbrev S256x2624 : Shape := ⟨2, ![256, 2624]⟩
abbrev S256x512 : Shape := ⟨2, ![256, 512]⟩
abbrev S256x1024 : Shape := ⟨2, ![256, 1024]⟩
abbrev S1x1024 : Shape := ⟨2, ![1, 1024]⟩
abbrev S512x1 : Shape := ⟨2, ![512, 1]⟩
abbrev S512 : Shape := ⟨1, ![512]⟩
abbrev S1x512 : Shape := ⟨2, ![1, 512]⟩
abbrev S256x64 : Shape := ⟨2, ![256, 64]⟩
abbrev S64x1 : Shape := ⟨2, ![64, 1]⟩
abbrev S64 : Shape := ⟨1, ![64]⟩
abbrev S1x64 : Shape := ⟨2, ![1, 64]⟩
abbrev S8192x16x64 : Shape := ⟨3, ![8192, 16, 64]⟩
abbrev S8192x64x16 : Shape := ⟨3, ![8192, 64, 16]⟩
abbrev S8192x3584 : Shape := ⟨2, ![8192, 3584]⟩
abbrev S_ : Shape := ⟨0, ![]⟩

abbrev nBuf : Space → Nat
  | .hbm => 22
  | .vmem => 16
  | .smem => 0
  | _ => 0

abbrev bufTy : (tb : Table) → Fin (tcTables nBuf tb) → BufTy
  | .hbm, ⟨0, _⟩ => ⟨S8192x2624, .f32⟩
  | .hbm, ⟨1, _⟩ => ⟨S1024, .f32⟩
  | .hbm, ⟨2, _⟩ => ⟨S1024, .f32⟩
  | .hbm, ⟨3, _⟩ => ⟨S512x11, .f32⟩
  | .hbm, ⟨4, _⟩ => ⟨S64x16, .f32⟩
  | .hbm, ⟨5, _⟩ => ⟨S8192x512, .f32⟩
  | .hbm, ⟨6, _⟩ => ⟨S8192x512, .f32⟩
  | .hbm, ⟨7, _⟩ => ⟨S8192x1024, .f32⟩
  | .hbm, ⟨8, _⟩ => ⟨S8192x512, .f32⟩
  | .hbm, ⟨9, _⟩ => ⟨S8192x1024, .f32⟩
  | .hbm, ⟨10, _⟩ => ⟨S8192x16x64, .f32⟩
  | .hbm, ⟨11, _⟩ => ⟨S8192x64x16, .f32⟩
  | .hbm, ⟨12, _⟩ => ⟨S8192x1024, .f32⟩
  | .hbm, ⟨13, _⟩ => ⟨S8192x3584, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x3584, .f32⟩
  | .hbm, ⟨18, _⟩ => ⟨S8192x3584, .f32⟩
  | .hbm, ⟨19, _⟩ => ⟨S_, .f32⟩
  | .hbm, ⟨20, _⟩ => ⟨S8192x3584, .f32⟩
  | .hbm, ⟨21, _⟩ => ⟨S8192x3584, .f32⟩
  | .local _ .vmem, ⟨0, _⟩ => ⟨S256x2624, .f32⟩
  | .local _ .vmem, ⟨1, _⟩ => ⟨S256x2624, .f32⟩
  | .local _ .vmem, ⟨2, _⟩ => ⟨S1024, .f32⟩
  | .local _ .vmem, ⟨3, _⟩ => ⟨S1024, .f32⟩
  | .local _ .vmem, ⟨4, _⟩ => ⟨S512x11, .f32⟩
  | .local _ .vmem, ⟨5, _⟩ => ⟨S64x16, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x1024, .f32⟩
  | .local _ .vmem, ⟨11, _⟩ => ⟨S256x1024, .f32⟩
  | .local _ .vmem, ⟨12, _⟩ => ⟨S256x512, .f32⟩
  | .local _ .vmem, ⟨13, _⟩ => ⟨S256x512, .f32⟩
  | .local _ .vmem, ⟨14, _⟩ => ⟨S256x1024, .f32⟩
  | .local _ .vmem, ⟨15, _⟩ => ⟨S256x1024, .f32⟩
  | _, _ => ⟨S8192x2624, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2624 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x11 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S256x2624_S256x512_0_0 : ∀ a, (![0, 0] : Fin 2 → Nat) a + S256x512.size a ≤ S256x2624.size a
  h_S256x512 : 0 < S256x512.numel
  natLt_1_32 : 1 < 32
  inb_S256x512_S256x512_0_0 : ∀ a, (![0, 0] : Fin 2 → Nat) a + S256x512.size a ≤ S256x512.size a
  inb_S256x2624_S256x512_0_512 : ∀ a, (![0, 512] : Fin 2 → Nat) a + S256x512.size a ≤ S256x2624.size a
  inb_S256x2624_S256x1024_0_1024 : ∀ a, (![0, 1024] : Fin 2 → Nat) a + S256x1024.size a ≤ S256x2624.size a
  h_S256x1024 : 0 < S256x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S256x1024_S256x1024_0_0 : ∀ a, (![0, 0] : Fin 2 → Nat) a + S256x1024.size a ≤ S256x1024.size a
  inb_S256x2624_S256x512_0_2048 : ∀ a, (![0, 2048] : Fin 2 → Nat) a + S256x512.size a ≤ S256x2624.size a
  inb_S512x11_S512x11_0_0 : ∀ a, (![0, 0] : Fin 2 → Nat) a + S512x11.size a ≤ S512x11.size a
  h_S512x11 : 0 < S512x11.numel
  slices_S512x11_o0_0_S512x1 : S512x11.Slices ![0, 0] S512x1
  shapeCasts_S512x1_S512 : S512x1.ShapeCasts S512
  shapeCasts_S512_S1x512 : S512.ShapeCasts S1x512
  broadcasts_S1x512_S256x512 : S1x512.Broadcasts S256x512
  slices_S512x11_o0_1_S512x1 : S512x11.Slices ![0, 1] S512x1
  slices_S512x11_o0_2_S512x1 : S512x11.Slices ![0, 2] S512x1
  slices_S512x11_o0_3_S512x1 : S512x11.Slices ![0, 3] S512x1
  slices_S512x11_o0_4_S512x1 : S512x11.Slices ![0, 4] S512x1
  slices_S512x11_o0_5_S512x1 : S512x11.Slices ![0, 5] S512x1
  slices_S512x11_o0_6_S512x1 : S512x11.Slices ![0, 6] S512x1
  slices_S512x11_o0_7_S512x1 : S512x11.Slices ![0, 7] S512x1
  slices_S512x11_o0_8_S512x1 : S512x11.Slices ![0, 8] S512x1
  slices_S512x11_o0_9_S512x1 : S512x11.Slices ![0, 9] S512x1
  slices_S512x11_o0_10_S512x1 : S512x11.Slices ![0, 10] S512x1
  inb_S256x2624_S256x64_0_2560 : ∀ a, (![0, 2560] : Fin 2 → Nat) a + S256x64.size a ≤ S256x2624.size a
  h_S256x64 : 0 < S256x64.numel
  inb_S64x16_S64x16_0_0 : ∀ a, (![0, 0] : Fin 2 → Nat) a + S64x16.size a ≤ S64x16.size a
  h_S64x16 : 0 < S64x16.numel
  slices_S64x16_o0_0_S64x1 : S64x16.Slices ![0, 0] S64x1
  shapeCasts_S64x1_S64 : S64x1.ShapeCasts S64
  shapeCasts_S64_S1x64 : S64.ShapeCasts S1x64
  broadcasts_S1x64_S256x64 : S1x64.Broadcasts S256x64
  inb_S256x1024_S256x64_0_0 : ∀ a, (![0, 0] : Fin 2 → Nat) a + S256x64.size a ≤ S256x1024.size a
  slices_S64x16_o0_1_S64x1 : S64x16.Slices ![0, 1] S64x1
  inb_S256x1024_S256x64_0_64 : ∀ a, (![0, 64] : Fin 2 → Nat) a + S256x64.size a ≤ S256x1024.size a
  slices_S64x16_o0_2_S64x1 : S64x16.Slices ![0, 2] S64x1
  inb_S256x1024_S256x64_0_128 : ∀ a, (![0, 128] : Fin 2 → Nat) a + S256x64.size a ≤ S256x1024.size a
  slices_S64x16_o0_3_S64x1 : S64x16.Slices ![0, 3] S64x1
  inb_S256x1024_S256x64_0_192 : ∀ a, (![0, 192] : Fin 2 → Nat) a + S256x64.size a ≤ S256x1024.size a
  slices_S64x16_o0_4_S64x1 : S64x16.Slices ![0, 4] S64x1
  inb_S256x1024_S256x64_0_256 : ∀ a, (![0, 256] : Fin 2 → Nat) a + S256x64.size a ≤ S256x1024.size a
  slices_S64x16_o0_5_S64x1 : S64x16.Slices ![0, 5] S64x1
  inb_S256x1024_S256x64_0_320 : ∀ a, (![0, 320] : Fin 2 → Nat) a + S256x64.size a ≤ S256x1024.size a
  slices_S64x16_o0_6_S64x1 : S64x16.Slices ![0, 6] S64x1
  inb_S256x1024_S256x64_0_384 : ∀ a, (![0, 384] : Fin 2 → Nat) a + S256x64.size a ≤ S256x1024.size a
  slices_S64x16_o0_7_S64x1 : S64x16.Slices ![0, 7] S64x1
  inb_S256x1024_S256x64_0_448 : ∀ a, (![0, 448] : Fin 2 → Nat) a + S256x64.size a ≤ S256x1024.size a
  slices_S64x16_o0_8_S64x1 : S64x16.Slices ![0, 8] S64x1
  inb_S256x1024_S256x64_0_512 : ∀ a, (![0, 512] : Fin 2 → Nat) a + S256x64.size a ≤ S256x1024.size a
  slices_S64x16_o0_9_S64x1 : S64x16.Slices ![0, 9] S64x1
  inb_S256x1024_S256x64_0_576 : ∀ a, (![0, 576] : Fin 2 → Nat) a + S256x64.size a ≤ S256x1024.size a
  slices_S64x16_o0_10_S64x1 : S64x16.Slices ![0, 10] S64x1
  inb_S256x1024_S256x64_0_640 : ∀ a, (![0, 640] : Fin 2 → Nat) a + S256x64.size a ≤ S256x1024.size a
  slices_S64x16_o0_11_S64x1 : S64x16.Slices ![0, 11] S64x1
  inb_S256x1024_S256x64_0_704 : ∀ a, (![0, 704] : Fin 2 → Nat) a + S256x64.size a ≤ S256x1024.size a
  slices_S64x16_o0_12_S64x1 : S64x16.Slices ![0, 12] S64x1
  inb_S256x1024_S256x64_0_768 : ∀ a, (![0, 768] : Fin 2 → Nat) a + S256x64.size a ≤ S256x1024.size a
  slices_S64x16_o0_13_S64x1 : S64x16.Slices ![0, 13] S64x1
  inb_S256x1024_S256x64_0_832 : ∀ a, (![0, 832] : Fin 2 → Nat) a + S256x64.size a ≤ S256x1024.size a
  slices_S64x16_o0_14_S64x1 : S64x16.Slices ![0, 14] S64x1
  inb_S256x1024_S256x64_0_896 : ∀ a, (![0, 896] : Fin 2 → Nat) a + S256x64.size a ≤ S256x1024.size a
  slices_S64x16_o0_15_S64x1 : S64x16.Slices ![0, 15] S64x1
  inb_S256x1024_S256x64_0_960 : ∀ a, (![0, 960] : Fin 2 → Nat) a + S256x64.size a ≤ S256x1024.size a
  shapeCasts_S8192x1024_S8192x16x64 : S8192x1024.ShapeCasts S8192x16x64
  transposes_S8192x16x64_S8192x64x16_0_2_1 : S8192x16x64.Transposes [0, 2, 1] S8192x64x16
  shapeCasts_S8192x64x16_S8192x1024 : S8192x64x16.ShapeCasts S8192x1024
  concatenates_S8192x512_S8192x512_S8192x1024_S8192x512_S8192x1024_S8192x3584_d1 : Shape.Concatenates [S8192x512, S8192x512, S8192x1024, S8192x512, S8192x1024] S8192x3584 1
  bcast_S_S8192x3584 : S_.BroadcastsInDim S8192x3584 (![] : Fin 0 → Fin S8192x3584.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2624.size a ≤ S8192x2624.size a
  hwx0_0 : ∀ i : grid0.Coords, EltTy.bits .f32 = 32 ∨ (Rect.block (s := S8192x2624) S256x2624.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x11.size a ≤ S512x11.size a
  hwx0_3 : ∀ i : grid0.Coords, EltTy.bits .f32 = 32 ∨ (Rect.block (s := S512x11) S512x11.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S8192x512.size a
  hwx0_5 : ∀ i : grid0.Coords, EltTy.bits .f32 = 32 ∨ (Rect.block (s := S8192x512) S256x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S8192x512.size a
  hwx0_6 : ∀ i : grid0.Coords, EltTy.bits .f32 = 32 ∨ (Rect.block (s := S8192x512) S256x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S8192x512.size a
  hwx0_8 : ∀ i : grid0.Coords, EltTy.bits .f32 = 32 ∨ (Rect.block (s := S8192x512) S256x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)

variable [Facts₀]

abbrev win0_0 : Pipeline.Window sig grid0 :=
  Pipeline.Window.ofSpec (Memref.whole main_arg0) S256x2624.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x11.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S256x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S256x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_3) S256x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_4) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x2624 : Shape := ⟨2, ![8192, 2624]⟩
abbrev S1024 : Shape := ⟨1, ![1024]⟩
abbrev S512x11 : Shape := ⟨2, ![512, 11]⟩
abbrev S64x16 : Shape := ⟨2, ![64, 16]⟩
abbrev S_ : Shape := ⟨0, ![]⟩
abbrev S8192x512 : Shape := ⟨2, ![8192, 512]⟩
abbrev S8192x1024 : Shape := ⟨2, ![8192, 1024]⟩
abbrev S8192x64 : Shape := ⟨2, ![8192, 64]⟩
abbrev S1x1024 : Shape := ⟨2, ![1, 1024]⟩
abbrev S8192x512x1 : Shape := ⟨3, ![8192, 512, 1]⟩
abbrev S1x512x11 : Shape := ⟨3, ![1, 512, 11]⟩
abbrev S8192x512x11 : Shape := ⟨3, ![8192, 512, 11]⟩
abbrev S512x1 : Shape := ⟨2, ![512, 1]⟩
abbrev S512 : Shape := ⟨1, ![512]⟩
abbrev S1x512 : Shape := ⟨2, ![1, 512]⟩
abbrev S8192x64x1 : Shape := ⟨3, ![8192, 64, 1]⟩
abbrev S1x64x16 : Shape := ⟨3, ![1, 64, 16]⟩
abbrev S8192x64x16 : Shape := ⟨3, ![8192, 64, 16]⟩
abbrev S8192x3584 : Shape := ⟨2, ![8192, 3584]⟩

abbrev nBuf : Space → Nat
  | .hbm => 136
  | .vmem => 0
  | .smem => 0
  | _ => 0

abbrev hbmTy0_0 (i : Nat) : BufTy := match i % 128 with
  | 0 => ⟨S8192x2624, .f32⟩
  | 1 => ⟨S1024, .f32⟩
  | 2 => ⟨S1024, .f32⟩
  | 3 => ⟨S512x11, .f32⟩
  | 4 => ⟨S64x16, .f32⟩
  | 5 => ⟨S_, .f32⟩
  | 6 => ⟨S8192x2624, .f32⟩
  | 7 => ⟨S8192x2624, .i1⟩
  | 8 => ⟨S8192x2624, .f32⟩
  | 9 => ⟨S8192x512, .f32⟩
  | 10 => ⟨S8192x512, .f32⟩
  | 11 => ⟨S8192x1024, .f32⟩
  | 12 => ⟨S8192x512, .f32⟩
  | 13 => ⟨S8192x64, .f32⟩
  | 14 => ⟨S_, .f32⟩
  | 15 => ⟨S8192x512, .f32⟩
  | 16 => ⟨S8192x512, .i1⟩
  | 17 => ⟨S8192x512, .f32⟩
  | 18 => ⟨S8192x512, .f32⟩
  | 19 => ⟨S8192x512, .f32⟩
  | 20 => ⟨S_, .f32⟩
  | 21 => ⟨S_, .f32⟩
  | 22 => ⟨S_, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S8192x512, .f32⟩
  | 35 => ⟨S8192x512, .f32⟩
  | 36 => ⟨S8192x512, .f32⟩
  | 37 => ⟨S8192x512, .f32⟩
  | 38 => ⟨S1x1024, .f32⟩
  | 39 => ⟨S8192x1024, .f32⟩
  | 40 => ⟨S8192x1024, .f32⟩
  | 41 => ⟨S1x1024, .f32⟩
  | 42 => ⟨S8192x1024, .f32⟩
  | 43 => ⟨S8192x1024, .f32⟩
  | 44 => ⟨S_, .f32⟩
  | 45 => ⟨S_, .f32⟩
  | 46 => ⟨S_, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S8192x1024, .f32⟩
  | 53 => ⟨S8192x1024, .f32⟩
  | 54 => ⟨S8192x512x1, .f32⟩
  | 55 => ⟨S1x512x11, .f32⟩
  | 56 => ⟨S8192x512x11, .f32⟩
  | 57 => ⟨S8192x512x11, .f32⟩
  | 58 => ⟨S8192x512x11, .i1⟩
  | 59 => ⟨S8192x512x11, .f32⟩
  | 60 => ⟨S_, .f32⟩
  | 61 => ⟨S8192x512x11, .f32⟩
  | 62 => ⟨S8192x512x11, .f32⟩
  | 63 => ⟨S1x512x11, .f32⟩
  | 64 => ⟨S8192x512x11, .f32⟩
  | 65 => ⟨S8192x512x11, .f32⟩
  | 66 => ⟨S_, .f32⟩
  | 67 => ⟨S8192x512x11, .f32⟩
  | 68 => ⟨S8192x512x11, .f32⟩
  | 69 => ⟨S8192x512x11, .f32⟩
  | 70 => ⟨S_, .f32⟩
  | 71 => ⟨S8192x512, .f32⟩
  | 72 => ⟨S1x512x11, .f32⟩
  | 73 => ⟨S8192x512x11, .f32⟩
  | 74 => ⟨S8192x512x11, .f32⟩
  | 75 => ⟨S_, .f32⟩
  | 76 => ⟨S8192x512x11, .f32⟩
  | 77 => ⟨S8192x512x11, .f32⟩
  | 78 => ⟨S8192x512x11, .f32⟩
  | 79 => ⟨S_, .f32⟩
  | 80 => ⟨S8192x512, .f32⟩
  | 81 => ⟨S_, .f32⟩
  | 82 => ⟨S8192x512, .f32⟩
  | 83 => ⟨S_, .f32⟩
  | 84 => ⟨S8192x512, .f32⟩
  | 85 => ⟨S8192x512, .f32⟩
  | 86 => ⟨S8192x512, .f32⟩
  | 87 => ⟨S8192x512, .f32⟩
  | 88 => ⟨S_, .f32⟩
  | 89 => ⟨S8192x512, .f32⟩
  | 90 => ⟨S8192x512, .f32⟩
  | 91 => ⟨S8192x512, .f32⟩
  | 92 => ⟨S8192x512, .f32⟩
  | 93 => ⟨S_, .f32⟩
  | 94 => ⟨S8192x512, .f32⟩
  | 95 => ⟨S8192x512, .f32⟩
  | 96 => ⟨S512x1, .f32⟩
  | 97 => ⟨S512, .f32⟩
  | 98 => ⟨S1x512, .f32⟩
  | 99 => ⟨S8192x512, .f32⟩
  | 100 => ⟨S8192x512, .i1⟩
  | 101 => ⟨S512x1, .f32⟩
  | 102 => ⟨S512, .f32⟩
  | 103 => ⟨S1x512, .f32⟩
  | 104 => ⟨S8192x512, .f32⟩
  | 105 => ⟨S8192x512, .i1⟩
  | 106 => ⟨S_, .f32⟩
  | 107 => ⟨S_, .f32⟩
  | 108 => ⟨S8192x512, .f32⟩
  | 109 => ⟨S8192x512, .f32⟩
  | 110 => ⟨S_, .f32⟩
  | 111 => ⟨S_, .f32⟩
  | 112 => ⟨S8192x512, .f32⟩
  | 113 => ⟨S8192x512, .f32⟩
  | 114 => ⟨S8192x512, .f32⟩
  | 115 => ⟨S8192x512, .f32⟩
  | 116 => ⟨S8192x64x1, .f32⟩
  | 117 => ⟨S1x64x16, .f32⟩
  | 118 => ⟨S8192x64x16, .f32⟩
  | 119 => ⟨S8192x64x16, .f32⟩
  | 120 => ⟨S8192x64x16, .i1⟩
  | 121 => ⟨S8192x64x16, .f32⟩
  | 122 => ⟨S8192x64, .f32⟩
  | 123 => ⟨S8192x64x1, .f32⟩
  | 124 => ⟨S8192x64x16, .f32⟩
  | 125 => ⟨S8192x64x16, .f32⟩
  | 126 => ⟨S8192x1024, .f32⟩
  | 127 => ⟨S8192x3584, .f32⟩
  | _ => ⟨S8192x2624, .f32⟩

abbrev hbmTy0_1 (i : Nat) : BufTy := match i % 128 with
  | 0 => ⟨S_, .f32⟩
  | 1 => ⟨S_, .f32⟩
  | 2 => ⟨S_, .f32⟩
  | 3 => ⟨S8192x3584, .f32⟩
  | 4 => ⟨S8192x3584, .f32⟩
  | 5 => ⟨S_, .f32⟩
  | 6 => ⟨S8192x3584, .f32⟩
  | 7 => ⟨S8192x3584, .f32⟩
  | _ => ⟨S8192x2624, .f32⟩

abbrev hbmTy (i : Nat) : BufTy := match i / 128 with
  | 0 => hbmTy0_0 i
  | 1 => hbmTy0_1 i
  | _ => ⟨S8192x2624, .f32⟩

abbrev bufTy : (tb : Table) → Fin (tcTables nBuf tb) → BufTy
  | .hbm, ⟨i, _⟩ => hbmTy i
  | _, _ => ⟨S8192x2624, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_cst_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_14 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_15 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_16 : Ref sig .tc := ⟨.hbm, 106, rfl⟩
abbrev main_call2_v0 : Ref sig .tc := ⟨.hbm, 107, rfl⟩
abbrev main_call2_v1 : Ref sig .tc := ⟨.hbm, 108, rfl⟩
abbrev main_v74 : Ref sig .tc := ⟨.hbm, 109, rfl⟩
abbrev main_cst_17 : Ref sig .tc := ⟨.hbm, 110, rfl⟩
abbrev main_call3_v0 : Ref sig .tc := ⟨.hbm, 111, rfl⟩
abbrev main_call3_v1 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_18 : Ref sig .tc := ⟨.hbm, 128, rfl⟩
abbrev main_cst_19 : Ref sig .tc := ⟨.hbm, 129, rfl⟩
abbrev main_call4_v0 : Ref sig .tc := ⟨.hbm, 130, rfl⟩
abbrev main_call4_v1 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_v90 : Ref sig .tc := ⟨.hbm, 135, rfl⟩

abbrev nD : Nat := 1
abbrev τ : Topo := Topo.v7x

variable {F : FTy → Type} [FloatOps F]

class Facts₀ : Prop where
  bcast_S_S8192x2624 : S_.BroadcastsInDim S8192x2624 (![] : Fin 0 → Fin S8192x2624.rank)
  slices_S8192x2624_S8192x512_0_0 : S8192x2624.Slices ![0, 0] S8192x512
  slices_S8192x2624_S8192x512_0_512 : S8192x2624.Slices ![0, 512] S8192x512
  slices_S8192x2624_S8192x1024_0_1024 : S8192x2624.Slices ![0, 1024] S8192x1024
  slices_S8192x2624_S8192x512_0_2048 : S8192x2624.Slices ![0, 2048] S8192x512
  slices_S8192x2624_S8192x64_0_2560 : S8192x2624.Slices ![0, 2560] S8192x64
  bcast_S_S8192x512 : S_.BroadcastsInDim S8192x512 (![] : Fin 0 → Fin S8192x512.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S8192x512_S8192x512x1_0_1 : S8192x512.BroadcastsInDim S8192x512x1 (![0, 1] : Fin 2 → Fin S8192x512x1.rank)
  bcast_S512x11_S1x512x11_1_2 : S512x11.BroadcastsInDim S1x512x11 (![1, 2] : Fin 2 → Fin S1x512x11.rank)
  bcast_S8192x512x1_S8192x512x11_0_1_2 : S8192x512x1.BroadcastsInDim S8192x512x11 (![0, 1, 2] : Fin 3 → Fin S8192x512x11.rank)
  bcast_S1x512x11_S8192x512x11_0_1_2 : S1x512x11.BroadcastsInDim S8192x512x11 (![0, 1, 2] : Fin 3 → Fin S8192x512x11.rank)
  bcast_S_S8192x512x11 : S_.BroadcastsInDim S8192x512x11 (![] : Fin 0 → Fin S8192x512x11.rank)
  reducesTo_S8192x512x11_S8192x512_d2 : S8192x512x11.ReducesTo [2] S8192x512
  h_S_ : 0 < S_.numel
  slices_S512x11_S512x1_0_10 : S512x11.Slices ![0, 10] S512x1
  shapeCasts_S512x1_S512 : S512x1.ShapeCasts S512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  slices_S512x11_S512x1_0_0 : S512x11.Slices ![0, 0] S512x1
  bcast_S8192x64_S8192x64x1_0_1 : S8192x64.BroadcastsInDim S8192x64x1 (![0, 1] : Fin 2 → Fin S8192x64x1.rank)
  bcast_S64x16_S1x64x16_1_2 : S64x16.BroadcastsInDim S1x64x16 (![1, 2] : Fin 2 → Fin S1x64x16.rank)
  bcast_S8192x64x1_S8192x64x16_0_1_2 : S8192x64x1.BroadcastsInDim S8192x64x16 (![0, 1, 2] : Fin 3 → Fin S8192x64x16.rank)
  bcast_S1x64x16_S8192x64x16_0_1_2 : S1x64x16.BroadcastsInDim S8192x64x16 (![0, 1, 2] : Fin 3 → Fin S8192x64x16.rank)
  shapeCasts_S8192x64x16_S8192x1024 : S8192x64x16.ShapeCasts S8192x1024
  concatenates_S8192x512_S8192x512_S8192x1024_S8192x512_S8192x1024_S8192x3584_d1 : Shape.Concatenates [S8192x512, S8192x512, S8192x1024, S8192x512, S8192x1024] S8192x3584 1
  bcast_S_S8192x3584 : S_.BroadcastsInDim S8192x3584 (![] : Fin 0 → Fin S8192x3584.rank)

variable [Facts₀]

class Facts : Prop extends Facts₀ where

variable [Facts]
-- ==== Proof.FrameDataBits.lean ====
/-
  What the pallas_call of `Kernel` leaves behind, as data: the arrays as the region finds them, each window's block at a
  grid point, and — the body being straight-line loads, pointwise arithmetic and stores through literal rectangles
  that tile each output buffer — what every output window's staging buffer holds after the body, as the overlay of
  its stores over the input blocks. Output window 5 (the binary features), 6 (the logits of the clamped
  probabilities), 7 (the standardised continuous features) and 8 (the quantile interpolation) are stored whole, once;
  output window 9 (the one-hot of the 64 enum features against 16 values) is stored as 16 column slabs of width 64,
  slab e holding value e of every feature. The quantile value is a chain of eleven passes over the boundaries,
  each pass one group of payloads of the kernel's skeleton; the chain is named here pass by pass.
-/
import proofs.«139877_j41429254537723_1_alg».proof.Proof.Gen.Kernel.Launch
import proofs.«139877_j41429254537723_1_alg».proof.Proof.Gen.Kernel.Skeleton
import proofs.«139877_j41429254537723_1_alg».proof.Proof.Gen.Kernel.Points
import Idealize.ShloMosaic.Lib.Pipeline.FrameBody
import Idealize.ShloMosaic.Lib.Pipeline.FrameSuffix

set_option maxRecDepth 16384

noncomputable section

namespace Cert.Kernel.Frame

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-! ## The arrays as the region finds them -/

/-- Core `c`'s TensorCore buffers when the region is entered: no host operation precedes it, so the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body loads and stores through -/

/-- Of the 256 × 2624 block of `x`: the binary, probability, continuous, quantile and enum columns. -/
abbrev rxB : Rect S256x2624 := Rect.unit (s := S256x2624) ![0, 0] S256x512.size inb_S256x2624_S256x512_0_0
abbrev rxP : Rect S256x2624 := Rect.unit (s := S256x2624) ![0, 512] S256x512.size inb_S256x2624_S256x512_0_512
abbrev rxC : Rect S256x2624 := Rect.unit (s := S256x2624) ![0, 1024] S256x1024.size inb_S256x2624_S256x1024_0_1024
abbrev rxQ : Rect S256x2624 := Rect.unit (s := S256x2624) ![0, 2048] S256x512.size inb_S256x2624_S256x512_0_2048
abbrev rxE : Rect S256x2624 := Rect.unit (s := S256x2624) ![0, 2560] S256x64.size inb_S256x2624_S256x64_0_2560
/-- The whole of the means / deviations vector, of the boundary table, of the enum-value table. -/
abbrev rVec : Rect S1024 := Rect.unit (s := S1024) ![0] S1024.size inb_S1024_S1024_0
abbrev rQb : Rect S512x11 := Rect.unit (s := S512x11) ![0, 0] S512x11.size inb_S512x11_S512x11_0_0
abbrev rEv : Rect S64x16 := Rect.unit (s := S64x16) ![0, 0] S64x16.size inb_S64x16_S64x16_0_0
/-- The whole of a 256 × 512 and of a 256 × 1024 output block. -/
abbrev rO512 : Rect S256x512 := Rect.unit (s := S256x512) ![0, 0] S256x512.size inb_S256x512_S256x512_0_0
abbrev rO1024 : Rect S256x1024 := Rect.unit (s := S256x1024) ![0, 0] S256x1024.size inb_S256x1024_S256x1024_0_0
/-- Slab `e` of the enum block: columns 64·e … 64·e + 63. -/
abbrev rE0 : Rect S256x1024 := Rect.unit (s := S256x1024) ![0, 0] S256x64.size inb_S256x1024_S256x64_0_0
abbrev rE1 : Rect S256x1024 := Rect.unit (s := S256x1024) ![0, 64] S256x64.size inb_S256x1024_S256x64_0_64
abbrev rE2 : Rect S256x1024 := Rect.unit (s := S256x1024) ![0, 128] S256x64.size inb_S256x1024_S256x64_0_128
abbrev rE3 : Rect S256x1024 := Rect.unit (s := S256x1024) ![0, 192] S256x64.size inb_S256x1024_S256x64_0_192
abbrev rE4 : Rect S256x1024 := Rect.unit (s := S256x1024) ![0, 256] S256x64.size inb_S256x1024_S256x64_0_256
abbrev rE5 : Rect S256x1024 := Rect.unit (s := S256x1024) ![0, 320] S256x64.size inb_S256x1024_S256x64_0_320
abbrev rE6 : Rect S256x1024 := Rect.unit (s := S256x1024) ![0, 384] S256x64.size inb_S256x1024_S256x64_0_384
abbrev rE7 : Rect S256x1024 := Rect.unit (s := S256x1024) ![0, 448] S256x64.size inb_S256x1024_S256x64_0_448
abbrev rE8 : Rect S256x1024 := Rect.unit (s := S256x1024) ![0, 512] S256x64.size inb_S256x1024_S256x64_0_512
abbrev rE9 : Rect S256x1024 := Rect.unit (s := S256x1024) ![0, 576] S256x64.size inb_S256x1024_S256x64_0_576
abbrev rE10 : Rect S256x1024 := Rect.unit (s := S256x1024) ![0, 640] S256x64.size inb_S256x1024_S256x64_0_640
abbrev rE11 : Rect S256x1024 := Rect.unit (s := S256x1024) ![0, 704] S256x64.size inb_S256x1024_S256x64_0_704
abbrev rE12 : Rect S256x1024 := Rect.unit (s := S256x1024) ![0, 768] S256x64.size inb_S256x1024_S256x64_0_768
abbrev rE13 : Rect S256x1024 := Rect.unit (s := S256x1024) ![0, 832] S256x64.size inb_S256x1024_S256x64_0_832
abbrev rE14 : Rect S256x1024 := Rect.unit (s := S256x1024) ![0, 896] S256x64.size inb_S256x1024_S256x64_0_896
abbrev rE15 : Rect S256x1024 := Rect.unit (s := S256x1024) ![0, 960] S256x64.size inb_S256x1024_S256x64_0_960

/-! ## The quantile chain, pass by pass

`v60` is the block's quantile columns and `v65` the boundary table. After pass q the chain holds the count of
boundaries ≤ x so far, the largest such boundary so far (from −1e20) and the smallest boundary > x so far (from 1e20). -/

/-- After passes 0–3: the count, the lower neighbour, the upper neighbour. -/
def qCnt3 (v60 : Vec F S256x512 .f32) (v65 : Vec F S512x11 .f32) : FVec F S256x512 .f32 := k0_pay18 v60 v65 (k0_pay11 v60 v65)
def qLo3 (v60 : Vec F S256x512 .f32) (v65 : Vec F S512x11 .f32) : FVec F S256x512 .f32 :=
  k0_pay19 v60 v65 (k0_pay7 (F := F)) (k0_pay9 v65) (k0_pay10 v60 v65)
def qHi3 (v60 : Vec F S256x512 .f32) (v65 : Vec F S512x11 .f32) : FVec F S256x512 .f32 :=
  k0_pay20 v60 v65 (k0_pay8 (F := F)) (k0_pay9 v65) (k0_pay10 v60 v65)
/-- After the next group of passes. -/
def qCnt6 (v60 : Vec F S256x512 .f32) (v65 : Vec F S512x11 .f32) : FVec F S256x512 .f32 := k0_pay30 v60 v65 (qCnt3 v60 v65) (k0_pay22 v65)
def qLo6 (v60 : Vec F S256x512 .f32) (v65 : Vec F S512x11 .f32) : FVec F S256x512 .f32 :=
  k0_pay31 v60 v65 (qLo3 v60 v65) (k0_pay21 v65) (k0_pay22 v65)
def qHi6 (v60 : Vec F S256x512 .f32) (v65 : Vec F S512x11 .f32) : FVec F S256x512 .f32 :=
  k0_pay32 v60 v65 (qHi3 v60 v65) (k0_pay21 v65) (k0_pay22 v65)
/-- After the last passes: the interpolated value before the end cases. -/
def qInterp (v60 : Vec F S256x512 .f32) (v65 : Vec F S512x11 .f32) : FVec F S256x512 .f32 :=
  k0_pay33 v60 v65 (qCnt6 v60 v65) (qLo6 v60 v65) (qHi6 v60 v65)
/-- The stored quantile value: the end cases, the missing-value mask, the clamp. -/
def qOut (v60 : Vec F S256x512 .f32) (v65 : Vec F S512x11 .f32) : FVec F S256x512 .f32 :=
  k0_pay35 v60 (k0_pay6 v60) v65 (qInterp v60 v65) (k0_pay34 (F := F))

/-! ## What the body leaves in each output window's buffer -/

/-- Window 5, the binary features: one whole store. -/
def out0_5 (x0 : Vec F S256x2624 .f32) : Vec F S256x512 .f32 :=
  View.canon [⟨rO512, k0_pay3 (View.ld x0 rxB)⟩]
/-- Window 6, the probability features. -/
def out0_6 (x0 : Vec F S256x2624 .f32) : Vec F S256x512 .f32 :=
  View.canon [⟨rO512, k0_pay4 (View.ld x0 rxP)⟩]
/-- Window 7, the continuous features, from the block, the means and the deviations. -/
def out0_7 (x0 : Vec F S256x2624 .f32) (x1 x2 : Vec F S1024 .f32) : Vec F S256x1024 .f32 :=
  View.canon [⟨rO1024, k0_pay5 (View.ld x0 rxC) (View.ld x1 rVec) (View.ld x2 rVec)⟩]
/-- Window 8, the quantile features, from the block and the boundary table. -/
def out0_8 (x0 : Vec F S256x2624 .f32) (x3 : Vec F S512x11 .f32) : Vec F S256x512 .f32 :=
  View.canon [⟨rO512, qOut (View.ld x0 rxQ) (View.ld x3 rQb)⟩]
/-- Slab `e` of the enum block, from the block's enum columns `v264` and the value table `v269`. -/
def ePay0 (v264 : Vec F S256x64 .f32) (v269 : Vec F S64x16 .f32) : FVec F S256x64 .f32 := k0_pay37 v264 v269
def ePay1 (v264 : Vec F S256x64 .f32) (v269 : Vec F S64x16 .f32) : FVec F S256x64 .f32 := k0_pay39 v264 (k0_pay36 v264) (k0_pay38 v269)
def ePay2 (v264 : Vec F S256x64 .f32) (v269 : Vec F S64x16 .f32) : FVec F S256x64 .f32 := k0_pay40 v264 (k0_pay36 v264) v269
def ePay3 (v264 : Vec F S256x64 .f32) (v269 : Vec F S64x16 .f32) : FVec F S256x64 .f32 := k0_pay41 v264 (k0_pay36 v264) v269
def ePay4 (v264 : Vec F S256x64 .f32) (v269 : Vec F S64x16 .f32) : FVec F S256x64 .f32 := k0_pay43 (k0_pay42 v264 (k0_pay36 v264) v269) (Scalar.ofBits .f32 0xC0C00000#32)
def ePay5 (v264 : Vec F S256x64 .f32) (v269 : Vec F S64x16 .f32) : FVec F S256x64 .f32 := k0_pay44 v264 (k0_pay36 v264) v269
def ePay6 (v264 : Vec F S256x64 .f32) (v269 : Vec F S64x16 .f32) : FVec F S256x64 .f32 := k0_pay45 v264 (k0_pay36 v264) v269
def ePay7 (v264 : Vec F S256x64 .f32) (v269 : Vec F S64x16 .f32) : FVec F S256x64 .f32 := k0_pay46 v264 (k0_pay36 v264) v269
def ePay8 (v264 : Vec F S256x64 .f32) (v269 : Vec F S64x16 .f32) : FVec F S256x64 .f32 := k0_pay47 v264 (k0_pay36 v264) v269
def ePay9 (v264 : Vec F S256x64 .f32) (v269 : Vec F S64x16 .f32) : FVec F S256x64 .f32 := k0_pay48 v264 (k0_pay36 v264) v269
def ePay10 (v264 : Vec F S256x64 .f32) (v269 : Vec F S64x16 .f32) : FVec F S256x64 .f32 := k0_pay49 v264 (k0_pay36 v264) v269
def ePay11 (v264 : Vec F S256x64 .f32) (v269 : Vec F S64x16 .f32) : FVec F S256x64 .f32 := k0_pay51 v264 (k0_pay36 v264) (k0_pay50 v269)
def ePay12 (v264 : Vec F S256x64 .f32) (v269 : Vec F S64x16 .f32) : FVec F S256x64 .f32 := k0_pay52 v264 (k0_pay36 v264) v269
def ePay13 (v264 : Vec F S256x64 .f32) (v269 : Vec F S64x16 .f32) : FVec F S256x64 .f32 := k0_pay53 v264 (k0_pay36 v264) v269
def ePay14 (v264 : Vec F S256x64 .f32) (v269 : Vec F S64x16 .f32) : FVec F S256x64 .f32 := k0_pay1 (k0_pay54 v264 (k0_pay36 v264) v269) (Scalar.ofBits .f32 0xC0C00000#32)
def ePay15 (v264 : Vec F S256x64 .f32) (v269 : Vec F S64x16 .f32) : FVec F S256x64 .f32 := k0_pay2 v264 (k0_pay36 v264) v269
/-- Window 9, the enum one-hots: its 16 slab stores, LAST FIRST. -/
def out0_9 (x0 : Vec F S256x2624 .f32) (x4 : Vec F S64x16 .f32) : Vec F S256x1024 .f32 :=
  View.canon [⟨rE15, ePay15 (View.ld x0 rxE) (View.ld x4 rEv)⟩,
    ⟨rE14, ePay14 (View.ld x0 rxE) (View.ld x4 rEv)⟩,
    ⟨rE13, ePay13 (View.ld x0 rxE) (View.ld x4 rEv)⟩,
    ⟨rE12, ePay12 (View.ld x0 rxE) (View.ld x4 rEv)⟩,
    ⟨rE11, ePay11 (View.ld x0 rxE) (View.ld x4 rEv)⟩,
    ⟨rE10, ePay10 (View.ld x0 rxE) (View.ld x4 rEv)⟩,
    ⟨rE9, ePay9 (View.ld x0 rxE) (View.ld x4 rEv)⟩,
    ⟨rE8, ePay8 (View.ld x0 rxE) (View.ld x4 rEv)⟩,
    ⟨rE7, ePay7 (View.ld x0 rxE) (View.ld x4 rEv)⟩,
    ⟨rE6, ePay6 (View.ld x0 rxE) (View.ld x4 rEv)⟩,
    ⟨rE5, ePay5 (View.ld x0 rxE) (View.ld x4 rEv)⟩,
    ⟨rE4, ePay4 (View.ld x0 rxE) (View.ld x4 rEv)⟩,
    ⟨rE3, ePay3 (View.ld x0 rxE) (View.ld x4 rEv)⟩,
    ⟨rE2, ePay2 (View.ld x0 rxE) (View.ld x4 rEv)⟩,
    ⟨rE1, ePay1 (View.ld x0 rxE) (View.ld x4 rEv)⟩,
    ⟨rE0, ePay0 (View.ld x0 rxE) (View.ld x4 rEv)⟩]

/-! ## The pipeline's proof data -/

/-- On core `c`: the arrays as the region finds them; after the body at point `t` each input's buffer at its block and
    each output's at `out0_W` of the input blocks; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t)
    | ⟨6, _⟩ => out0_6 (iblk m c 0 t)
    | ⟨7, _⟩ => out0_7 (iblk m c 0 t) (iblk m c 1 t) (iblk m c 2 t)
    | ⟨8, _⟩ => out0_8 (iblk m c 0 t) (iblk m c 3 t)
    | ⟨9, _⟩ => out0_9 (iblk m c 0 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) := by dsimp only [dats]
theorem after0_6 (c : Dev nD) (t : Fin cfg0.N) : (dats m 0 c).after 6 t = out0_6 (iblk m c 0 t) := by dsimp only [dats]
theorem after0_7 (c : Dev nD) (t : Fin cfg0.N) : (dats m 0 c).after 7 t = out0_7 (iblk m c 0 t) (iblk m c 1 t) (iblk m c 2 t) := by dsimp only [dats]
theorem after0_8 (c : Dev nD) (t : Fin cfg0.N) : (dats m 0 c).after 8 t = out0_8 (iblk m c 0 t) (iblk m c 3 t) := by dsimp only [dats]
theorem after0_9 (c : Dev nD) (t : Fin cfg0.N) : (dats m 0 c).after 9 t = out0_9 (iblk m c 0 t) (iblk m c 4 t) := by dsimp only [dats]

end Cert.Kernel.Frame

end
-- ==== Proof.FrameHostBits.lean ====
/-
  The host side of `Kernel`'s frame: @main is its one pallas_call continued by two stretches of host lines, the
  lines stay within the pipeline's arrays and the buffers that bypass it, allocate nothing and write no array, and the
  five argument arrays — the arrays of the five input windows — end as launched.
-/
import proofs.«139877_j41429254537723_1_alg».proof.Proof.FrameDataBits
import Idealize.ShloMosaic.Lib.Pipeline.FrameBody
import Idealize.ShloMosaic.Lib.Pipeline.FrameSuffix
import Idealize.ShloMosaic.Lib.Tactic

set_option maxRecDepth 16384

noncomputable section

namespace Cert.Kernel.Frame

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## @main around the region

@main is the pallas_call, then two stretches of host lines: the reshape–transpose–reshape of the enum block, the
concatenation of the five results and two scalar constants; then the clip of the concatenation between the constants.
Nothing precedes the region. -/

/-- No host line allocates. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main reduces to the region continued by the two stretches, the region finding the launch contents. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [] [hostOps1, hostOps1_1] (by simp only [List.Forall])
    (by simp only [List.Forall]) main_chain

/-! ## The lines after the region -/

/-- They touch unscoped TensorCore buffers only; with nothing prefetched every such buffer is an array of the pipeline
    or bypasses it. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 winFacts0.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)

/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-- Each line writes its own result buffer, and none of the twelve results is an array of the pipeline (the arrays
    are the five arguments and the five results of the call). -/
theorem tail_keeps_arr (w : Fin 10) : ∀ op ∈ (List.flatten [hostOps1, hostOps1_1] : List (HloOp τ sig (Elt F))),
    Proc.devRef .tc (Pipeline.arrRef spec0 w) ∉ op.writes := by
  refine List.forall_iff_forall_mem.mp ?_
  simp only [hostOps1, hostOps1_1, List.flatten_cons, List.flatten_nil, List.append_nil, List.cons_append,
    List.nil_append, List.Forall, StableHlo.nullary_writes, StableHlo.unary_writes, StableHlo.binary_writes, StableHlo.reshape_writes, StableHlo.nary_writes, Finset.mem_singleton]
  fin_cases w <;> (repeat' apply And.intro) <;> exact StableHlo.devRef_ne_of_ne (by decide)

theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop w
  refine tail_keeps_arr w op ?_
  simp only [List.mem_cons, List.mem_nil_iff, or_false] at hops
  rcases hops with rfl | rfl
  · exact List.mem_flatten.mpr ⟨_, List.mem_cons_self, hop⟩
  · exact List.mem_flatten.mpr ⟨_, List.mem_cons_of_mem _ List.mem_cons_self, hop⟩

/-! ## The argument arrays -/

/-- The region is the first thing @main does, so it finds `main_arg0` as launched. -/
theorem V_main_arg0 (c : Dev nD) : V m c main_arg0 = m ((c : Thread nD τ).loc main_arg0) := rfl

/-- The region is the first thing @main does, so it finds `main_arg1` as launched. -/
theorem V_main_arg1 (c : Dev nD) : V m c main_arg1 = m ((c : Thread nD τ).loc main_arg1) := rfl

/-- The region is the first thing @main does, so it finds `main_arg2` as launched. -/
theorem V_main_arg2 (c : Dev nD) : V m c main_arg2 = m ((c : Thread nD τ).loc main_arg2) := rfl

/-- The region is the first thing @main does, so it finds `main_arg3` as launched. -/
theorem V_main_arg3 (c : Dev nD) : V m c main_arg3 = m ((c : Thread nD τ).loc main_arg3) := rfl

/-- The region is the first thing @main does, so it finds `main_arg4` as launched. -/
theorem V_main_arg4 (c : Dev nD) : V m c main_arg4 = m ((c : Thread nD τ).loc main_arg4) := rfl

/-- `main_arg0` is window 0's array, an input: the region never writes it back, and no later line writes it. -/
theorem W_main_arg0 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) [hostOps1, hostOps1_1] c main_arg0 = m ((c : Thread nD τ).loc main_arg0) := by
  unfold Pipeline.afterTail₀
  rw [StableHlo.after_of_forall_not_mem (b := Proc.devRef .tc main_arg0) _ _ (tail_keeps_arr (0 : Fin 10))]
  exact (Pipeline.withArrays_arr spec0 winFacts0.arr_inj c (V0 m c) _ (0 : Fin 10)).trans
    (((dats' 0 c).arrAt_in (0 : Fin 10) rfl _).trans ((hA c (0 : Fin 10)).trans (V_main_arg0 m c)))

/-- `main_arg1` is window 1's array, an input: the region never writes it back, and no later line writes it. -/
theorem W_main_arg1 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) [hostOps1, hostOps1_1] c main_arg1 = m ((c : Thread nD τ).loc main_arg1) := by
  unfold Pipeline.afterTail₀
  rw [StableHlo.after_of_forall_not_mem (b := Proc.devRef .tc main_arg1) _ _ (tail_keeps_arr (1 : Fin 10))]
  exact (Pipeline.withArrays_arr spec0 winFacts0.arr_inj c (V0 m c) _ (1 : Fin 10)).trans
    (((dats' 0 c).arrAt_in (1 : Fin 10) rfl _).trans ((hA c (1 : Fin 10)).trans (V_main_arg1 m c)))

/-- `main_arg2` is window 2's array, an input: the region never writes it back, and no later line writes it. -/
theorem W_main_arg2 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) [hostOps1, hostOps1_1] c main_arg2 = m ((c : Thread nD τ).loc main_arg2) := by
  unfold Pipeline.afterTail₀
  rw [StableHlo.after_of_forall_not_mem (b := Proc.devRef .tc main_arg2) _ _ (tail_keeps_arr (2 : Fin 10))]
  exact (Pipeline.withArrays_arr spec0 winFacts0.arr_inj c (V0 m c) _ (2 : Fin 10)).trans
    (((dats' 0 c).arrAt_in (2 : Fin 10) rfl _).trans ((hA c (2 : Fin 10)).trans (V_main_arg2 m c)))

/-- `main_arg3` is window 3's array, an input: the region never writes it back, and no later line writes it. -/
theorem W_main_arg3 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) [hostOps1, hostOps1_1] c main_arg3 = m ((c : Thread nD τ).loc main_arg3) := by
  unfold Pipeline.afterTail₀
  rw [StableHlo.after_of_forall_not_mem (b := Proc.devRef .tc main_arg3) _ _ (tail_keeps_arr (3 : Fin 10))]
  exact (Pipeline.withArrays_arr spec0 winFacts0.arr_inj c (V0 m c) _ (3 : Fin 10)).trans
    (((dats' 0 c).arrAt_in (3 : Fin 10) rfl _).trans ((hA c (3 : Fin 10)).trans (V_main_arg3 m c)))

/-- `main_arg4` is window 4's array, an input: the region never writes it back, and no later line writes it. -/
theorem W_main_arg4 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) [hostOps1, hostOps1_1] c main_arg4 = m ((c : Thread nD τ).loc main_arg4) := by
  unfold Pipeline.afterTail₀
  rw [StableHlo.after_of_forall_not_mem (b := Proc.devRef .tc main_arg4) _ _ (tail_keeps_arr (4 : Fin 10))]
  exact (Pipeline.withArrays_arr spec0 winFacts0.arr_inj c (V0 m c) _ (4 : Fin 10)).trans
    (((dats' 0 c).arrAt_in (4 : Fin 10) rfl _).trans ((hA c (4 : Fin 10)).trans (V_main_arg4 m c)))

/-! ## The frame claim's post from the frame run's -/

/-- For any proof data whose arrays are the region-entry contents: the frame run's post gives each argument array,
    an input window's array, at what the library computes for it — its entry contents, never written back —, which is
    the launch contents. -/
theorem frame_of (dats' : (p : Fin 1) → (c : Dev nD) → Dat τ (Elt F) Unit ℕ (UR sig nD τ) ℕ (cfgs p) c)
    (hA : ∀ c w, (dats' 0 c).A w = V m c (Pipeline.arrRef spec0 w))
    (h : θ_run defs (onTc (τ := τ) (main (F := F))) (s₀ m ρ) (Pipeline.FramePost cfgs dats' 0 (Pipeline.afterTail₀ cfgs dats' 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 (0 : Fin 10)).trans (((dats' 0 c).arrAt_in (0 : Fin 10) rfl _).trans ((hA c (0 : Fin 10)).trans (V_main_arg0 m c))),
     ((h c).1 (1 : Fin 10)).trans (((dats' 0 c).arrAt_in (1 : Fin 10) rfl _).trans ((hA c (1 : Fin 10)).trans (V_main_arg1 m c))),
     ((h c).1 (2 : Fin 10)).trans (((dats' 0 c).arrAt_in (2 : Fin 10) rfl _).trans ((hA c (2 : Fin 10)).trans (V_main_arg2 m c))),
     ((h c).1 (3 : Fin 10)).trans (((dats' 0 c).arrAt_in (3 : Fin 10) rfl _).trans ((hA c (3 : Fin 10)).trans (V_main_arg3 m c))),
     ((h c).1 (4 : Fin 10)).trans (((dats' 0 c).arrAt_in (4 : Fin 10) rfl _).trans ((hA c (4 : Fin 10)).trans (V_main_arg4 m c)))⟩) h

end Cert.Kernel.Frame

end
-- ==== Proof.FrameBodyBits.lean ====
/-
  The body side of the frame of `Kernel`'s one region. The kernel body only loads through literal rectangles,
  computes pointwise, and stores through literal rectangles that tile each output buffer; so from whole staging
  buffers — the inputs' at given contents, the outputs' at anything — it runs to the inputs' unchanged and each
  output's at the overlay of its stores (`out0_5` … `out0_9` of the data module). Here: each input's staging buffer
  holds its block whenever the body is called; each output's stores cover its buffer; the body's triple; and the
  pipeline's body obligation at every grid point.
-/
import proofs.«139877_j41429254537723_1_alg».proof.Proof.FrameDataBits
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What each input's staging buffer holds when the body is called -/

/-- Input window 0 is uncut and never idle, and the body leaves its block in place: fetched at this point or not, its
    current staging buffer holds its block (an unfetched window's block index has not moved since the last fetch). -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- Input window 1 is uncut and never idle, and the body leaves its block in place: fetched at this point or not, its
    current staging buffer holds its block (an unfetched window's block index has not moved since the last fetch). -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- Input window 2 is uncut and never idle, and the body leaves its block in place: fetched at this point or not, its
    current staging buffer holds its block (an unfetched window's block index has not moved since the last fetch). -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
/-- Input window 3 is uncut and never idle, and the body leaves its block in place: fetched at this point or not, its
    current staging buffer holds its block (an unfetched window's block index has not moved since the last fetch). -/
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
/-- Input window 4 is uncut and never idle, and the body leaves its block in place: fetched at this point or not, its
    current staging buffer holds its block (an unfetched window's block index has not moved since the last fetch). -/
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The stores of each output cover its buffer -/

/-- One store through the whole 256 × 512 rectangle covers a 256 × 512 buffer. -/
theorem cover0_512 (p0 : Vec F S256x512 .f32) (y : S256x512.Idx) :
    ∃ pc ∈ ([⟨rO512, p0⟩] : List (View.Piece (Elt F) S256x512 .f32)), y ∈ pc.1.set :=
  View.cover_of_tiled ([⟨rO512, p0⟩] : List (View.Piece (Elt F) S256x512 .f32)) S256x512.size (by rfl) y

/-- Windows 5, 6 and 8 are each stored once, whole. -/
theorem cover0_5 (p0 : Vec F S256x512 .f32) (y : S256x512.Idx) :
    ∃ pc ∈ ([⟨rO512, p0⟩] : List (View.Piece (Elt F) S256x512 .f32)), y ∈ pc.1.set := cover0_512 p0 y
theorem cover0_6 (p0 : Vec F S256x512 .f32) (y : S256x512.Idx) :
    ∃ pc ∈ ([⟨rO512, p0⟩] : List (View.Piece (Elt F) S256x512 .f32)), y ∈ pc.1.set := cover0_512 p0 y
theorem cover0_8 (p0 : Vec F S256x512 .f32) (y : S256x512.Idx) :
    ∃ pc ∈ ([⟨rO512, p0⟩] : List (View.Piece (Elt F) S256x512 .f32)), y ∈ pc.1.set := cover0_512 p0 y

/-- Window 7: one store through the whole 256 × 1024 rectangle. -/
theorem cover0_7 (p0 : Vec F S256x1024 .f32) (y : S256x1024.Idx) :
    ∃ pc ∈ ([⟨rO1024, p0⟩] : List (View.Piece (Elt F) S256x1024 .f32)), y ∈ pc.1.set :=
  View.cover_of_tiled ([⟨rO1024, p0⟩] : List (View.Piece (Elt F) S256x1024 .f32)) S256x1024.size (by rfl) y

/-- Window 9: sixteen column slabs of width 64, at columns 0, 64, …, 960, tile the 1024 columns. -/
theorem cover0_9 (p0 p1 p2 p3 p4 p5 p6 p7 p8 p9 p10 p11 p12 p13 p14 p15 : Vec F S256x64 .f32) (y : S256x1024.Idx) :
    ∃ pc ∈ ([⟨rE15, p15⟩, ⟨rE14, p14⟩, ⟨rE13, p13⟩, ⟨rE12, p12⟩, ⟨rE11, p11⟩, ⟨rE10, p10⟩, ⟨rE9, p9⟩, ⟨rE8, p8⟩,
        ⟨rE7, p7⟩, ⟨rE6, p6⟩, ⟨rE5, p5⟩, ⟨rE4, p4⟩, ⟨rE3, p3⟩, ⟨rE2, p2⟩, ⟨rE1, p1⟩, ⟨rE0, p0⟩] : List (View.Piece (Elt F) S256x1024 .f32)), y ∈ pc.1.set :=
  View.cover_of_tiledL (s := S256x1024) ([⟨rE15, p15⟩, ⟨rE14, p14⟩, ⟨rE13, p13⟩, ⟨rE12, p12⟩, ⟨rE11, p11⟩, ⟨rE10, p10⟩, ⟨rE9, p9⟩, ⟨rE8, p8⟩,
        ⟨rE7, p7⟩, ⟨rE6, p6⟩, ⟨rE5, p5⟩, ⟨rE4, p4⟩, ⟨rE3, p3⟩, ⟨rE2, p2⟩, ⟨rE1, p1⟩, ⟨rE0, p0⟩] : List (View.Piece (Elt F) S256x1024 .f32))
    (fun a => S256x64.size a) (by sl_kernel_rfl) y

/-! ## The body's triple -/

set_option maxHeartbeats 4000000 in
/-- The kernel body on whole staging memrefs, the inputs' at contents `x0 … x4` and the outputs' at anything, runs to the
    continuation holding the inputs' as they were and each output's at `out0_W` of the inputs': the printed function and
    its parts are their skeletons, run part by part; what each output buffer then reads is the overlay of its covering
    stores, whatever it held before. -/
theorem sound_kernel (c : Dev nD) (E : Set ℕ) (i : grid0.Coords) (arg1 : Memref sig .tc .vmem S256x2624 .f32) (harg1 : arg1.IsWhole) (arg2 : Memref sig .tc .vmem S1024 .f32) (harg2 : arg2.IsWhole) (arg3 : Memref sig .tc .vmem S1024 .f32) (harg3 : arg3.IsWhole) (arg4 : Memref sig .tc .vmem S512x11 .f32) (harg4 : arg4.IsWhole) (arg5 : Memref sig .tc .vmem S64x16 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1024 .f32) (harg8 : arg8.IsWhole) (arg9 : Memref sig .tc .vmem S256x512 .f32) (harg9 : arg9.IsWhole) (arg10 : Memref sig .tc .vmem S256x1024 .f32) (harg10 : arg10.IsWhole)
    (x0 : Vec F S256x2624 .f32) (x1 x2 : Vec F S1024 .f32) (x3 : Vec F S512x11 .f32) (x4 : Vec F S64x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0) ∗ owns (c : Thread nD τ) arg7 fullShare (out0_6 x0) ∗ owns (c : Thread nD τ) arg8 fullShare (out0_7 x0 x1 x2) ∗ owns (c : Thread nD τ) arg9 fullShare (out0_8 x0 x3) ∗ owns (c : Thread nD τ) arg10 fullShare (out0_9 x0 x4)) -∗ K ⟨⟩))
      ⊢ wp frame (wpE (defs₀ (F := F)) Variants.none c none) E (cc0__prep_kernel i arg1 harg1 arg2 harg2 arg3 harg3 arg4 harg4 arg5 harg5 arg6 harg6 arg7 harg7 arg8 harg8 arg9 harg9 arg10 harg10) K := by
  simp only [cc0__prep_kernel_eq_skeleton]; unfold cc0__prep_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf0; subst hf1; subst hf2; subst hf3; subst hf4
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _ _ _ _ _ _ _ _ _ _ _ _ _ _ _ _)

/-! ## The body obligation, at a generic point -/

/-- What the body is called with at point `t`: the class invariant, the core's debts, and each window's current staging
    buffer, whole, at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns: the invariant and the debts untouched, each staging buffer at what the proof data says. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: each input's staging buffer holds its block, so the kernel's triple applies at the blocks;
    the invariant and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.FrameRunBits.lean ====
/-
  The run of `Kernel`'s @main and its frame: with the body's obligation at every grid point, the library's frame
  run around the region gives every array of the pipeline at what it computes from the proof data and every bypassing
  buffer as the lines after the region leave it; read at the five argument arrays, that is the frame claim.
-/
import proofs.«139877_j41429254537723_1_alg».proof.Proof.FrameHostBits
import proofs.«139877_j41429254537723_1_alg».proof.Proof.FrameBodyBits

set_option maxRecDepth 16384

noncomputable section

namespace Cert.Kernel.Frame

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The run and the frame -/

-- the library's frame run at this program's configuration, layout facts and proof data
set_option backward.isDefEq.respectTransparency.types false in
/-- From any memory with zero counters, for any values: every weakly fair execution of @main on the TensorCores
    terminates, and every final state has each array of the pipeline at what the library computes from the proof data and
    every other unscoped buffer as the two stretches of host lines leave it from the region's exit. The proof data hold
    full shares, owe nothing and keep the class invariant at every point. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The frame claim at any float model: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Frame

end
-- ==== Proof.FrameDataIdeal.lean ====
/-
  What the pallas_call of `KernelIdeal` leaves behind, as data: the arrays as the region finds them, each window's block at a
  grid point, and — the body being straight-line loads, pointwise arithmetic and stores through literal rectangles
  that tile each output buffer — what every output window's staging buffer holds after the body, as the overlay of
  its stores over the input blocks. Output window 5 (the binary features), 6 (the logits of the clamped
  probabilities), 7 (the standardised continuous features) and 8 (the quantile interpolation) are stored whole, once;
  output window 9 (the one-hot of the 64 enum features against 16 values) is stored as 16 column slabs of width 64,
  slab e holding value e of every feature. The quantile value is a chain of eleven passes over the boundaries,
  each pass one group of payloads of the kernel's skeleton; the chain is named here pass by pass.
-/
import proofs.«139877_j41429254537723_1_alg».proof.Proof.Gen.KernelIdeal.Launch
import proofs.«139877_j41429254537723_1_alg».proof.Proof.Gen.KernelIdeal.Skeleton
import proofs.«139877_j41429254537723_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Frame

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## The arrays as the region finds them -/

/-- Core `c`'s TensorCore buffers when the region is entered: no host operation precedes it, so the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body loads and stores through -/

/-- Of the 256 × 2624 block of `x`: the binary, probability, continuous, quantile and enum columns. -/
abbrev rxB : Rect S256x2624 := Rect.unit (s := S256x2624) ![0, 0] S256x512.size inb_S256x2624_S256x512_0_0
abbrev rxP : Rect S256x2624 := Rect.unit (s := S256x2624) ![0, 512] S256x512.size inb_S256x2624_S256x512_0_512
abbrev rxC : Rect S256x2624 := Rect.unit (s := S256x2624) ![0, 1024] S256x1024.size inb_S256x2624_S256x1024_0_1024
abbrev rxQ : Rect S256x2624 := Rect.unit (s := S256x2624) ![0, 2048] S256x512.size inb_S256x2624_S256x512_0_2048
abbrev rxE : Rect S256x2624 := Rect.unit (s := S256x2624) ![0, 2560] S256x64.size inb_S256x2624_S256x64_0_2560
/-- The whole of the means / deviations vector, of the boundary table, of the enum-value table. -/
abbrev rVec : Rect S1024 := Rect.unit (s := S1024) ![0] S1024.size inb_S1024_S1024_0
abbrev rQb : Rect S512x11 := Rect.unit (s := S512x11) ![0, 0] S512x11.size inb_S512x11_S512x11_0_0
abbrev rEv : Rect S64x16 := Rect.unit (s := S64x16) ![0, 0] S64x16.size inb_S64x16_S64x16_0_0
/-- The whole of a 256 × 512 and of a 256 × 1024 output block. -/
abbrev rO512 : Rect S256x512 := Rect.unit (s := S256x512) ![0, 0] S256x512.size inb_S256x512_S256x512_0_0
abbrev rO1024 : Rect S256x1024 := Rect.unit (s := S256x1024) ![0, 0] S256x1024.size inb_S256x1024_S256x1024_0_0
/-- Slab `e` of the enum block: columns 64·e … 64·e + 63. -/
abbrev rE0 : Rect S256x1024 := Rect.unit (s := S256x1024) ![0, 0] S256x64.size inb_S256x1024_S256x64_0_0
abbrev rE1 : Rect S256x1024 := Rect.unit (s := S256x1024) ![0, 64] S256x64.size inb_S256x1024_S256x64_0_64
abbrev rE2 : Rect S256x1024 := Rect.unit (s := S256x1024) ![0, 128] S256x64.size inb_S256x1024_S256x64_0_128
abbrev rE3 : Rect S256x1024 := Rect.unit (s := S256x1024) ![0, 192] S256x64.size inb_S256x1024_S256x64_0_192
abbrev rE4 : Rect S256x1024 := Rect.unit (s := S256x1024) ![0, 256] S256x64.size inb_S256x1024_S256x64_0_256
abbrev rE5 : Rect S256x1024 := Rect.unit (s := S256x1024) ![0, 320] S256x64.size inb_S256x1024_S256x64_0_320
abbrev rE6 : Rect S256x1024 := Rect.unit (s := S256x1024) ![0, 384] S256x64.size inb_S256x1024_S256x64_0_384
abbrev rE7 : Rect S256x1024 := Rect.unit (s := S256x1024) ![0, 448] S256x64.size inb_S256x1024_S256x64_0_448
abbrev rE8 : Rect S256x1024 := Rect.unit (s := S256x1024) ![0, 512] S256x64.size inb_S256x1024_S256x64_0_512
abbrev rE9 : Rect S256x1024 := Rect.unit (s := S256x1024) ![0, 576] S256x64.size inb_S256x1024_S256x64_0_576
abbrev rE10 : Rect S256x1024 := Rect.unit (s := S256x1024) ![0, 640] S256x64.size inb_S256x1024_S256x64_0_640
abbrev rE11 : Rect S256x1024 := Rect.unit (s := S256x1024) ![0, 704] S256x64.size inb_S256x1024_S256x64_0_704
abbrev rE12 : Rect S256x1024 := Rect.unit (s := S256x1024) ![0, 768] S256x64.size inb_S256x1024_S256x64_0_768
abbrev rE13 : Rect S256x1024 := Rect.unit (s := S256x1024) ![0, 832] S256x64.size inb_S256x1024_S256x64_0_832
abbrev rE14 : Rect S256x1024 := Rect.unit (s := S256x1024) ![0, 896] S256x64.size inb_S256x1024_S256x64_0_896
abbrev rE15 : Rect S256x1024 := Rect.unit (s := S256x1024) ![0, 960] S256x64.size inb_S256x1024_S256x64_0_960

/-! ## The quantile chain, pass by pass

`v60` is the block's quantile columns and `v65` the boundary table. After pass q the chain holds the count of
boundaries ≤ x so far, the largest such boundary so far (from −1e20) and the smallest boundary > x so far (from 1e20). -/

/-- After passes 0–3: the count, the lower neighbour, the upper neighbour. -/
def qCnt3 (v60 : Vec F S256x512 .f32) (v65 : Vec F S512x11 .f32) : FVec F S256x512 .f32 := k0_pay18 v60 v65 (k0_pay11 v60 v65)
def qLo3 (v60 : Vec F S256x512 .f32) (v65 : Vec F S512x11 .f32) : FVec F S256x512 .f32 :=
  k0_pay19 v60 v65 (k0_pay7 (F := F)) (k0_pay9 v65) (k0_pay10 v60 v65)
def qHi3 (v60 : Vec F S256x512 .f32) (v65 : Vec F S512x11 .f32) : FVec F S256x512 .f32 :=
  k0_pay20 v60 v65 (k0_pay8 (F := F)) (k0_pay9 v65) (k0_pay10 v60 v65)
/-- After the next group of passes. -/
def qCnt6 (v60 : Vec F S256x512 .f32) (v65 : Vec F S512x11 .f32) : FVec F S256x512 .f32 := k0_pay30 v60 v65 (qCnt3 v60 v65) (k0_pay22 v65)
def qLo6 (v60 : Vec F S256x512 .f32) (v65 : Vec F S512x11 .f32) : FVec F S256x512 .f32 :=
  k0_pay31 v60 v65 (qLo3 v60 v65) (k0_pay21 v65) (k0_pay22 v65)
def qHi6 (v60 : Vec F S256x512 .f32) (v65 : Vec F S512x11 .f32) : FVec F S256x512 .f32 :=
  k0_pay32 v60 v65 (qHi3 v60 v65) (k0_pay21 v65) (k0_pay22 v65)
/-- After the last passes: the interpolated value before the end cases. -/
def qInterp (v60 : Vec F S256x512 .f32) (v65 : Vec F S512x11 .f32) : FVec F S256x512 .f32 :=
  k0_pay33 v60 v65 (qCnt6 v60 v65) (qLo6 v60 v65) (qHi6 v60 v65)
/-- The stored quantile value: the end cases, the missing-value mask, the clamp. -/
def qOut (v60 : Vec F S256x512 .f32) (v65 : Vec F S512x11 .f32) : FVec F S256x512 .f32 :=
  k0_pay35 v60 (k0_pay6 v60) v65 (qInterp v60 v65) (k0_pay34 (F := F))

/-! ## What the body leaves in each output window's buffer -/

/-- Window 5, the binary features: one whole store. -/
def out0_5 (x0 : Vec F S256x2624 .f32) : Vec F S256x512 .f32 :=
  View.canon [⟨rO512, k0_pay3 (View.ld x0 rxB)⟩]
/-- Window 6, the probability features. -/
def out0_6 (x0 : Vec F S256x2624 .f32) : Vec F S256x512 .f32 :=
  View.canon [⟨rO512, k0_pay4 (View.ld x0 rxP)⟩]
/-- Window 7, the continuous features, from the block, the means and the deviations. -/
def out0_7 (x0 : Vec F S256x2624 .f32) (x1 x2 : Vec F S1024 .f32) : Vec F S256x1024 .f32 :=
  View.canon [⟨rO1024, k0_pay5 (View.ld x0 rxC) (View.ld x1 rVec) (View.ld x2 rVec)⟩]
/-- Window 8, the quantile features, from the block and the boundary table. -/
def out0_8 (x0 : Vec F S256x2624 .f32) (x3 : Vec F S512x11 .f32) : Vec F S256x512 .f32 :=
  View.canon [⟨rO512, qOut (View.ld x0 rxQ) (View.ld x3 rQb)⟩]
/-- Slab `e` of the enum block, from the block's enum columns `v264` and the value table `v269`. -/
def ePay0 (v264 : Vec F S256x64 .f32) (v269 : Vec F S64x16 .f32) : FVec F S256x64 .f32 := k0_pay37 v264 v269
def ePay1 (v264 : Vec F S256x64 .f32) (v269 : Vec F S64x16 .f32) : FVec F S256x64 .f32 := k0_pay39 v264 (k0_pay36 v264) (k0_pay38 v269)
def ePay2 (v264 : Vec F S256x64 .f32) (v269 : Vec F S64x16 .f32) : FVec F S256x64 .f32 := k0_pay40 v264 (k0_pay36 v264) v269
def ePay3 (v264 : Vec F S256x64 .f32) (v269 : Vec F S64x16 .f32) : FVec F S256x64 .f32 := k0_pay41 v264 (k0_pay36 v264) v269
def ePay4 (v264 : Vec F S256x64 .f32) (v269 : Vec F S64x16 .f32) : FVec F S256x64 .f32 := k0_pay43 (k0_pay42 v264 (k0_pay36 v264) v269) (Scalar.ofBits .f32 0xC0C00000#32)
def ePay5 (v264 : Vec F S256x64 .f32) (v269 : Vec F S64x16 .f32) : FVec F S256x64 .f32 := k0_pay44 v264 (k0_pay36 v264) v269
def ePay6 (v264 : Vec F S256x64 .f32) (v269 : Vec F S64x16 .f32) : FVec F S256x64 .f32 := k0_pay45 v264 (k0_pay36 v264) v269
def ePay7 (v264 : Vec F S256x64 .f32) (v269 : Vec F S64x16 .f32) : FVec F S256x64 .f32 := k0_pay46 v264 (k0_pay36 v264) v269
def ePay8 (v264 : Vec F S256x64 .f32) (v269 : Vec F S64x16 .f32) : FVec F S256x64 .f32 := k0_pay47 v264 (k0_pay36 v264) v269
def ePay9 (v264 : Vec F S256x64 .f32) (v269 : Vec F S64x16 .f32) : FVec F S256x64 .f32 := k0_pay48 v264 (k0_pay36 v264) v269
def ePay10 (v264 : Vec F S256x64 .f32) (v269 : Vec F S64x16 .f32) : FVec F S256x64 .f32 := k0_pay49 v264 (k0_pay36 v264) v269
def ePay11 (v264 : Vec F S256x64 .f32) (v269 : Vec F S64x16 .f32) : FVec F S256x64 .f32 := k0_pay51 v264 (k0_pay36 v264) (k0_pay50 v269)
def ePay12 (v264 : Vec F S256x64 .f32) (v269 : Vec F S64x16 .f32) : FVec F S256x64 .f32 := k0_pay52 v264 (k0_pay36 v264) v269
def ePay13 (v264 : Vec F S256x64 .f32) (v269 : Vec F S64x16 .f32) : FVec F S256x64 .f32 := k0_pay53 v264 (k0_pay36 v264) v269
def ePay14 (v264 : Vec F S256x64 .f32) (v269 : Vec F S64x16 .f32) : FVec F S256x64 .f32 := k0_pay1 (k0_pay54 v264 (k0_pay36 v264) v269) (Scalar.ofBits .f32 0xC0C00000#32)
def ePay15 (v264 : Vec F S256x64 .f32) (v269 : Vec F S64x16 .f32) : FVec F S256x64 .f32 := k0_pay2 v264 (k0_pay36 v264) v269
/-- Window 9, the enum one-hots: its 16 slab stores, LAST FIRST. -/
def out0_9 (x0 : Vec F S256x2624 .f32) (x4 : Vec F S64x16 .f32) : Vec F S256x1024 .f32 :=
  View.canon [⟨rE15, ePay15 (View.ld x0 rxE) (View.ld x4 rEv)⟩,
    ⟨rE14, ePay14 (View.ld x0 rxE) (View.ld x4 rEv)⟩,
    ⟨rE13, ePay13 (View.ld x0 rxE) (View.ld x4 rEv)⟩,
    ⟨rE12, ePay12 (View.ld x0 rxE) (View.ld x4 rEv)⟩,
    ⟨rE11, ePay11 (View.ld x0 rxE) (View.ld x4 rEv)⟩,
    ⟨rE10, ePay10 (View.ld x0 rxE) (View.ld x4 rEv)⟩,
    ⟨rE9, ePay9 (View.ld x0 rxE) (View.ld x4 rEv)⟩,
    ⟨rE8, ePay8 (View.ld x0 rxE) (View.ld x4 rEv)⟩,
    ⟨rE7, ePay7 (View.ld x0 rxE) (View.ld x4 rEv)⟩,
    ⟨rE6, ePay6 (View.ld x0 rxE) (View.ld x4 rEv)⟩,
    ⟨rE5, ePay5 (View.ld x0 rxE) (View.ld x4 rEv)⟩,
    ⟨rE4, ePay4 (View.ld x0 rxE) (View.ld x4 rEv)⟩,
    ⟨rE3, ePay3 (View.ld x0 rxE) (View.ld x4 rEv)⟩,
    ⟨rE2, ePay2 (View.ld x0 rxE) (View.ld x4 rEv)⟩,
    ⟨rE1, ePay1 (View.ld x0 rxE) (View.ld x4 rEv)⟩,
    ⟨rE0, ePay0 (View.ld x0 rxE) (View.ld x4 rEv)⟩]

/-! ## The pipeline's proof data -/

/-- On core `c`: the arrays as the region finds them; after the body at point `t` each input's buffer at its block and
    each output's at `out0_W` of the input blocks; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t)
    | ⟨6, _⟩ => out0_6 (iblk m c 0 t)
    | ⟨7, _⟩ => out0_7 (iblk m c 0 t) (iblk m c 1 t) (iblk m c 2 t)
    | ⟨8, _⟩ => out0_8 (iblk m c 0 t) (iblk m c 3 t)
    | ⟨9, _⟩ => out0_9 (iblk m c 0 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) := by dsimp only [dats]
theorem after0_6 (c : Dev nD) (t : Fin cfg0.N) : (dats m 0 c).after 6 t = out0_6 (iblk m c 0 t) := by dsimp only [dats]
theorem after0_7 (c : Dev nD) (t : Fin cfg0.N) : (dats m 0 c).after 7 t = out0_7 (iblk m c 0 t) (iblk m c 1 t) (iblk m c 2 t) := by dsimp only [dats]
theorem after0_8 (c : Dev nD) (t : Fin cfg0.N) : (dats m 0 c).after 8 t = out0_8 (iblk m c 0 t) (iblk m c 3 t) := by dsimp only [dats]
theorem after0_9 (c : Dev nD) (t : Fin cfg0.N) : (dats m 0 c).after 9 t = out0_9 (iblk m c 0 t) (iblk m c 4 t) := by dsimp only [dats]

end Cert.KernelIdeal.Frame

end
-- ==== Proof.FrameHostIdeal.lean ====
/-
  The host side of `KernelIdeal`'s frame: @main is its one pallas_call continued by two stretches of host lines, the
  lines stay within the pipeline's arrays and the buffers that bypass it, allocate nothing and write no array, and the
  five argument arrays — the arrays of the five input windows — end as launched.
-/
import proofs.«139877_j41429254537723_1_alg».proof.Proof.FrameDataIdeal
import Idealize.ShloMosaic.Lib.Pipeline.FrameBody
import Idealize.ShloMosaic.Lib.Pipeline.FrameSuffix
import Idealize.ShloMosaic.Lib.Tactic

set_option maxRecDepth 16384

noncomputable section

namespace Cert.KernelIdeal.Frame

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## @main around the region

@main is the pallas_call, then two stretches of host lines: the reshape–transpose–reshape of the enum block, the
concatenation of the five results and two scalar constants; then the clip of the concatenation between the constants.
Nothing precedes the region. -/

/-- No host line allocates. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main reduces to the region continued by the two stretches, the region finding the launch contents. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [] [hostOps1, hostOps1_1] (by simp only [List.Forall])
    (by simp only [List.Forall]) main_chain

/-! ## The lines after the region -/

/-- They touch unscoped TensorCore buffers only; with nothing prefetched every such buffer is an array of the pipeline
    or bypasses it. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 winFacts0.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)

/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-- Each line writes its own result buffer, and none of the twelve results is an array of the pipeline (the arrays
    are the five arguments and the five results of the call). -/
theorem tail_keeps_arr (w : Fin 10) : ∀ op ∈ (List.flatten [hostOps1, hostOps1_1] : List (HloOp τ sig (Elt F))),
    Proc.devRef .tc (Pipeline.arrRef spec0 w) ∉ op.writes := by
  refine List.forall_iff_forall_mem.mp ?_
  simp only [hostOps1, hostOps1_1, List.flatten_cons, List.flatten_nil, List.append_nil, List.cons_append,
    List.nil_append, List.Forall, StableHlo.nullary_writes, StableHlo.unary_writes, StableHlo.binary_writes, StableHlo.reshape_writes, StableHlo.nary_writes, Finset.mem_singleton]
  fin_cases w <;> (repeat' apply And.intro) <;> exact StableHlo.devRef_ne_of_ne (by decide)

theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop w
  refine tail_keeps_arr w op ?_
  simp only [List.mem_cons, List.mem_nil_iff, or_false] at hops
  rcases hops with rfl | rfl
  · exact List.mem_flatten.mpr ⟨_, List.mem_cons_self, hop⟩
  · exact List.mem_flatten.mpr ⟨_, List.mem_cons_of_mem _ List.mem_cons_self, hop⟩

/-! ## The argument arrays -/

/-- The region is the first thing @main does, so it finds `main_arg0` as launched. -/
theorem V_main_arg0 (c : Dev nD) : V m c main_arg0 = m ((c : Thread nD τ).loc main_arg0) := rfl

/-- The region is the first thing @main does, so it finds `main_arg1` as launched. -/
theorem V_main_arg1 (c : Dev nD) : V m c main_arg1 = m ((c : Thread nD τ).loc main_arg1) := rfl

/-- The region is the first thing @main does, so it finds `main_arg2` as launched. -/
theorem V_main_arg2 (c : Dev nD) : V m c main_arg2 = m ((c : Thread nD τ).loc main_arg2) := rfl

/-- The region is the first thing @main does, so it finds `main_arg3` as launched. -/
theorem V_main_arg3 (c : Dev nD) : V m c main_arg3 = m ((c : Thread nD τ).loc main_arg3) := rfl

/-- The region is the first thing @main does, so it finds `main_arg4` as launched. -/
theorem V_main_arg4 (c : Dev nD) : V m c main_arg4 = m ((c : Thread nD τ).loc main_arg4) := rfl

/-- `main_arg0` is window 0's array, an input: the region never writes it back, and no later line writes it. -/
theorem W_main_arg0 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) [hostOps1, hostOps1_1] c main_arg0 = m ((c : Thread nD τ).loc main_arg0) := by
  unfold Pipeline.afterTail₀
  rw [StableHlo.after_of_forall_not_mem (b := Proc.devRef .tc main_arg0) _ _ (tail_keeps_arr (0 : Fin 10))]
  exact (Pipeline.withArrays_arr spec0 winFacts0.arr_inj c (V0 m c) _ (0 : Fin 10)).trans
    (((dats' 0 c).arrAt_in (0 : Fin 10) rfl _).trans ((hA c (0 : Fin 10)).trans (V_main_arg0 m c)))

/-- `main_arg1` is window 1's array, an input: the region never writes it back, and no later line writes it. -/
theorem W_main_arg1 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) [hostOps1, hostOps1_1] c main_arg1 = m ((c : Thread nD τ).loc main_arg1) := by
  unfold Pipeline.afterTail₀
  rw [StableHlo.after_of_forall_not_mem (b := Proc.devRef .tc main_arg1) _ _ (tail_keeps_arr (1 : Fin 10))]
  exact (Pipeline.withArrays_arr spec0 winFacts0.arr_inj c (V0 m c) _ (1 : Fin 10)).trans
    (((dats' 0 c).arrAt_in (1 : Fin 10) rfl _).trans ((hA c (1 : Fin 10)).trans (V_main_arg1 m c)))

/-- `main_arg2` is window 2's array, an input: the region never writes it back, and no later line writes it. -/
theorem W_main_arg2 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) [hostOps1, hostOps1_1] c main_arg2 = m ((c : Thread nD τ).loc main_arg2) := by
  unfold Pipeline.afterTail₀
  rw [StableHlo.after_of_forall_not_mem (b := Proc.devRef .tc main_arg2) _ _ (tail_keeps_arr (2 : Fin 10))]
  exact (Pipeline.withArrays_arr spec0 winFacts0.arr_inj c (V0 m c) _ (2 : Fin 10)).trans
    (((dats' 0 c).arrAt_in (2 : Fin 10) rfl _).trans ((hA c (2 : Fin 10)).trans (V_main_arg2 m c)))

/-- `main_arg3` is window 3's array, an input: the region never writes it back, and no later line writes it. -/
theorem W_main_arg3 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) [hostOps1, hostOps1_1] c main_arg3 = m ((c : Thread nD τ).loc main_arg3) := by
  unfold Pipeline.afterTail₀
  rw [StableHlo.after_of_forall_not_mem (b := Proc.devRef .tc main_arg3) _ _ (tail_keeps_arr (3 : Fin 10))]
  exact (Pipeline.withArrays_arr spec0 winFacts0.arr_inj c (V0 m c) _ (3 : Fin 10)).trans
    (((dats' 0 c).arrAt_in (3 : Fin 10) rfl _).trans ((hA c (3 : Fin 10)).trans (V_main_arg3 m c)))

/-- `main_arg4` is window 4's array, an input: the region never writes it back, and no later line writes it. -/
theorem W_main_arg4 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) [hostOps1, hostOps1_1] c main_arg4 = m ((c : Thread nD τ).loc main_arg4) := by
  unfold Pipeline.afterTail₀
  rw [StableHlo.after_of_forall_not_mem (b := Proc.devRef .tc main_arg4) _ _ (tail_keeps_arr (4 : Fin 10))]
  exact (Pipeline.withArrays_arr spec0 winFacts0.arr_inj c (V0 m c) _ (4 : Fin 10)).trans
    (((dats' 0 c).arrAt_in (4 : Fin 10) rfl _).trans ((hA c (4 : Fin 10)).trans (V_main_arg4 m c)))

/-! ## The frame claim's post from the frame run's -/

/-- For any proof data whose arrays are the region-entry contents: the frame run's post gives each argument array,
    an input window's array, at what the library computes for it — its entry contents, never written back —, which is
    the launch contents. -/
theorem frame_of (dats' : (p : Fin 1) → (c : Dev nD) → Dat τ (Elt F) Unit ℕ (UR sig nD τ) ℕ (cfgs p) c)
    (hA : ∀ c w, (dats' 0 c).A w = V m c (Pipeline.arrRef spec0 w))
    (h : θ_run defs (onTc (τ := τ) (main (F := F))) (s₀ m ρ) (Pipeline.FramePost cfgs dats' 0 (Pipeline.afterTail₀ cfgs dats' 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 (0 : Fin 10)).trans (((dats' 0 c).arrAt_in (0 : Fin 10) rfl _).trans ((hA c (0 : Fin 10)).trans (V_main_arg0 m c))),
     ((h c).1 (1 : Fin 10)).trans (((dats' 0 c).arrAt_in (1 : Fin 10) rfl _).trans ((hA c (1 : Fin 10)).trans (V_main_arg1 m c))),
     ((h c).1 (2 : Fin 10)).trans (((dats' 0 c).arrAt_in (2 : Fin 10) rfl _).trans ((hA c (2 : Fin 10)).trans (V_main_arg2 m c))),
     ((h c).1 (3 : Fin 10)).trans (((dats' 0 c).arrAt_in (3 : Fin 10) rfl _).trans ((hA c (3 : Fin 10)).trans (V_main_arg3 m c))),
     ((h c).1 (4 : Fin 10)).trans (((dats' 0 c).arrAt_in (4 : Fin 10) rfl _).trans ((hA c (4 : Fin 10)).trans (V_main_arg4 m c)))⟩) h

end Cert.KernelIdeal.Frame

end
-- ==== Proof.FrameBodyIdeal.lean ====
/-
  The body side of the frame of `KernelIdeal`'s one region. The kernel body only loads through literal rectangles,
  computes pointwise, and stores through literal rectangles that tile each output buffer; so from whole staging
  buffers — the inputs' at given contents, the outputs' at anything — it runs to the inputs' unchanged and each
  output's at the overlay of its stores (`out0_5` … `out0_9` of the data module). Here: each input's staging buffer
  holds its block whenever the body is called; each output's stores cover its buffer; the body's triple; and the
  pipeline's body obligation at every grid point.
-/
import proofs.«139877_j41429254537723_1_alg».proof.Proof.FrameDataIdeal
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What each input's staging buffer holds when the body is called -/

/-- Input window 0 is uncut and never idle, and the body leaves its block in place: fetched at this point or not, its
    current staging buffer holds its block (an unfetched window's block index has not moved since the last fetch). -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- Input window 1 is uncut and never idle, and the body leaves its block in place: fetched at this point or not, its
    current staging buffer holds its block (an unfetched window's block index has not moved since the last fetch). -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- Input window 2 is uncut and never idle, and the body leaves its block in place: fetched at this point or not, its
    current staging buffer holds its block (an unfetched window's block index has not moved since the last fetch). -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
/-- Input window 3 is uncut and never idle, and the body leaves its block in place: fetched at this point or not, its
    current staging buffer holds its block (an unfetched window's block index has not moved since the last fetch). -/
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
/-- Input window 4 is uncut and never idle, and the body leaves its block in place: fetched at this point or not, its
    current staging buffer holds its block (an unfetched window's block index has not moved since the last fetch). -/
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The stores of each output cover its buffer -/

/-- One store through the whole 256 × 512 rectangle covers a 256 × 512 buffer. -/
theorem cover0_512 (p0 : Vec F S256x512 .f32) (y : S256x512.Idx) :
    ∃ pc ∈ ([⟨rO512, p0⟩] : List (View.Piece (Elt F) S256x512 .f32)), y ∈ pc.1.set :=
  View.cover_of_tiled ([⟨rO512, p0⟩] : List (View.Piece (Elt F) S256x512 .f32)) S256x512.size (by rfl) y

/-- Windows 5, 6 and 8 are each stored once, whole. -/
theorem cover0_5 (p0 : Vec F S256x512 .f32) (y : S256x512.Idx) :
    ∃ pc ∈ ([⟨rO512, p0⟩] : List (View.Piece (Elt F) S256x512 .f32)), y ∈ pc.1.set := cover0_512 p0 y
theorem cover0_6 (p0 : Vec F S256x512 .f32) (y : S256x512.Idx) :
    ∃ pc ∈ ([⟨rO512, p0⟩] : List (View.Piece (Elt F) S256x512 .f32)), y ∈ pc.1.set := cover0_512 p0 y
theorem cover0_8 (p0 : Vec F S256x512 .f32) (y : S256x512.Idx) :
    ∃ pc ∈ ([⟨rO512, p0⟩] : List (View.Piece (Elt F) S256x512 .f32)), y ∈ pc.1.set := cover0_512 p0 y

/-- Window 7: one store through the whole 256 × 1024 rectangle. -/
theorem cover0_7 (p0 : Vec F S256x1024 .f32) (y : S256x1024.Idx) :
    ∃ pc ∈ ([⟨rO1024, p0⟩] : List (View.Piece (Elt F) S256x1024 .f32)), y ∈ pc.1.set :=
  View.cover_of_tiled ([⟨rO1024, p0⟩] : List (View.Piece (Elt F) S256x1024 .f32)) S256x1024.size (by rfl) y

/-- Window 9: sixteen column slabs of width 64, at columns 0, 64, …, 960, tile the 1024 columns. -/
theorem cover0_9 (p0 p1 p2 p3 p4 p5 p6 p7 p8 p9 p10 p11 p12 p13 p14 p15 : Vec F S256x64 .f32) (y : S256x1024.Idx) :
    ∃ pc ∈ ([⟨rE15, p15⟩, ⟨rE14, p14⟩, ⟨rE13, p13⟩, ⟨rE12, p12⟩, ⟨rE11, p11⟩, ⟨rE10, p10⟩, ⟨rE9, p9⟩, ⟨rE8, p8⟩,
        ⟨rE7, p7⟩, ⟨rE6, p6⟩, ⟨rE5, p5⟩, ⟨rE4, p4⟩, ⟨rE3, p3⟩, ⟨rE2, p2⟩, ⟨rE1, p1⟩, ⟨rE0, p0⟩] : List (View.Piece (Elt F) S256x1024 .f32)), y ∈ pc.1.set :=
  View.cover_of_tiledL (s := S256x1024) ([⟨rE15, p15⟩, ⟨rE14, p14⟩, ⟨rE13, p13⟩, ⟨rE12, p12⟩, ⟨rE11, p11⟩, ⟨rE10, p10⟩, ⟨rE9, p9⟩, ⟨rE8, p8⟩,
        ⟨rE7, p7⟩, ⟨rE6, p6⟩, ⟨rE5, p5⟩, ⟨rE4, p4⟩, ⟨rE3, p3⟩, ⟨rE2, p2⟩, ⟨rE1, p1⟩, ⟨rE0, p0⟩] : List (View.Piece (Elt F) S256x1024 .f32))
    (fun a => S256x64.size a) (by sl_kernel_rfl) y

/-! ## The body's triple -/

set_option maxHeartbeats 4000000 in
/-- The kernel body on whole staging memrefs, the inputs' at contents `x0 … x4` and the outputs' at anything, runs to the
    continuation holding the inputs' as they were and each output's at `out0_W` of the inputs': the printed function and
    its parts are their skeletons, run part by part; what each output buffer then reads is the overlay of its covering
    stores, whatever it held before. -/
theorem sound_kernel (c : Dev nD) (E : Set ℕ) (i : grid0.Coords) (arg1 : Memref sig .tc .vmem S256x2624 .f32) (harg1 : arg1.IsWhole) (arg2 : Memref sig .tc .vmem S1024 .f32) (harg2 : arg2.IsWhole) (arg3 : Memref sig .tc .vmem S1024 .f32) (harg3 : arg3.IsWhole) (arg4 : Memref sig .tc .vmem S512x11 .f32) (harg4 : arg4.IsWhole) (arg5 : Memref sig .tc .vmem S64x16 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1024 .f32) (harg8 : arg8.IsWhole) (arg9 : Memref sig .tc .vmem S256x512 .f32) (harg9 : arg9.IsWhole) (arg10 : Memref sig .tc .vmem S256x1024 .f32) (harg10 : arg10.IsWhole)
    (x0 : Vec F S256x2624 .f32) (x1 x2 : Vec F S1024 .f32) (x3 : Vec F S512x11 .f32) (x4 : Vec F S64x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0) ∗ owns (c : Thread nD τ) arg7 fullShare (out0_6 x0) ∗ owns (c : Thread nD τ) arg8 fullShare (out0_7 x0 x1 x2) ∗ owns (c : Thread nD τ) arg9 fullShare (out0_8 x0 x3) ∗ owns (c : Thread nD τ) arg10 fullShare (out0_9 x0 x4)) -∗ K ⟨⟩))
      ⊢ wp frame (wpE (defs₀ (F := F)) Variants.none c none) E (cc0__prep_kernel i arg1 harg1 arg2 harg2 arg3 harg3 arg4 harg4 arg5 harg5 arg6 harg6 arg7 harg7 arg8 harg8 arg9 harg9 arg10 harg10) K := by
  simp only [cc0__prep_kernel_eq_skeleton]; unfold cc0__prep_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf0; subst hf1; subst hf2; subst hf3; subst hf4
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _ _ _ _ _ _ _ _ _ _ _ _ _ _ _ _)

/-! ## The body obligation, at a generic point -/

/-- What the body is called with at point `t`: the class invariant, the core's debts, and each window's current staging
    buffer, whole, at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns: the invariant and the debts untouched, each staging buffer at what the proof data says. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: each input's staging buffer holds its block, so the kernel's triple applies at the blocks;
    the invariant and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.FrameRunIdeal.lean ====
/-
  The run of `KernelIdeal`'s @main and its frame: with the body's obligation at every grid point, the library's frame
  run around the region gives every array of the pipeline at what it computes from the proof data and every bypassing
  buffer as the lines after the region leave it; read at the five argument arrays, that is the frame claim.
-/
import proofs.«139877_j41429254537723_1_alg».proof.Proof.FrameHostIdeal
import proofs.«139877_j41429254537723_1_alg».proof.Proof.FrameBodyIdeal

set_option maxRecDepth 16384

noncomputable section

namespace Cert.KernelIdeal.Frame

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The run and the frame -/

-- the library's frame run at this program's configuration, layout facts and proof data
set_option backward.isDefEq.respectTransparency.types false in
/-- From any memory with zero counters, for any values: every weakly fair execution of @main on the TensorCores
    terminates, and every final state has each array of the pipeline at what the library computes from the proof data and
    every other unscoped buffer as the two stretches of host lines leave it from the region's exit. The proof data hold
    full shares, owe nothing and keep the class invariant at every point. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The frame claim at any float model: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Frame

end
-- ==== Proof.LibNary5.lean ====
/-
  An operation with five operands, run: its result from the five operands' contents.

  An operation over a family of operands leaves at its result buffer its function applied to the family of the operands'
  contents. When the family is a literal list of five references, that family of contents is the list of the five
  contents, each read at its own reference: the contents at the k-th reference of the list is the k-th entry. The
  result is stated twice: with the family spelt as the list of five entries, and with the function applied to the five
  contents given one by one.
-/
import Idealize.ShloMosaic.Lib.StableHlo.Run

noncomputable section

namespace Cert.LibNary5

open Idealize.ShloMosaic Idealize.ShloMosaic.StableHlo

variable {τ : Topo} {sig : RefSig} {Val : EltTy → Type} {x a b c e y : Ref sig .tc}

/-- A function of a family of five contents, applied to five contents given one by one: the family is their list. -/
def nary5Apply
    (f : ((k : Fin 5) → ((![x, a, b, c, e] : Fin 5 → Ref sig .tc) k).ty.Contents Val) → y.ty.Contents Val)
    (v0 : x.ty.Contents Val) (v1 : a.ty.Contents Val) (v2 : b.ty.Contents Val) (v3 : c.ty.Contents Val)
    (v4 : e.ty.Contents Val) : y.ty.Contents Val :=
  f (Fin.cons v0 (Fin.cons v1 (Fin.cons v2 (Fin.cons v3 (Fin.cons v4 (fun i => i.elim0))))))

/-- What it abbreviates. -/
theorem nary5Apply_eq
    (f : ((k : Fin 5) → ((![x, a, b, c, e] : Fin 5 → Ref sig .tc) k).ty.Contents Val) → y.ty.Contents Val)
    (v0 : x.ty.Contents Val) (v1 : a.ty.Contents Val) (v2 : b.ty.Contents Val) (v3 : c.ty.Contents Val)
    (v4 : e.ty.Contents Val) :
    nary5Apply f v0 v1 v2 v3 v4
      = f (Fin.cons v0 (Fin.cons v1 (Fin.cons v2 (Fin.cons v3 (Fin.cons v4 (fun i => i.elim0)))))) := rfl

/-- Over a literal family of five references the result is the function of the five contents, each at its own
    reference: the two families agree at each of the five positions. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same with the five contents given one by one, at any literal result reference. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = nary5Apply f (F (Proc.devRef .tc x)) (F (Proc.devRef .tc a)) (F (Proc.devRef .tc b)) (F (Proc.devRef .tc c))
          (F (Proc.devRef .tc e)) :=
  nary5_result f hxs hy F

end Cert.LibNary5

end
-- ==== Proof.Spec.lean ====
/-
  The layout of the result. Row b of the 8192 × 3584 result is five stretches of columns, each entry a scalar function
  of one entry of row b of `x` and of the parameters of its feature:
    columns    0 …  511   binary feature k = j:            fB x[b, j]
    columns  512 … 1023   probability feature:             fP x[b, j]
    columns 1024 … 2047   continuous feature k = j − 1024: fC x[b, j] mean[k] dev[k]
    columns 2048 … 2559   quantile feature k = j − 2048:   fQ x[b, j] (the 11 boundaries of feature k)
    columns 2560 … 3583   enum feature n = (j − 2560) / 16 against value e = (j − 2560) % 16:
                                                            fE x[b, 2560 + n] value[n, e]
  `assemble` is that layout for ANY five scalar functions: the kernel's result and the reference's are both of this
  form, for their own five functions, and the two programs agree as soon as the five pairs of functions do.
-/
import Idealize.ShloMosaic.PureOps.Ideal
import Idealize.ShloMosaic.Lib.ValueIdx

noncomputable section

namespace Cert.Spec

open Idealize.ShloMosaic Idealize.ShloMosaic.ValueIdx

/-- The result entry at row `b`, column `j`, for the five per-feature scalar functions. -/
def assemble (fB fP : EReal → EReal) (fC : EReal → EReal → EReal → EReal) (fQ : EReal → (Fin 11 → EReal) → EReal)
    (fE : EReal → EReal → EReal)
    (x : (⟨2, ![8192, 2624]⟩ : Shape).Idx → EReal) (mu sd : (⟨1, ![1024]⟩ : Shape).Idx → EReal)
    (qb : (⟨2, ![512, 11]⟩ : Shape).Idx → EReal) (ev : (⟨2, ![64, 16]⟩ : Shape).Idx → EReal)
    (b : Fin 8192) (j : Fin 3584) : EReal :=
  if h0 : j.val < 512 then fB (x (ix2 b (⟨j.val, by omega⟩ : Fin 2624)))
  else if h1 : j.val < 1024 then fP (x (ix2 b (⟨j.val, by omega⟩ : Fin 2624)))
  else if h2 : j.val < 2048 then
    fC (x (ix2 b (⟨j.val, by omega⟩ : Fin 2624))) (mu (ix1 (⟨j.val - 1024, by omega⟩ : Fin 1024))) (sd (ix1 (⟨j.val - 1024, by omega⟩ : Fin 1024)))
  else if h3 : j.val < 2560 then
    fQ (x (ix2 b (⟨j.val, by omega⟩ : Fin 2624))) (fun k => qb (ix2 (⟨j.val - 2048, by omega⟩ : Fin 512) k))
  else
    fE (x (ix2 b (⟨2560 + (j.val - 2560) / 16, by omega⟩ : Fin 2624)))
      (ev (ix2 (⟨(j.val - 2560) / 16, by omega⟩ : Fin 64) (⟨(j.val - 2560) % 16, Nat.mod_lt _ (by decide)⟩ : Fin 16)))

/-- Two layouts agree when their five scalar functions do. -/
theorem assemble_congr {fB fP fB' fP' : EReal → EReal} {fC fC' : EReal → EReal → EReal → EReal}
    {fQ fQ' : EReal → (Fin 11 → EReal) → EReal} {fE fE' : EReal → EReal → EReal}
    (hB : ∀ x, fB x = fB' x) (hP : ∀ x, fP x = fP' x) (hC : ∀ x u s, fC x u s = fC' x u s)
    (hQ : ∀ x q, fQ x q = fQ' x q) (hE : ∀ x v, fE x v = fE' x v) :
    assemble fB fP fC fQ fE = assemble fB' fP' fC' fQ' fE' := by
  funext x mu sd qb ev b j
  unfold assemble
  simp only [hB, hP, hC, hQ, hE]

/-! ## The final clamp

Both programs end by clamping every entry to [−6, 6]: the maximum with −6, then the minimum with 6. The clamp is idempotent
because −6 ≤ 6, which is the one fact about the two literals' values that the certificate uses. -/

/-- The literal 6.0 and the literal −6.0, as the extended reals their patterns denote. -/
def c6 : EReal := Ideal.ofBits .f32 0x40C00000#32
def cm6 : EReal := Ideal.ofBits .f32 0xC0C00000#32

theorem c6_eq : c6 = ((6 : ℝ) : EReal) := by
  unfold c6; simp [Ideal.ofBits, Ideal.ieee, -EReal.coe_mul]; norm_num
theorem cm6_eq : cm6 = ((-6 : ℝ) : EReal) := by
  unfold cm6; simp [Ideal.ofBits, Ideal.ieee, -EReal.coe_mul]; norm_num

theorem cm6_le_c6 : cm6 ≤ c6 := by
  rw [c6_eq, cm6_eq]; exact_mod_cast (by norm_num : (-6 : ℝ) ≤ 6)

/-- The clamp to [−6, 6]. -/
def clip6 (y : EReal) : EReal := min c6 (max cm6 y)

/-- Clamping twice is clamping once. -/
theorem clip6_idem (y : EReal) : clip6 (clip6 y) = clip6 y := by
  unfold clip6
  rw [max_eq_right (le_min cm6_le_c6 (le_max_left _ _)), ← min_assoc, min_self]

end Cert.Spec

end
-- ==== Proof.Tail.lean ====
/-
  The common ending of the two programs. Each builds five tables of 8192 rows — 512, 512, 1024, 512 and 1024 columns
  wide —, lays them side by side into one table of 3584 columns, and clamps every entry to [−6, 6] (the maximum with
  −6, then the minimum with 6). Read at row b and column j, the result is the clamp of the entry of the table whose
  span of columns holds j: columns 0…511 the first, 512…1023 the second, 1024…2047 the third, 2048…2559 the fourth,
  2560…3583 the fifth, each at j less the columns before its span.
-/
import proofs.«139877_j41429254537723_1_alg».proof.Proof.Spec
import Idealize.ShloMosaic.Lib.Pipeline.Value
import Idealize.ShloMosaic.Lib.ValueIdx

noncomputable section

namespace Cert.Tail

open Idealize.ShloMosaic Idealize.ShloMosaic.ValueIdx

abbrev Sa : Shape := ⟨2, ![8192, 512]⟩
abbrev Sb : Shape := ⟨2, ![8192, 1024]⟩
abbrev St : Shape := ⟨2, ![8192, 3584]⟩
abbrev S0 : Shape := ⟨0, ![]⟩

/-- The five tables, each with its shape, in order. -/
abbrev pieces (u0 u1 : FVec Ideal Sa .f32) (u2 : FVec Ideal Sb .f32) (u3 : FVec Ideal Sa .f32) (u4 : FVec Ideal Sb .f32) :
    List ((s : Shape) × (s.Idx → Ideal .f32)) := [⟨Sa, u0⟩, ⟨Sa, u1⟩, ⟨Sb, u2⟩, ⟨Sa, u3⟩, ⟨Sb, u4⟩]

/-- Side by side, then the clamp. -/
def tail (hb : S0.BroadcastsInDim St ![]) (hc : Shape.Concatenates [Sa, Sa, Sb, Sa, Sb] St 1)
    (u0 u1 : FVec Ideal Sa .f32) (u2 : FVec Ideal Sb .f32) (u3 : FVec Ideal Sa .f32) (u4 : FVec Ideal Sb .f32) : FVec Ideal St .f32 :=
  minimumf (broadcastInDim St ![] hb (id (constant (F := Ideal) S0 .f32 0x40C00000#32)))
    (maximumf (broadcastInDim St ![] hb (id (constant (F := Ideal) S0 .f32 0xC0C00000#32)))
      (concatenate St 1 [⟨Sa, u0⟩, ⟨Sa, u1⟩, ⟨Sb, u2⟩, ⟨Sa, u3⟩, ⟨Sb, u4⟩] hc))

/-- The five tables side by side, read at (b, j). -/
theorem side_by_side (hc : Shape.Concatenates [Sa, Sa, Sb, Sa, Sb] St 1)
    (u0 u1 : FVec Ideal Sa .f32) (u2 : FVec Ideal Sb .f32) (u3 : FVec Ideal Sa .f32) (u4 : FVec Ideal Sb .f32)
    (b : Fin 8192) (j : Fin 3584) :
    concatenate St 1 [⟨Sa, u0⟩, ⟨Sa, u1⟩, ⟨Sb, u2⟩, ⟨Sa, u3⟩, ⟨Sb, u4⟩] hc (ix2 b j)
      = if h0 : j.val < 512 then u0 (ix2 b (⟨j.val, h0⟩ : Fin 512))
        else if h1 : j.val < 1024 then u1 (ix2 b (⟨j.val - 512, by omega⟩ : Fin 512))
        else if h2 : j.val < 2048 then u2 (ix2 b (⟨j.val - 1024, by omega⟩ : Fin 1024))
        else if h3 : j.val < 2560 then u3 (ix2 b (⟨j.val - 2048, by omega⟩ : Fin 512))
        else u4 (ix2 b (⟨j.val - 2560, by omega⟩ : Fin 1024)) := by
  have hj : j.val < 3584 := j.isLt
  have off : ∀ {n : Nat} (i : (⟨2, ![8192, n]⟩ : Shape).Idx) (hi0 : (i 0).val = b.val),
      ∀ bb : Fin 2, bb.cast (rfl : (2 : Nat) = 2) ≠ (1 : Fin 2) → (i bb).val = ((ix2 b j : St.Idx) (bb.cast rfl)).val := by
    intro n i hi0 bb hbb
    match bb with
    | ⟨0, _⟩ => exact hi0
    | ⟨1, _⟩ => exact absurd rfl hbb
  by_cases h0 : j.val < 512
  · rw [dif_pos h0]
    exact concatenate_apply_piece (t := St) 1 (pieces u0 u1 u2 u3 u4) hc (ix2 b j) 0 (by simp) Sa u0 rfl rfl 0 rfl _ (off _ rfl) (by show 0 + j.val = j.val; omega)
  rw [dif_neg h0]
  by_cases h1 : j.val < 1024
  · rw [dif_pos h1]
    exact concatenate_apply_piece (t := St) 1 (pieces u0 u1 u2 u3 u4) hc (ix2 b j) 1 (by simp) Sa u1 rfl rfl 512 rfl _ (off _ rfl) (by show 512 + (j.val - 512) = j.val; omega)
  rw [dif_neg h1]
  by_cases h2 : j.val < 2048
  · rw [dif_pos h2]
    exact concatenate_apply_piece (t := St) 1 (pieces u0 u1 u2 u3 u4) hc (ix2 b j) 2 (by simp) Sb u2 rfl rfl 1024 rfl _ (off _ rfl) (by show 1024 + (j.val - 1024) = j.val; omega)
  rw [dif_neg h2]
  by_cases h3 : j.val < 2560
  · rw [dif_pos h3]
    exact concatenate_apply_piece (t := St) 1 (pieces u0 u1 u2 u3 u4) hc (ix2 b j) 3 (by simp) Sa u3 rfl rfl 2048 rfl _ (off _ rfl) (by show 2048 + (j.val - 2048) = j.val; omega)
  rw [dif_neg h3]
  exact concatenate_apply_piece (t := St) 1 (pieces u0 u1 u2 u3 u4) hc (ix2 b j) 4 (by simp) Sb u4 rfl rfl 2560 rfl _ (off _ rfl) (by show 2560 + (j.val - 2560) = j.val; omega)

/-- The ending read at (b, j): the clamp of the entry the column selects. -/
theorem tail_apply (hb : S0.BroadcastsInDim St ![]) (hc : Shape.Concatenates [Sa, Sa, Sb, Sa, Sb] St 1)
    (u0 u1 : FVec Ideal Sa .f32) (u2 : FVec Ideal Sb .f32) (u3 : FVec Ideal Sa .f32) (u4 : FVec Ideal Sb .f32)
    (b : Fin 8192) (j : Fin 3584) :
    tail hb hc u0 u1 u2 u3 u4 (ix2 b j)
      = Cert.Spec.clip6 (if h0 : j.val < 512 then u0 (ix2 b (⟨j.val, h0⟩ : Fin 512))
        else if h1 : j.val < 1024 then u1 (ix2 b (⟨j.val - 512, by omega⟩ : Fin 512))
        else if h2 : j.val < 2048 then u2 (ix2 b (⟨j.val - 1024, by omega⟩ : Fin 1024))
        else if h3 : j.val < 2560 then u3 (ix2 b (⟨j.val - 2048, by omega⟩ : Fin 512))
        else u4 (ix2 b (⟨j.val - 2560, by omega⟩ : Fin 1024))) := by
  have e6 : broadcastInDim St ![] hb (id (constant (F := Ideal) S0 .f32 0x40C00000#32)) (ix2 b j) = Cert.Spec.c6 := by
    rw [broadcastInDim_apply _ hb _ _ ix0 (fun a => a.elim0)]; rfl
  have em6 : broadcastInDim St ![] hb (id (constant (F := Ideal) S0 .f32 0xC0C00000#32)) (ix2 b j) = Cert.Spec.cm6 := by
    rw [broadcastInDim_apply _ hb _ _ ix0 (fun a => a.elim0)]; rfl
  rw [← side_by_side hc u0 u1 u2 u3 u4 b j]
  show min (broadcastInDim St ![] hb (id (constant (F := Ideal) S0 .f32 0x40C00000#32)) (ix2 b j))
      (max (broadcastInDim St ![] hb (id (constant (F := Ideal) S0 .f32 0xC0C00000#32)) (ix2 b j)) _) = _
  rw [e6, em6]
  rfl

end Cert.Tail

end
-- ==== Proof.KerResult.lean ====
/-
  The kernel program's result, from the five arrays its pallas_call leaves. After the region the host re-lays the
  one-hot table — [8192, 16·64] read as [8192, 16, 64], the last two axes exchanged, read as [8192, 64·16], so that
  entry (b, 16·n + e) of the re-laid table is entry (b, 64·e + n) of the kernel's —, puts the five tables side by
  side and clamps. So the result buffer is the two programs' common ending applied to the five arrays after the run.
-/
import proofs.«139877_j41429254537723_1_alg».proof.Proof.FrameHostIdeal
import proofs.«139877_j41429254537723_1_alg».proof.Proof.LibNary5
import proofs.«139877_j41429254537723_1_alg».proof.Proof.Tail
import Idealize.ShloMosaic.Lib.StableHlo.Run
import Idealize.ShloMosaic.Lib.ValueLayout
import Idealize.ShloMosaic.PureOps.Ideal

set_option maxRecDepth 16384

noncomputable section

namespace Cert.KernelIdeal.FrameValue

open Idealize.ShloMosaic Idealize.ShloMosaic.TcCoe Idealize.ShloMosaic.StableHlo Idealize.ShloMosaic.ValueIdx
open Idealize.SL Idealize.SL.Sem
open Idealize.ShloMosaic.Pipeline (Dat Cfg Window)
open Cert.KernelIdeal Cert.KernelIdeal.Gen Cert.KernelIdeal.Frame

variable (m : (ℓ : Loc nD τ sig) → Buf (Elt Ideal) ℓ)

/-- The host's re-laying of the one-hot table. -/
def relay (A : FVec Ideal S8192x1024 .f32) : FVec Ideal S8192x1024 .f32 :=
  shapeCast S8192x1024 (transpose S8192x64x16 [0, 2, 1] (shapeCast S8192x16x64 A shapeCasts_S8192x1024_S8192x16x64) transposes_S8192x16x64_S8192x64x16_0_2_1) shapeCasts_S8192x64x16_S8192x1024

/-- Entry (b, 16·n + e) of the re-laid table is entry (b, 64·e + n) of the table: both are entry (b, n, e) of the
    three-axis table in between, by the row-major positions (b·64 + n)·16 + e and (b·16 + e)·64 + n. -/
theorem relay_apply (A : FVec Ideal S8192x1024 .f32) (b : Fin 8192) (n : Fin 64) (e : Fin 16) :
    relay A (ix2 b (⟨16 * n.val + e.val, by omega⟩ : Fin 1024)) = A (ix2 b (⟨64 * e.val + n.val, by omega⟩ : Fin 1024)) := by
  unfold relay
  rw [shapeCast_apply _ shapeCasts_S8192x64x16_S8192x1024 _ (ix3 b n e) (by
      rw [Shape.rowMajor_val_three, Shape.rowMajor_val_two]
      show (b.val * 64 + n.val) * 16 + e.val = b.val * 1024 + (16 * n.val + e.val)
      omega),
    transpose_ix3_021_apply _ transposes_S8192x16x64_S8192x64x16_0_2_1 b n e,
    shapeCast_apply _ shapeCasts_S8192x1024_S8192x16x64 (ix3 b e n) (ix2 b (⟨64 * e.val + n.val, by omega⟩ : Fin 1024)) (by
      rw [Shape.rowMajor_val_three, Shape.rowMajor_val_two]
      show b.val * 1024 + (64 * e.val + n.val) = (b.val * 16 + e.val) * 64 + n.val
      omega)]

/-- The result buffer after the host's last operation: the common ending of the five arrays after the run. -/
theorem result_eq (c : Dev nD) :
    Pipeline.afterTail₀ cfgs (dats m) 0 (V0 m) [hostOps1, hostOps1_1] c main_v5
      = Cert.Tail.tail bcast_S_S8192x3584 concatenates_S8192x512_S8192x512_S8192x1024_S8192x512_S8192x1024_S8192x3584_d1
          ((dats m 0 c).arrAt 5 cfg0.N) ((dats m 0 c).arrAt 6 cfg0.N) ((dats m 0 c).arrAt 7 cfg0.N) ((dats m 0 c).arrAt 8 cfg0.N)
          (relay ((dats m 0 c).arrAt 9 cfg0.N)) := by
  unfold Pipeline.afterTail₀
  have h5 := Pipeline.withArrays_arr spec0 launch0.win.arr_inj c (V0 m c) (fun w => (dats m 0 c).arrAt w cfg0.N) 5
  have h6 := Pipeline.withArrays_arr spec0 launch0.win.arr_inj c (V0 m c) (fun w => (dats m 0 c).arrAt w cfg0.N) 6
  have h7 := Pipeline.withArrays_arr spec0 launch0.win.arr_inj c (V0 m c) (fun w => (dats m 0 c).arrAt w cfg0.N) 7
  have h8 := Pipeline.withArrays_arr spec0 launch0.win.arr_inj c (V0 m c) (fun w => (dats m 0 c).arrAt w cfg0.N) 8
  have h9 := Pipeline.withArrays_arr spec0 launch0.win.arr_inj c (V0 m c) (fun w => (dats m 0 c).arrAt w cfg0.N) 9
  dsimp only at h5 h6 h7 h8 h9
  rw [← h5, ← h6, ← h7, ← h8, ← h9]
  generalize Pipeline.withArrays spec0 c (V0 m c) (fun w => (dats m 0 c).arrAt w cfg0.N) = W
  simp only [hostOps1, hostOps1_1, List.flatten_cons, List.flatten_nil, List.append_nil, List.cons_append, List.nil_append]
  simp (disch := decide) only [after_cons, after_nil,
      nullary_result', unary_result', binary_result', ternary_result', quaternary_result', reshape_result', nary4_result', Cert.LibNary5.nary5_result',
      unaryIndexed_result', binaryIndexed_result',
      nullary_result_ne', unary_result_ne', binary_result_ne', ternary_result_ne', quaternary_result_ne', reshape_result_ne',
      nary_result_ne', unaryIndexed_result_ne', binaryIndexed_result_ne']
  rfl

end Cert.KernelIdeal.FrameValue

end
-- ==== Proof.KerArr5.lean ====
/-
  From blocks to the whole array, for the binary features (output window 5). The grid's 32 points each write back one
  block of 256 rows; point t's block is rows 256·t … 256·t + 255, all 512 columns, and it reads rows 256·t … of `x`. So
  if the body's block is, entry by entry, a scalar function f of the entry of the x block in the same row and column,
  then the array after the run is f of `x` entry by entry: every block is the restriction of that one array, and the
  blocks of the 32 points cover all 8192 rows.
-/
import proofs.«139877_j41429254537723_1_alg».proof.Proof.FrameDataIdeal
import Idealize.ShloMosaic.Lib.Pipeline.Value
import Idealize.ShloMosaic.Lib.ValueIdx

set_option maxRecDepth 16384

noncomputable section

namespace Cert.KernelIdeal.FrameValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame

variable (m : (ℓ : Loc nD τ sig) → Buf (Elt Ideal) ℓ)

/-- The printed index maps over the grid: the x block and the five output blocks move with the point along the rows
    and stay at column block 0; the four parameter windows stay at block 0. -/
theorem idx_facts : ∀ t : Fin cfg0.N,
    win0_0.index t (0 : Fin 2) = t.val ∧ win0_0.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The array of binary features for a scalar function f of the entry. -/
def arr5 (f : EReal → EReal) (X0 : S8192x2624.Idx → EReal) : S8192x512.Idx → EReal := fun i =>
  f (X0 (ix2 (⟨(i 0).val, (i 0).isLt⟩ : Fin 8192) (⟨(i 1).val, Nat.lt_trans (i 1).isLt (by decide)⟩ : Fin 2624)))

/-- What point t writes back is block t of that array. -/
theorem flushed5_eq (f : EReal → EReal)
    (hf : ∀ (x0 : Vec Ideal S256x2624 .f32) (p : Fin 256) (q : Fin 512),
      out0_5 (F := Ideal) x0 (ix2 p q) = f (x0 (ix2 p (⟨q.val, by omega⟩ : Fin 2624))))
    (c : Dev nD) (t : Fin cfg0.N) :
    (dats m 0 c).flushed 5 t = ((cfg0.win 5).blk t).view.read (Elt Ideal) (arr5 f (V m c main_arg0)) := by
  show (cfg0.win 5).cut (grid0.coords t) ((dats m 0 c).after 5 t) = _
  rw [after0_5]
  obtain ⟨e00, e01, -, -, -, -, -, -, e50, e51, -⟩ := idx_facts t
  funext (j : S256x512.Idx)
  obtain ⟨p, q, rfl⟩ : ∃ (p : Fin 256) (q : Fin 512), j = ix2 p q := ⟨j 0, j 1, eq_ix2 j⟩
  show out0_5 (iblk m c 0 t) (ix2 p q) = arr5 f (V m c main_arg0) (((cfg0.win 5).blk t).view.emb (ix2 p q))
  rw [hf]
  unfold arr5
  show f (V m c main_arg0 (((cfg0.win 0).blk t).view.emb (ix2 p (⟨q.val, by omega⟩ : Fin 2624)))) = _
  refine congrArg f (congrArg (V m c main_arg0) ?_)
  funext a; apply Fin.ext
  match a with
  | ⟨0, _⟩ =>
    show win0_0.index t (0 : Fin 2) * 256 + 1 * p.val = win0_5.index t (0 : Fin 2) * 256 + 1 * p.val
    omega
  | ⟨1, _⟩ =>
    show win0_0.index t (1 : Fin 2) * 2624 + 1 * q.val = win0_5.index t (1 : Fin 2) * 512 + 1 * q.val
    omega

/-- An index of the array is in point t's block iff each coordinate is in the block's range on its axis. -/
theorem mem_blk5 (t : Fin cfg0.N) (i : S8192x512.Idx) :
    i ∈ ((cfg0.win 5).blk t).view.set ↔ ∀ a : Fin 2, win0_5.index t a * S256x512.size a ≤ (i a).val ∧ (i a).val < win0_5.index t a * S256x512.size a + S256x512.size a := by
  show i ∈ ((View.whole main_v0_0).slice (win0_5.rect t)).set ↔ _
  rw [View.set_slice_whole, Rect.mem_set_unit]
  exact Iff.rfl

/-- Every row is in the block of the point its row falls in. -/
theorem cover5 (i : S8192x512.Idx) : ∃ t : Fin cfg0.N, (cfg0.win 5).flush t = true ∧ i ∈ ((cfg0.win 5).blk t).view.set := by
  have hi0 : (i 0).val < 8192 := (i 0).isLt
  have hi1 : (i 1).val < 512 := (i 1).isLt
  refine ⟨(⟨(i 0).val / 256, by show (i 0).val / 256 < 32; omega⟩ : Fin cfg0.N), flush0_5 _, ?_⟩
  rw [mem_blk5]
  obtain ⟨-, -, -, -, -, -, -, -, e50, e51, -⟩ := idx_facts (⟨(i 0).val / 256, by show (i 0).val / 256 < 32; omega⟩ : Fin cfg0.N)
  intro a
  match a with
  | ⟨0, _⟩ =>
    show win0_5.index _ (0 : Fin 2) * 256 ≤ (i 0).val ∧ (i 0).val < win0_5.index _ (0 : Fin 2) * 256 + 256
    rw [e50]; show (i 0).val / 256 * 256 ≤ (i 0).val ∧ (i 0).val < (i 0).val / 256 * 256 + 256
    omega
  | ⟨1, _⟩ =>
    show win0_5.index _ (1 : Fin 2) * 512 ≤ (i 1).val ∧ (i 1).val < win0_5.index _ (1 : Fin 2) * 512 + 512
    rw [e51]; omega

/-- The array after the run. -/
theorem final5 (f : EReal → EReal)
    (hf : ∀ (x0 : Vec Ideal S256x2624 .f32) (p : Fin 256) (q : Fin 512),
      out0_5 (F := Ideal) x0 (ix2 p q) = f (x0 (ix2 p (⟨q.val, by omega⟩ : Fin 2624))))
    (c : Dev nD) : (dats m 0 c).arrAt 5 cfg0.N = arr5 f (V m c main_arg0) :=
  (dats m 0 c).arrAt_eq_of_cover 5 (arr5 f (V m c main_arg0)) (fun t _ => flushed5_eq m f hf c t) cover5

end Cert.KernelIdeal.FrameValue

end
-- ==== Proof.KerArr6.lean ====
/-
  From blocks to the whole array, for the probability features (output window 6): as for the binary features, the
  body reading the x block 512 columns further right.
-/
import proofs.«139877_j41429254537723_1_alg».proof.Proof.KerArr5

set_option maxRecDepth 16384

noncomputable section

namespace Cert.KernelIdeal.FrameValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame

variable (m : (ℓ : Loc nD τ sig) → Buf (Elt Ideal) ℓ)

/-- The array of probability features for a scalar function f of the entry. -/
def arr6 (f : EReal → EReal) (X0 : S8192x2624.Idx → EReal) : S8192x512.Idx → EReal := fun i =>
  f (X0 (ix2 (⟨(i 0).val, (i 0).isLt⟩ : Fin 8192) (⟨512 + (i 1).val, by have hlt : (i 1).val < 512 := (i 1).isLt; show 512 + (i 1).val < 2624; omega⟩ : Fin 2624)))

/-- What point t writes back is block t of that array. -/
theorem flushed6_eq (f : EReal → EReal)
    (hf : ∀ (x0 : Vec Ideal S256x2624 .f32) (p : Fin 256) (q : Fin 512),
      out0_6 (F := Ideal) x0 (ix2 p q) = f (x0 (ix2 p (⟨512 + q.val, by omega⟩ : Fin 2624))))
    (c : Dev nD) (t : Fin cfg0.N) :
    (dats m 0 c).flushed 6 t = ((cfg0.win 6).blk t).view.read (Elt Ideal) (arr6 f (V m c main_arg0)) := by
  show (cfg0.win 6).cut (grid0.coords t) ((dats m 0 c).after 6 t) = _
  rw [after0_6]
  obtain ⟨e00, e01, e10, e20, e30, e31, e40, e41, e50, e51, e60, e61, e70, e71, e80, e81, e90, e91⟩ := idx_facts t
  funext (j : S256x512.Idx)
  obtain ⟨p, q, rfl⟩ : ∃ (p : Fin 256) (q : Fin 512), j = ix2 p q := ⟨j 0, j 1, eq_ix2 j⟩
  show out0_6 (iblk m c 0 t) (ix2 p q) = arr6 f (V m c main_arg0) (((cfg0.win 6).blk t).view.emb (ix2 p q))
  rw [hf]
  unfold arr6
  show f (V m c main_arg0 (((cfg0.win 0).blk t).view.emb (ix2 p (⟨512 + q.val, by omega⟩ : Fin 2624)))) = _
  refine congrArg f (congrArg (V m c main_arg0) ?_)
  funext a; apply Fin.ext
  match a with
  | ⟨0, _⟩ =>
    show win0_0.index t (0 : Fin 2) * 256 + 1 * p.val = win0_6.index t (0 : Fin 2) * 256 + 1 * p.val
    omega
  | ⟨1, _⟩ =>
    show win0_0.index t (1 : Fin 2) * 2624 + 1 * (512 + q.val) = 512 + (win0_6.index t (1 : Fin 2) * 512 + 1 * q.val)
    omega

/-- An index of the array is in point t's block iff each coordinate is in the block's range on its axis. -/
theorem mem_blk6 (t : Fin cfg0.N) (i : S8192x512.Idx) :
    i ∈ ((cfg0.win 6).blk t).view.set ↔ ∀ a : Fin 2, win0_6.index t a * S256x512.size a ≤ (i a).val ∧ (i a).val < win0_6.index t a * S256x512.size a + S256x512.size a := by
  show i ∈ ((View.whole main_v0_1).slice (win0_6.rect t)).set ↔ _
  rw [View.set_slice_whole, Rect.mem_set_unit]
  exact Iff.rfl

/-- Every row is in the block of the point its row falls in. -/
theorem cover6 (i : S8192x512.Idx) : ∃ t : Fin cfg0.N, (cfg0.win 6).flush t = true ∧ i ∈ ((cfg0.win 6).blk t).view.set := by
  have hi0 : (i 0).val < 8192 := (i 0).isLt
  have hi1 : (i 1).val < 512 := (i 1).isLt
  refine ⟨(⟨(i 0).val / 256, by show (i 0).val / 256 < 32; omega⟩ : Fin cfg0.N), flush0_6 _, ?_⟩
  rw [mem_blk6]
  have F := idx_facts (⟨(i 0).val / 256, by show (i 0).val / 256 < 32; omega⟩ : Fin cfg0.N)
  have e0 : win0_6.index (⟨(i 0).val / 256, by show (i 0).val / 256 < 32; omega⟩ : Fin cfg0.N) (0 : Fin 2) = (i 0).val / 256 := by
    obtain ⟨-, -, -, -, -, -, -, -, e50, e51, e60, e61, e70, e71, e80, e81, e90, e91⟩ := F; exact e60
  have e1 : win0_6.index (⟨(i 0).val / 256, by show (i 0).val / 256 < 32; omega⟩ : Fin cfg0.N) (1 : Fin 2) = 0 := by
    obtain ⟨-, -, -, -, -, -, -, -, e50, e51, e60, e61, e70, e71, e80, e81, e90, e91⟩ := F; exact e61
  intro a
  match a with
  | ⟨0, _⟩ =>
    show win0_6.index _ (0 : Fin 2) * 256 ≤ (i 0).val ∧ (i 0).val < win0_6.index _ (0 : Fin 2) * 256 + 256
    rw [e0]; omega
  | ⟨1, _⟩ =>
    show win0_6.index _ (1 : Fin 2) * 512 ≤ (i 1).val ∧ (i 1).val < win0_6.index _ (1 : Fin 2) * 512 + 512
    rw [e1]; omega

/-- The array after the run. -/
theorem final6 (f : EReal → EReal)
    (hf : ∀ (x0 : Vec Ideal S256x2624 .f32) (p : Fin 256) (q : Fin 512),
      out0_6 (F := Ideal) x0 (ix2 p q) = f (x0 (ix2 p (⟨512 + q.val, by omega⟩ : Fin 2624))))
    (c : Dev nD) : (dats m 0 c).arrAt 6 cfg0.N = arr6 f (V m c main_arg0) :=
  (dats m 0 c).arrAt_eq_of_cover 6 (arr6 f (V m c main_arg0)) (fun t _ => flushed6_eq m f hf c t) cover6

end Cert.KernelIdeal.FrameValue

end
-- ==== Proof.KerArr7.lean ====
/-
  From blocks to the whole array, for the continuous features (output window 7): the body reads the x block 1024
  columns to the right, and the whole vectors of means and deviations, which every point finds at block 0.
-/
import proofs.«139877_j41429254537723_1_alg».proof.Proof.KerArr5

set_option maxRecDepth 16384

noncomputable section

namespace Cert.KernelIdeal.FrameValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame

variable (m : (ℓ : Loc nD τ sig) → Buf (Elt Ideal) ℓ)

/-- The array of continuous features for a scalar function f of the entry, its mean and its deviation. -/
def arr7 (f : EReal → EReal → EReal → EReal) (X0 : S8192x2624.Idx → EReal) (X1 X2 : S1024.Idx → EReal) : S8192x1024.Idx → EReal := fun i =>
  f (X0 (ix2 (⟨(i 0).val, (i 0).isLt⟩ : Fin 8192) (⟨1024 + (i 1).val, by have hlt : (i 1).val < 1024 := (i 1).isLt; show 1024 + (i 1).val < 2624; omega⟩ : Fin 2624)))
    (X1 (ix1 (⟨(i 1).val, (i 1).isLt⟩ : Fin 1024))) (X2 (ix1 (⟨(i 1).val, (i 1).isLt⟩ : Fin 1024)))

/-- What point t writes back is block t of that array. -/
theorem flushed7_eq (f : EReal → EReal → EReal → EReal)
    (hf : ∀ (x0 : Vec Ideal S256x2624 .f32) (x1 x2 : Vec Ideal S1024 .f32) (p : Fin 256) (q : Fin 1024),
      out0_7 (F := Ideal) x0 x1 x2 (ix2 p q) = f (x0 (ix2 p (⟨1024 + q.val, by omega⟩ : Fin 2624))) (x1 (ix1 q)) (x2 (ix1 q)))
    (c : Dev nD) (t : Fin cfg0.N) :
    (dats m 0 c).flushed 7 t = ((cfg0.win 7).blk t).view.read (Elt Ideal) (arr7 f (V m c main_arg0) (V m c main_arg1) (V m c main_arg2)) := by
  show (cfg0.win 7).cut (grid0.coords t) ((dats m 0 c).after 7 t) = _
  rw [after0_7]
  obtain ⟨e00, e01, e10, e20, e30, e31, e40, e41, e50, e51, e60, e61, e70, e71, e80, e81, e90, e91⟩ := idx_facts t
  funext (j : S256x1024.Idx)
  obtain ⟨p, q, rfl⟩ : ∃ (p : Fin 256) (q : Fin 1024), j = ix2 p q := ⟨j 0, j 1, eq_ix2 j⟩
  show out0_7 (iblk m c 0 t) (iblk m c 1 t) (iblk m c 2 t) (ix2 p q) = arr7 f (V m c main_arg0) (V m c main_arg1) (V m c main_arg2) (((cfg0.win 7).blk t).view.emb (ix2 p q))
  rw [hf]
  unfold arr7
  show f (V m c main_arg0 (((cfg0.win 0).blk t).view.emb (ix2 p (⟨1024 + q.val, by omega⟩ : Fin 2624))))
      (V m c main_arg1 (((cfg0.win 1).blk t).view.emb (ix1 q))) (V m c main_arg2 (((cfg0.win 2).blk t).view.emb (ix1 q))) = _
  have h0 : ((cfg0.win 0).blk t).view.emb (ix2 p (⟨1024 + q.val, by omega⟩ : Fin 2624))
      = ix2 (⟨((((cfg0.win 7).blk t).view.emb (ix2 p q)) 0).val, ((((cfg0.win 7).blk t).view.emb (ix2 p q)) 0).isLt⟩ : Fin 8192)
          (⟨1024 + ((((cfg0.win 7).blk t).view.emb (ix2 p q)) 1).val, by have hlt : ((((cfg0.win 7).blk t).view.emb (ix2 p q)) 1).val < 1024 := ((((cfg0.win 7).blk t).view.emb (ix2 p q)) 1).isLt; show 1024 + _ < 2624; omega⟩ : Fin 2624) := by
    funext a; apply Fin.ext
    match a with
    | ⟨0, _⟩ =>
      show win0_0.index t (0 : Fin 2) * 256 + 1 * p.val = win0_7.index t (0 : Fin 2) * 256 + 1 * p.val
      omega
    | ⟨1, _⟩ =>
      show win0_0.index t (1 : Fin 2) * 2624 + 1 * (1024 + q.val) = 1024 + (win0_7.index t (1 : Fin 2) * 1024 + 1 * q.val)
      omega
  have h1 : ((cfg0.win 1).blk t).view.emb (ix1 q)
      = ix1 (⟨((((cfg0.win 7).blk t).view.emb (ix2 p q)) 1).val, ((((cfg0.win 7).blk t).view.emb (ix2 p q)) 1).isLt⟩ : Fin 1024) := by
    funext a; apply Fin.ext
    match a with
    | ⟨0, _⟩ =>
      show win0_1.index t (0 : Fin 1) * 1024 + 1 * q.val = win0_7.index t (1 : Fin 2) * 1024 + 1 * q.val
      omega
  have h2 : ((cfg0.win 2).blk t).view.emb (ix1 q)
      = ix1 (⟨((((cfg0.win 7).blk t).view.emb (ix2 p q)) 1).val, ((((cfg0.win 7).blk t).view.emb (ix2 p q)) 1).isLt⟩ : Fin 1024) := by
    funext a; apply Fin.ext
    match a with
    | ⟨0, _⟩ =>
      show win0_2.index t (0 : Fin 1) * 1024 + 1 * q.val = win0_7.index t (1 : Fin 2) * 1024 + 1 * q.val
      omega
  rw [h0, h1, h2]

/-- An index of the array is in point t's block iff each coordinate is in the block's range on its axis. -/
theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v0_2).slice (win0_7.rect t)).set ↔ _
  rw [View.set_slice_whole, Rect.mem_set_unit]
  exact Iff.rfl

/-- Every row is in the block of the point its row falls in. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  refine ⟨(⟨(i 0).val / 256, by show (i 0).val / 256 < 32; omega⟩ : Fin cfg0.N), flush0_7 _, ?_⟩
  rw [mem_blk7]
  have F := idx_facts (⟨(i 0).val / 256, by show (i 0).val / 256 < 32; omega⟩ : Fin cfg0.N)
  have e0 : win0_7.index (⟨(i 0).val / 256, by show (i 0).val / 256 < 32; omega⟩ : Fin cfg0.N) (0 : Fin 2) = (i 0).val / 256 := by
    obtain ⟨-, -, -, -, -, -, -, -, e50, e51, e60, e61, e70, e71, e80, e81, e90, e91⟩ := F; exact e70
  have e1 : win0_7.index (⟨(i 0).val / 256, by show (i 0).val / 256 < 32; omega⟩ : Fin cfg0.N) (1 : Fin 2) = 0 := by
    obtain ⟨-, -, -, -, -, -, -, -, e50, e51, e60, e61, e70, e71, e80, e81, e90, e91⟩ := F; exact e71
  intro a
  match a with
  | ⟨0, _⟩ =>
    show win0_7.index _ (0 : Fin 2) * 256 ≤ (i 0).val ∧ (i 0).val < win0_7.index _ (0 : Fin 2) * 256 + 256
    rw [e0]; omega
  | ⟨1, _⟩ =>
    show win0_7.index _ (1 : Fin 2) * 1024 ≤ (i 1).val ∧ (i 1).val < win0_7.index _ (1 : Fin 2) * 1024 + 1024
    rw [e1]; omega

/-- The array after the run. -/
theorem final7 (f : EReal → EReal → EReal → EReal)
    (hf : ∀ (x0 : Vec Ideal S256x2624 .f32) (x1 x2 : Vec Ideal S1024 .f32) (p : Fin 256) (q : Fin 1024),
      out0_7 (F := Ideal) x0 x1 x2 (ix2 p q) = f (x0 (ix2 p (⟨1024 + q.val, by omega⟩ : Fin 2624))) (x1 (ix1 q)) (x2 (ix1 q)))
    (c : Dev nD) : (dats m 0 c).arrAt 7 cfg0.N = arr7 f (V m c main_arg0) (V m c main_arg1) (V m c main_arg2) :=
  (dats m 0 c).arrAt_eq_of_cover 7 (arr7 f (V m c main_arg0) (V m c main_arg1) (V m c main_arg2)) (fun t _ => flushed7_eq m f hf c t) cover7

end Cert.KernelIdeal.FrameValue

end
-- ==== Proof.KerArr8.lean ====
/-
  From blocks to the whole array, for the quantile features (output window 8): the body reads the x block 2048
  columns to the right and, for the feature in column q, row q of the boundary table, which every point finds whole.
-/
import proofs.«139877_j41429254537723_1_alg».proof.Proof.KerArr5

set_option maxRecDepth 16384

noncomputable section

namespace Cert.KernelIdeal.FrameValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame

variable (m : (ℓ : Loc nD τ sig) → Buf (Elt Ideal) ℓ)

/-- The array of quantile features for a scalar function f of the entry and its feature's eleven boundaries. -/
def arr8 (f : EReal → (Fin 11 → EReal) → EReal) (X0 : S8192x2624.Idx → EReal) (X3 : S512x11.Idx → EReal) : S8192x512.Idx → EReal := fun i =>
  f (X0 (ix2 (⟨(i 0).val, (i 0).isLt⟩ : Fin 8192) (⟨2048 + (i 1).val, by have hlt : (i 1).val < 512 := (i 1).isLt; show 2048 + (i 1).val < 2624; omega⟩ : Fin 2624)))
    (fun k => X3 (ix2 (⟨(i 1).val, (i 1).isLt⟩ : Fin 512) k))

/-- What point t writes back is block t of that array. -/
theorem flushed8_eq (f : EReal → (Fin 11 → EReal) → EReal)
    (hf : ∀ (x0 : Vec Ideal S256x2624 .f32) (x3 : Vec Ideal S512x11 .f32) (p : Fin 256) (q : Fin 512),
      out0_8 (F := Ideal) x0 x3 (ix2 p q) = f (x0 (ix2 p (⟨2048 + q.val, by omega⟩ : Fin 2624))) (fun k => x3 (ix2 q k)))
    (c : Dev nD) (t : Fin cfg0.N) :
    (dats m 0 c).flushed 8 t = ((cfg0.win 8).blk t).view.read (Elt Ideal) (arr8 f (V m c main_arg0) (V m c main_arg3)) := by
  show (cfg0.win 8).cut (grid0.coords t) ((dats m 0 c).after 8 t) = _
  rw [after0_8]
  obtain ⟨e00, e01, e10, e20, e30, e31, e40, e41, e50, e51, e60, e61, e70, e71, e80, e81, e90, e91⟩ := idx_facts t
  funext (j : S256x512.Idx)
  obtain ⟨p, q, rfl⟩ : ∃ (p : Fin 256) (q : Fin 512), j = ix2 p q := ⟨j 0, j 1, eq_ix2 j⟩
  show out0_8 (iblk m c 0 t) (iblk m c 3 t) (ix2 p q) = arr8 f (V m c main_arg0) (V m c main_arg3) (((cfg0.win 8).blk t).view.emb (ix2 p q))
  rw [hf]
  unfold arr8
  show f (V m c main_arg0 (((cfg0.win 0).blk t).view.emb (ix2 p (⟨2048 + q.val, by omega⟩ : Fin 2624))))
      (fun k => V m c main_arg3 (((cfg0.win 3).blk t).view.emb (ix2 q k))) = _
  have h0 : ((cfg0.win 0).blk t).view.emb (ix2 p (⟨2048 + q.val, by omega⟩ : Fin 2624))
      = ix2 (⟨((((cfg0.win 8).blk t).view.emb (ix2 p q)) 0).val, ((((cfg0.win 8).blk t).view.emb (ix2 p q)) 0).isLt⟩ : Fin 8192)
          (⟨2048 + ((((cfg0.win 8).blk t).view.emb (ix2 p q)) 1).val, by have hlt : ((((cfg0.win 8).blk t).view.emb (ix2 p q)) 1).val < 512 := ((((cfg0.win 8).blk t).view.emb (ix2 p q)) 1).isLt; show 2048 + _ < 2624; omega⟩ : Fin 2624) := by
    funext a; apply Fin.ext
    match a with
    | ⟨0, _⟩ =>
      show win0_0.index t (0 : Fin 2) * 256 + 1 * p.val = win0_8.index t (0 : Fin 2) * 256 + 1 * p.val
      omega
    | ⟨1, _⟩ =>
      show win0_0.index t (1 : Fin 2) * 2624 + 1 * (2048 + q.val) = 2048 + (win0_8.index t (1 : Fin 2) * 512 + 1 * q.val)
      omega
  have h3 : ∀ k : Fin 11, ((cfg0.win 3).blk t).view.emb (ix2 q k)
      = ix2 (⟨((((cfg0.win 8).blk t).view.emb (ix2 p q)) 1).val, ((((cfg0.win 8).blk t).view.emb (ix2 p q)) 1).isLt⟩ : Fin 512) k := by
    intro k
    funext a; apply Fin.ext
    match a with
    | ⟨0, _⟩ =>
      show win0_3.index t (0 : Fin 2) * 512 + 1 * q.val = win0_8.index t (1 : Fin 2) * 512 + 1 * q.val
      omega
    | ⟨1, _⟩ =>
      show win0_3.index t (1 : Fin 2) * 11 + 1 * k.val = k.val
      omega
  rw [h0]
  exact congrArg _ (funext fun k => congrArg (V m c main_arg3) (h3 k))

/-- An index of the array is in point t's block iff each coordinate is in the block's range on its axis. -/
theorem mem_blk8 (t : Fin cfg0.N) (i : S8192x512.Idx) :
    i ∈ ((cfg0.win 8).blk t).view.set ↔ ∀ a : Fin 2, win0_8.index t a * S256x512.size a ≤ (i a).val ∧ (i a).val < win0_8.index t a * S256x512.size a + S256x512.size a := by
  show i ∈ ((View.whole main_v0_3).slice (win0_8.rect t)).set ↔ _
  rw [View.set_slice_whole, Rect.mem_set_unit]
  exact Iff.rfl

/-- Every row is in the block of the point its row falls in. -/
theorem cover8 (i : S8192x512.Idx) : ∃ t : Fin cfg0.N, (cfg0.win 8).flush t = true ∧ i ∈ ((cfg0.win 8).blk t).view.set := by
  have hi0 : (i 0).val < 8192 := (i 0).isLt
  have hi1 : (i 1).val < 512 := (i 1).isLt
  refine ⟨(⟨(i 0).val / 256, by show (i 0).val / 256 < 32; omega⟩ : Fin cfg0.N), flush0_8 _, ?_⟩
  rw [mem_blk8]
  have F := idx_facts (⟨(i 0).val / 256, by show (i 0).val / 256 < 32; omega⟩ : Fin cfg0.N)
  have e0 : win0_8.index (⟨(i 0).val / 256, by show (i 0).val / 256 < 32; omega⟩ : Fin cfg0.N) (0 : Fin 2) = (i 0).val / 256 := by
    obtain ⟨-, -, -, -, -, -, -, -, e50, e51, e60, e61, e70, e71, e80, e81, e90, e91⟩ := F; exact e80
  have e1 : win0_8.index (⟨(i 0).val / 256, by show (i 0).val / 256 < 32; omega⟩ : Fin cfg0.N) (1 : Fin 2) = 0 := by
    obtain ⟨-, -, -, -, -, -, -, -, e50, e51, e60, e61, e70, e71, e80, e81, e90, e91⟩ := F; exact e81
  intro a
  match a with
  | ⟨0, _⟩ =>
    show win0_8.index _ (0 : Fin 2) * 256 ≤ (i 0).val ∧ (i 0).val < win0_8.index _ (0 : Fin 2) * 256 + 256
    rw [e0]; omega
  | ⟨1, _⟩ =>
    show win0_8.index _ (1 : Fin 2) * 512 ≤ (i 1).val ∧ (i 1).val < win0_8.index _ (1 : Fin 2) * 512 + 512
    rw [e1]; omega

/-- The array after the run. -/
theorem final8 (f : EReal → (Fin 11 → EReal) → EReal)
    (hf : ∀ (x0 : Vec Ideal S256x2624 .f32) (x3 : Vec Ideal S512x11 .f32) (p : Fin 256) (q : Fin 512),
      out0_8 (F := Ideal) x0 x3 (ix2 p q) = f (x0 (ix2 p (⟨2048 + q.val, by omega⟩ : Fin 2624))) (fun k => x3 (ix2 q k)))
    (c : Dev nD) : (dats m 0 c).arrAt 8 cfg0.N = arr8 f (V m c main_arg0) (V m c main_arg3) :=
  (dats m 0 c).arrAt_eq_of_cover 8 (arr8 f (V m c main_arg0) (V m c main_arg3)) (fun t _ => flushed8_eq m f hf c t) cover8

end Cert.KernelIdeal.FrameValue

end
-- ==== Proof.KerArr9.lean ====
/-
  From blocks to the whole array, for the enum one-hots as the kernel lays them out (output window 9): column
  64·e + n of the block compares enum feature n — column 2560 + n of the x block — with entry (n, e) of the value table,
  which every point finds whole. So column j of the array holds feature j % 64 against value j / 64.
-/
import proofs.«139877_j41429254537723_1_alg».proof.Proof.KerArr5

set_option maxRecDepth 16384

noncomputable section

namespace Cert.KernelIdeal.FrameValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame

variable (m : (ℓ : Loc nD τ sig) → Buf (Elt Ideal) ℓ)

/-- The kernel's array of one-hots for a scalar function f of the entry and the value compared with. -/
def arr9 (f : EReal → EReal → EReal) (X0 : S8192x2624.Idx → EReal) (X4 : S64x16.Idx → EReal) : S8192x1024.Idx → EReal := fun i =>
  f (X0 (ix2 (⟨(i 0).val, (i 0).isLt⟩ : Fin 8192) (⟨2560 + (i 1).val % 64, by have := Nat.mod_lt (i 1).val (by decide : 64 > 0); show 2560 + (i 1).val % 64 < 2624; omega⟩ : Fin 2624)))
    (X4 (ix2 (⟨(i 1).val % 64, Nat.mod_lt _ (by decide)⟩ : Fin 64) (⟨(i 1).val / 64, by have hlt : (i 1).val < 1024 := (i 1).isLt; show (i 1).val / 64 < 16; omega⟩ : Fin 16)))

/-- What point t writes back is block t of that array. -/
theorem flushed9_eq (f : EReal → EReal → EReal)
    (hf : ∀ (x0 : Vec Ideal S256x2624 .f32) (x4 : Vec Ideal S64x16 .f32) (p : Fin 256) (e : Fin 16) (n : Fin 64),
      out0_9 (F := Ideal) x0 x4 (ix2 p (⟨64 * e.val + n.val, by omega⟩ : Fin 1024)) = f (x0 (ix2 p (⟨2560 + n.val, by omega⟩ : Fin 2624))) (x4 (ix2 n e)))
    (c : Dev nD) (t : Fin cfg0.N) :
    (dats m 0 c).flushed 9 t = ((cfg0.win 9).blk t).view.read (Elt Ideal) (arr9 f (V m c main_arg0) (V m c main_arg4)) := by
  show (cfg0.win 9).cut (grid0.coords t) ((dats m 0 c).after 9 t) = _
  rw [after0_9]
  obtain ⟨e00, e01, e10, e20, e30, e31, e40, e41, e50, e51, e60, e61, e70, e71, e80, e81, e90, e91⟩ := idx_facts t
  funext (j : S256x1024.Idx)
  obtain ⟨p, q, rfl⟩ : ∃ (p : Fin 256) (q : Fin 1024), j = ix2 p q := ⟨j 0, j 1, eq_ix2 j⟩
  obtain ⟨e, n, rfl⟩ : ∃ (e : Fin 16) (n : Fin 64), q = (⟨64 * e.val + n.val, by omega⟩ : Fin 1024) :=
    ⟨⟨q.val / 64, by have := q.isLt; omega⟩, ⟨q.val % 64, Nat.mod_lt _ (by decide)⟩, Fin.ext (by show q.val = 64 * (q.val / 64) + q.val % 64; omega)⟩
  show out0_9 (iblk m c 0 t) (iblk m c 4 t) (ix2 p (⟨64 * e.val + n.val, by omega⟩ : Fin 1024))
      = arr9 f (V m c main_arg0) (V m c main_arg4) (((cfg0.win 9).blk t).view.emb (ix2 p (⟨64 * e.val + n.val, by omega⟩ : Fin 1024)))
  rw [hf]
  unfold arr9
  show f (V m c main_arg0 (((cfg0.win 0).blk t).view.emb (ix2 p (⟨2560 + n.val, by omega⟩ : Fin 2624))))
      (V m c main_arg4 (((cfg0.win 4).blk t).view.emb (ix2 n e))) = _
  have hn : n.val < 64 := n.isLt
  have he : e.val < 16 := e.isLt
  have h0 : ((cfg0.win 0).blk t).view.emb (ix2 p (⟨2560 + n.val, by omega⟩ : Fin 2624))
      = ix2 (⟨((((cfg0.win 9).blk t).view.emb (ix2 p (⟨64 * e.val + n.val, by omega⟩ : Fin 1024))) 0).val, ((((cfg0.win 9).blk t).view.emb (ix2 p (⟨64 * e.val + n.val, by omega⟩ : Fin 1024))) 0).isLt⟩ : Fin 8192)
          (⟨2560 + ((((cfg0.win 9).blk t).view.emb (ix2 p (⟨64 * e.val + n.val, by omega⟩ : Fin 1024))) 1).val % 64, by have := Nat.mod_lt ((((cfg0.win 9).blk t).view.emb (ix2 p (⟨64 * e.val + n.val, by omega⟩ : Fin 1024))) 1).val (by decide : 64 > 0); show 2560 + _ % 64 < 2624; omega⟩ : Fin 2624) := by
    funext a; apply Fin.ext
    match a with
    | ⟨0, _⟩ =>
      show win0_0.index t (0 : Fin 2) * 256 + 1 * p.val = win0_9.index t (0 : Fin 2) * 256 + 1 * p.val
      omega
    | ⟨1, _⟩ =>
      show win0_0.index t (1 : Fin 2) * 2624 + 1 * (2560 + n.val) = 2560 + (win0_9.index t (1 : Fin 2) * 1024 + 1 * (64 * e.val + n.val)) % 64
      omega
  have h4 : ((cfg0.win 4).blk t).view.emb (ix2 n e)
      = ix2 (⟨((((cfg0.win 9).blk t).view.emb (ix2 p (⟨64 * e.val + n.val, by omega⟩ : Fin 1024))) 1).val % 64, Nat.mod_lt _ (by decide)⟩ : Fin 64)
          (⟨((((cfg0.win 9).blk t).view.emb (ix2 p (⟨64 * e.val + n.val, by omega⟩ : Fin 1024))) 1).val / 64, by have hlt : ((((cfg0.win 9).blk t).view.emb (ix2 p (⟨64 * e.val + n.val, by omega⟩ : Fin 1024))) 1).val < 1024 := ((((cfg0.win 9).blk t).view.emb (ix2 p (⟨64 * e.val + n.val, by omega⟩ : Fin 1024))) 1).isLt; show _ / 64 < 16; omega⟩ : Fin 16) := by
    funext a; apply Fin.ext
    match a with
    | ⟨0, _⟩ =>
      show win0_4.index t (0 : Fin 2) * 64 + 1 * n.val = (win0_9.index t (1 : Fin 2) * 1024 + 1 * (64 * e.val + n.val)) % 64
      omega
    | ⟨1, _⟩ =>
      show win0_4.index t (1 : Fin 2) * 16 + 1 * e.val = (win0_9.index t (1 : Fin 2) * 1024 + 1 * (64 * e.val + n.val)) / 64
      omega
  rw [h0, h4]

/-- An index of the array is in point t's block iff each coordinate is in the block's range on its axis. -/
theorem mem_blk9 (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v0_4).slice (win0_9.rect t)).set ↔ _
  rw [View.set_slice_whole, Rect.mem_set_unit]
  exact Iff.rfl

/-- Every row is in the block of the point its row falls in. -/
theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  refine ⟨(⟨(i 0).val / 256, by show (i 0).val / 256 < 32; omega⟩ : Fin cfg0.N), flush0_9 _, ?_⟩
  rw [mem_blk9]
  have F := idx_facts (⟨(i 0).val / 256, by show (i 0).val / 256 < 32; omega⟩ : Fin cfg0.N)
  have e0 : win0_9.index (⟨(i 0).val / 256, by show (i 0).val / 256 < 32; omega⟩ : Fin cfg0.N) (0 : Fin 2) = (i 0).val / 256 := by
    obtain ⟨-, -, -, -, -, -, -, -, e50, e51, e60, e61, e70, e71, e80, e81, e90, e91⟩ := F; exact e90
  have e1 : win0_9.index (⟨(i 0).val / 256, by show (i 0).val / 256 < 32; omega⟩ : Fin cfg0.N) (1 : Fin 2) = 0 := by
    obtain ⟨-, -, -, -, -, -, -, -, e50, e51, e60, e61, e70, e71, e80, e81, e90, e91⟩ := F; exact e91
  intro a
  match a with
  | ⟨0, _⟩ =>
    show win0_9.index _ (0 : Fin 2) * 256 ≤ (i 0).val ∧ (i 0).val < win0_9.index _ (0 : Fin 2) * 256 + 256
    rw [e0]; omega
  | ⟨1, _⟩ =>
    show win0_9.index _ (1 : Fin 2) * 1024 ≤ (i 1).val ∧ (i 1).val < win0_9.index _ (1 : Fin 2) * 1024 + 1024
    rw [e1]; omega

/-- The array after the run. -/
theorem final9 (f : EReal → EReal → EReal)
    (hf : ∀ (x0 : Vec Ideal S256x2624 .f32) (x4 : Vec Ideal S64x16 .f32) (p : Fin 256) (e : Fin 16) (n : Fin 64),
      out0_9 (F := Ideal) x0 x4 (ix2 p (⟨64 * e.val + n.val, by omega⟩ : Fin 1024)) = f (x0 (ix2 p (⟨2560 + n.val, by omega⟩ : Fin 2624))) (x4 (ix2 n e)))
    (c : Dev nD) : (dats m 0 c).arrAt 9 cfg0.N = arr9 f (V m c main_arg0) (V m c main_arg4) :=
  (dats m 0 c).arrAt_eq_of_cover 9 (arr9 f (V m c main_arg0) (V m c main_arg4)) (fun t _ => flushed9_eq m f hf c t) cover9

end Cert.KernelIdeal.FrameValue

end
-- ==== Proof.KerValue.lean ====
/-
  The kernel program's result, entry by entry, in the shared layout form. If the body's five output blocks are, entry
  by entry, scalar functions kB, kP, kC, kQ, kE of the entries of the input blocks they read, then the result buffer
  at row b and column j is the layout of the five functions, each under the final clamp, over the argument arrays: the
  column picks the table, the table is that function of the arrays entry by entry, and for the one-hot table the host's
  re-laying turns column 16·n + e into the kernel's column 64·e + n, which compares feature n with its value e.
-/
import proofs.«139877_j41429254537723_1_alg».proof.Proof.KerResult
import proofs.«139877_j41429254537723_1_alg».proof.Proof.KerArr5
import proofs.«139877_j41429254537723_1_alg».proof.Proof.KerArr6
import proofs.«139877_j41429254537723_1_alg».proof.Proof.KerArr7
import proofs.«139877_j41429254537723_1_alg».proof.Proof.KerArr8
import proofs.«139877_j41429254537723_1_alg».proof.Proof.KerArr9

set_option maxRecDepth 16384

noncomputable section

namespace Cert.KernelIdeal.FrameValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame

variable (m : (ℓ : Loc nD τ sig) → Buf (Elt Ideal) ℓ)

theorem ker_value (kB kP : EReal → EReal) (kC : EReal → EReal → EReal → EReal) (kQ : EReal → (Fin 11 → EReal) → EReal)
    (kE : EReal → EReal → EReal)
    (hB : ∀ (x0 : Vec Ideal S256x2624 .f32) (p : Fin 256) (q : Fin 512),
      out0_5 (F := Ideal) x0 (ix2 p q) = kB (x0 (ix2 p (⟨q.val, by omega⟩ : Fin 2624))))
    (hP : ∀ (x0 : Vec Ideal S256x2624 .f32) (p : Fin 256) (q : Fin 512),
      out0_6 (F := Ideal) x0 (ix2 p q) = kP (x0 (ix2 p (⟨512 + q.val, by omega⟩ : Fin 2624))))
    (hC : ∀ (x0 : Vec Ideal S256x2624 .f32) (x1 x2 : Vec Ideal S1024 .f32) (p : Fin 256) (q : Fin 1024),
      out0_7 (F := Ideal) x0 x1 x2 (ix2 p q) = kC (x0 (ix2 p (⟨1024 + q.val, by omega⟩ : Fin 2624))) (x1 (ix1 q)) (x2 (ix1 q)))
    (hQ : ∀ (x0 : Vec Ideal S256x2624 .f32) (x3 : Vec Ideal S512x11 .f32) (p : Fin 256) (q : Fin 512),
      out0_8 (F := Ideal) x0 x3 (ix2 p q) = kQ (x0 (ix2 p (⟨2048 + q.val, by omega⟩ : Fin 2624))) (fun k => x3 (ix2 q k)))
    (hE : ∀ (x0 : Vec Ideal S256x2624 .f32) (x4 : Vec Ideal S64x16 .f32) (p : Fin 256) (e : Fin 16) (n : Fin 64),
      out0_9 (F := Ideal) x0 x4 (ix2 p (⟨64 * e.val + n.val, by omega⟩ : Fin 1024)) = kE (x0 (ix2 p (⟨2560 + n.val, by omega⟩ : Fin 2624))) (x4 (ix2 n e)))
    (c : Dev nD) (b : Fin 8192) (j : Fin 3584) :
    (Pipeline.afterTail₀ cfgs (dats m) 0 (V0 m) [hostOps1, hostOps1_1] c main_v5 : S8192x3584.Idx → EReal) (ix2 b j)
      = Cert.Spec.assemble (fun x => Cert.Spec.clip6 (kB x)) (fun x => Cert.Spec.clip6 (kP x)) (fun x u s => Cert.Spec.clip6 (kC x u s))
          (fun x q => Cert.Spec.clip6 (kQ x q)) (fun x v => Cert.Spec.clip6 (kE x v))
          (V m c main_arg0) (V m c main_arg1) (V m c main_arg2) (V m c main_arg3) (V m c main_arg4) b j := by
  have hj : j.val < 3584 := j.isLt
  rw [result_eq, final5 m kB hB, final6 m kP hP, final7 m kC hC, final8 m kQ hQ, final9 m kE hE]
  refine (Cert.Tail.tail_apply _ _ _ _ _ _ _ b j).trans ?_
  unfold Cert.Spec.assemble
  by_cases h0 : j.val < 512
  · rw [dif_pos h0, dif_pos h0]; rfl
  rw [dif_neg h0, dif_neg h0]
  by_cases h1 : j.val < 1024
  · rw [dif_pos h1, dif_pos h1]
    refine congrArg Cert.Spec.clip6 (congrArg kP (congrArg (V m c main_arg0) ?_))
    funext a; apply Fin.ext
    match a with
    | ⟨0, _⟩ => rfl
    | ⟨1, _⟩ => show 512 + (j.val - 512) = j.val; omega
  rw [dif_neg h1, dif_neg h1]
  by_cases h2 : j.val < 2048
  · rw [dif_pos h2, dif_pos h2]
    refine congrArg Cert.Spec.clip6 (congrFun (congrFun (congrArg kC (congrArg (V m c main_arg0) ?_)) _) _)
    funext a; apply Fin.ext
    match a with
    | ⟨0, _⟩ => rfl
    | ⟨1, _⟩ => show 1024 + (j.val - 1024) = j.val; omega
  rw [dif_neg h2, dif_neg h2]
  by_cases h3 : j.val < 2560
  · rw [dif_pos h3, dif_pos h3]
    refine congrArg Cert.Spec.clip6 (congrFun (congrArg kQ (congrArg (V m c main_arg0) ?_)) _)
    funext a; apply Fin.ext
    match a with
    | ⟨0, _⟩ => rfl
    | ⟨1, _⟩ => show 2048 + (j.val - 2048) = j.val; omega
  rw [dif_neg h3, dif_neg h3]
  have hcol : (⟨j.val - 2560, by omega⟩ : Fin 1024)
      = (⟨16 * ((⟨(j.val - 2560) / 16, by omega⟩ : Fin 64)).val + ((⟨(j.val - 2560) % 16, Nat.mod_lt _ (by decide)⟩ : Fin 16)).val, by
          have := Nat.mod_lt (j.val - 2560) (by decide : 16 > 0); show 16 * ((j.val - 2560) / 16) + (j.val - 2560) % 16 < 1024; omega⟩ : Fin 1024) :=
    Fin.ext (by show j.val - 2560 = 16 * ((j.val - 2560) / 16) + (j.val - 2560) % 16; omega)
  rw [hcol, relay_apply]
  have hm : (j.val - 2560) % 16 < 16 := Nat.mod_lt _ (by decide)
  refine congrArg Cert.Spec.clip6 (congr (congrArg kE (congrArg (V m c main_arg0) ?_)) (congrArg (V m c main_arg4) ?_))
  · funext a; apply Fin.ext
    match a with
    | ⟨0, _⟩ => rfl
    | ⟨1, _⟩ =>
      show 2560 + (64 * ((j.val - 2560) % 16) + (j.val - 2560) / 16) % 64 = 2560 + (j.val - 2560) / 16
      omega
  · funext a; apply Fin.ext
    match a with
    | ⟨0, _⟩ =>
      show (64 * ((j.val - 2560) % 16) + (j.val - 2560) / 16) % 64 = (j.val - 2560) / 16
      omega
    | ⟨1, _⟩ =>
      show (64 * ((j.val - 2560) % 16) + (j.val - 2560) / 16) / 64 = (j.val - 2560) % 16
      omega

end Cert.KernelIdeal.FrameValue

end
-- ==== Proof.RefValue.lean ====
/-
  The reference's result in the shared layout form. Its last stages are the common ending — five tables side by side,
  then the clamp to [−6, 6] — over the five tables it computes, one per kind of feature. So whenever each table, read at a
  row and a column, is a scalar function of one entry of that row of `x` and of the feature's parameters, the whole
  result is the layout of the five clamped functions. The five functions are left general here.
-/
import proofs.«139877_j41429254537723_1_alg».proof.Proof.Spec
import proofs.«139877_j41429254537723_1_alg».proof.Proof.Tail
import proofs.«139877_j41429254537723_1_alg».proof.Proof.RefRead

noncomputable section

open Idealize.ShloMosaic Idealize.ShloMosaic.ValueIdx

namespace Cert.RefSide

open Cert.ReferenceIdeal Cert.ReferenceIdeal.Gen

/-- The reference's last seven stages — the five tables side by side, the two literals broadcast, the maximum and the
    minimum — are the common ending over its five tables. -/
theorem v90_eq_tail (x0 : (⟨Cert.ReferenceIdeal.S8192x2624, .f32⟩ : BufTy).Contents (Elt Ideal))
    (x1 x2 : (⟨Cert.ReferenceIdeal.S1024, .f32⟩ : BufTy).Contents (Elt Ideal))
    (x3 : (⟨Cert.ReferenceIdeal.S512x11, .f32⟩ : BufTy).Contents (Elt Ideal))
    (x4 : (⟨Cert.ReferenceIdeal.S64x16, .f32⟩ : BufTy).Contents (Elt Ideal)) :
    Read.val_main_v90 (F := Ideal) x0 x1 x2 x3 x4
      = Cert.Tail.tail bcast_S_S8192x3584 concatenates_S8192x512_S8192x512_S8192x1024_S8192x512_S8192x1024_S8192x3584_d1
          (Read.val_main_v12 (F := Ideal) x0) (Read.val_main_v21 (F := Ideal) x0) (Read.val_main_v30 (F := Ideal) x0 x1 x2)
          (Read.val_main_v77 (F := Ideal) x0 x3) (Read.val_main_v88 (F := Ideal) x0 x4) := by
  unfold Read.val_main_v90 Read.val_main_call4_v4 Read.val_main_call4_v3 Read.val_main_call4_v2 Read.val_main_call4_v1
    Read.val_main_call4_v0 Read.val_main_v89 Read.val_main_cst_18 Read.val_main_cst_19 Cert.Tail.tail
  rfl

/-- The reference's result at row `b`, column `j`: the layout of the five clamped scalar functions, for any five
    functions that the five tables are pointwise. -/
theorem ref_value (rB rP : EReal → EReal) (rC : EReal → EReal → EReal → EReal) (rQ : EReal → (Fin 11 → EReal) → EReal) (rE : EReal → EReal → EReal)
    (hB : ∀ (x0 : (⟨Cert.ReferenceIdeal.S8192x2624, .f32⟩ : BufTy).Contents (Elt Ideal)) (b : Fin 8192) (k : Fin 512),
      Cert.ReferenceIdeal.Read.val_main_v12 (F := Ideal) x0 (ix2 b k) = rB (x0 (ix2 b (⟨k.val, by omega⟩ : Fin 2624))))
    (hP : ∀ x0 (b : Fin 8192) (k : Fin 512),
      Cert.ReferenceIdeal.Read.val_main_v21 (F := Ideal) x0 (ix2 b k) = rP (x0 (ix2 b (⟨512 + k.val, by omega⟩ : Fin 2624))))
    (hC : ∀ x0 x1 x2 (b : Fin 8192) (k : Fin 1024),
      Cert.ReferenceIdeal.Read.val_main_v30 (F := Ideal) x0 x1 x2 (ix2 b k)
        = rC (x0 (ix2 b (⟨1024 + k.val, by omega⟩ : Fin 2624))) (x1 (ix1 k)) (x2 (ix1 k)))
    (hQ : ∀ x0 x3 (b : Fin 8192) (k : Fin 512),
      Cert.ReferenceIdeal.Read.val_main_v77 (F := Ideal) x0 x3 (ix2 b k)
        = rQ (x0 (ix2 b (⟨2048 + k.val, by omega⟩ : Fin 2624))) (fun j => x3 (ix2 k j)))
    (hE : ∀ x0 x4 (b : Fin 8192) (n : Fin 64) (e : Fin 16),
      Cert.ReferenceIdeal.Read.val_main_v88 (F := Ideal) x0 x4 (ix2 b (⟨16 * n.val + e.val, by omega⟩ : Fin 1024))
        = rE (x0 (ix2 b (⟨2560 + n.val, by omega⟩ : Fin 2624))) (x4 (ix2 n e)))
    (x0 : (⟨Cert.ReferenceIdeal.S8192x2624, .f32⟩ : BufTy).Contents (Elt Ideal))
    (x1 x2 : (⟨Cert.ReferenceIdeal.S1024, .f32⟩ : BufTy).Contents (Elt Ideal))
    (x3 : (⟨Cert.ReferenceIdeal.S512x11, .f32⟩ : BufTy).Contents (Elt Ideal))
    (x4 : (⟨Cert.ReferenceIdeal.S64x16, .f32⟩ : BufTy).Contents (Elt Ideal)) (b : Fin 8192) (j : Fin 3584) :
    Cert.ReferenceIdeal.Read.val_main_v90 (F := Ideal) x0 x1 x2 x3 x4 (ix2 b j)
      = Cert.Spec.assemble (fun x => Cert.Spec.clip6 (rB x)) (fun x => Cert.Spec.clip6 (rP x))
          (fun x u s => Cert.Spec.clip6 (rC x u s)) (fun x q => Cert.Spec.clip6 (rQ x q))
          (fun x v => Cert.Spec.clip6 (rE x v)) x0 x1 x2 x3 x4 b j := by
  have hj : j.val < 3584 := j.isLt
  rw [v90_eq_tail, Cert.Tail.tail_apply]
  unfold Cert.Spec.assemble
  by_cases h0 : j.val < 512
  · -- a binary feature: the column is the feature
    rw [dif_pos h0, dif_pos h0]
    exact congrArg Cert.Spec.clip6 (hB x0 b ⟨j.val, h0⟩)
  rw [dif_neg h0, dif_neg h0]
  by_cases h1 : j.val < 1024
  · -- a probability feature: feature j − 512 sits in column 512 + (j − 512) = j of `x`
    rw [dif_pos h1, dif_pos h1]
    refine (congrArg Cert.Spec.clip6 (hP x0 b ⟨j.val - 512, by omega⟩)).trans ?_
    exact congrArg (fun t : Fin 2624 => Cert.Spec.clip6 (rP (x0 (ix2 b t)))) (Fin.ext (by show 512 + (j.val - 512) = j.val; omega))
  rw [dif_neg h1, dif_neg h1]
  by_cases h2 : j.val < 2048
  · -- a continuous feature: feature j − 1024, in column j of `x`
    rw [dif_pos h2, dif_pos h2]
    refine (congrArg Cert.Spec.clip6 (hC x0 x1 x2 b ⟨j.val - 1024, by omega⟩)).trans ?_
    exact congrArg (fun t : Fin 2624 => Cert.Spec.clip6 (rC (x0 (ix2 b t)) (x1 (ix1 (⟨j.val - 1024, by omega⟩ : Fin 1024))) (x2 (ix1 (⟨j.val - 1024, by omega⟩ : Fin 1024)))))
      (Fin.ext (by show 1024 + (j.val - 1024) = j.val; omega))
  rw [dif_neg h2, dif_neg h2]
  by_cases h3 : j.val < 2560
  · -- a quantile feature: feature j − 2048, in column j of `x`, against its own row of boundaries
    rw [dif_pos h3, dif_pos h3]
    refine (congrArg Cert.Spec.clip6 (hQ x0 x3 b ⟨j.val - 2048, by omega⟩)).trans ?_
    exact congrArg (fun t : Fin 2624 => Cert.Spec.clip6 (rQ (x0 (ix2 b t)) (fun k => x3 (ix2 (⟨j.val - 2048, by omega⟩ : Fin 512) k))))
      (Fin.ext (by show 2048 + (j.val - 2048) = j.val; omega))
  -- an enum feature against a value: column j − 2560 of the fifth table is 16 n + e for feature n and value e
  rw [dif_neg h3, dif_neg h3]
  have e4 : (⟨j.val - 2560, by omega⟩ : Fin 1024) = ⟨16 * ((j.val - 2560) / 16) + (j.val - 2560) % 16, by omega⟩ :=
    Fin.ext (by show j.val - 2560 = 16 * ((j.val - 2560) / 16) + (j.val - 2560) % 16; omega)
  refine (congrArg (fun t : Fin 1024 => Cert.Spec.clip6 (Read.val_main_v88 (F := Ideal) x0 x4 (ix2 b t))) e4).trans ?_
  exact congrArg Cert.Spec.clip6 (hE x0 x4 b ⟨(j.val - 2560) / 16, by omega⟩ ⟨(j.val - 2560) % 16, Nat.mod_lt _ (by decide)⟩)

end Cert.RefSide

end
-- ==== Proof.FeatBits.lean ====
/-
  The two spellings of a 0/1 mask. One program widens a comparison bit to a 32-bit word and converts it as a signed
  integer; the other converts the bit as an unsigned integer. On the extended reals both are 1 where the compared
  values differ and 0 where they agree.
-/
import Idealize.ShloMosaic.PureOps.Ideal
import Idealize.ShloMosaic.PureOps.Ideal.Laws

noncomputable section

open Idealize.ShloMosaic

namespace Cert.FeatBits

/-- The kernel's mask: the comparison bit, widened to a word and read as a signed integer, is 1 where the two
    extended reals differ and 0 where they agree. -/
theorem mask_ker (x y : EReal) :
    FloatOps.sitofp (F := Ideal) .f32 ((FloatOps.cmpf (F := Ideal) (φ := .f32) .one x y).setWidth 32)
      = if x ≠ y then (1 : EReal) else 0 := by
  show (((BitVec.setWidth 32 (Ideal.cmp .one x y)).toInt : ℝ) : EReal) = _
  unfold Ideal.cmp
  by_cases h : x = y
  · simp [h]
  · simp [h]

/-- The reference's mask: the comparison bit read as an unsigned integer is the same 1 or 0. -/
theorem mask_ref (x y : EReal) :
    FloatOps.uitofp (F := Ideal) .f32 (FloatOps.cmpf (F := Ideal) (φ := .f32) .une x y)
      = if x ≠ y then (1 : EReal) else 0 := by
  show (((Ideal.cmp .une x y).toNat : ℝ) : EReal) = _
  unfold Ideal.cmp
  by_cases h : x = y
  · simp [h]
  · simp [h]

end Cert.FeatBits

end
-- ==== Proof.FeatB.lean ====
/-
  The binary features. Each result entry is a function of one entry x of the input: 1 where x is neither zero nor the
  missing-value marker, 0 elsewhere. One program clamps that to [−6, 6] before storing it and the other does not; since
  both clamp the assembled result once more at the end, the two agree under the clamp.
-/
import proofs.«139877_j41429254537723_1_alg».proof.Proof.Spec
import proofs.«139877_j41429254537723_1_alg».proof.Proof.FrameDataIdeal
import proofs.«139877_j41429254537723_1_alg».proof.Proof.RefRead
import proofs.«139877_j41429254537723_1_alg».proof.Proof.FeatBits

noncomputable section

open Idealize.ShloMosaic Idealize.ShloMosaic.ValueIdx

namespace Cert.FeatB

open Cert.ReferenceIdeal

/-- What the kernel stores for a binary feature: 1 where the entry is neither zero nor the missing-value marker,
    else 0, clamped to [−6, 6]. -/
def ker (x : EReal) : EReal :=
  min (Ideal.ofBits .f32 0x40C00000#32) (max (Ideal.ofBits .f32 0xC0C00000#32)
    ((if x ≠ Ideal.ofBits .f32 0x00000000#32 then (1 : EReal) else 0)
      * (if x ≠ Ideal.ofBits .f32 0xCEA57A8A#32 then (1 : EReal) else 0)))

/-- What the reference computes for a binary feature before its final clamp: the same product of the two masks. -/
def ref (x : EReal) : EReal :=
  (if x ≠ Ideal.ofBits .f32 0x00000000#32 then (1 : EReal) else 0)
    * (if x ≠ Ideal.ofBits .f32 0xCEA57A8A#32 then (1 : EReal) else 0)

/-- The stored value is a pointwise function of the loaded columns. -/
theorem pay_apply (v0 : Vec Ideal Cert.KernelIdeal.S256x512 .f32) (i : Cert.KernelIdeal.S256x512.Idx) :
    Cert.KernelIdeal.Gen.k0_pay3 (F := Ideal) v0 i = ker (v0 i) := by
  unfold Cert.KernelIdeal.Gen.k0_pay3 ker
  simp only [minimumf_apply, maximumf_apply, mulf_apply, broadcast_apply, sitofp_apply, extui_apply, cmpf_apply,
    Cert.FeatBits.mask_ker]
  rfl

theorem ker_apply (x0 : Vec Ideal Cert.KernelIdeal.S256x2624 .f32) (p : Fin 256) (q : Fin 512) :
    Cert.KernelIdeal.Frame.out0_5 (F := Ideal) x0 (ix2 p q) = ker (x0 (ix2 p (⟨q.val, by omega⟩ : Fin 2624))) := by
  unfold Cert.KernelIdeal.Frame.out0_5
  rw [View.canon_unit_zero (by funext a; match a with | ⟨0, _⟩ => rfl | ⟨1, _⟩ => rfl), pay_apply]
  congr 1
  show x0 _ = x0 _
  congr 1
  funext a
  match a with
  | ⟨0, _⟩ => exact Fin.ext (by show 0 + 1 * p.val = p.val; omega)
  | ⟨1, _⟩ => exact Fin.ext (by show 0 + 1 * q.val = q.val; omega)

theorem ref_apply (x0 : (⟨Cert.ReferenceIdeal.S8192x2624, .f32⟩ : BufTy).Contents (Elt Ideal)) (b : Fin 8192) (k : Fin 512) :
    Cert.ReferenceIdeal.Read.val_main_v12 (F := Ideal) x0 (ix2 b k) = ref (x0 (ix2 b (⟨k.val, by omega⟩ : Fin 2624))) := by
  have e3 : Read.idx_main_v3 (ix2 b k) = ix2 b (⟨k.val, by omega⟩ : Fin 2624) := by
    funext a; match a with | ⟨0, _⟩ => rfl | ⟨1, _⟩ => rfl
  have e11 : Read.idx_main_v11 (ix2 b k) = ix2 b (⟨k.val, by omega⟩ : Fin 2624) := by
    funext a; match a with | ⟨0, _⟩ => rfl | ⟨1, _⟩ => rfl
  rw [Read.val_main_v12_apply, Read.val_main_v10_apply, Read.val_main_v9_apply, Read.val_main_v3_apply,
    Read.val_main_v8_apply, Read.val_main_cst_0_apply, Read.val_main_v11_apply, Read.val_main_v2_apply,
    Read.val_main_v1_apply, Read.val_main_v0_apply, Read.val_main_cst_apply, e3, e11]
  simp only [Ideal.mulf_def, Ideal.ofBits_def, Cert.FeatBits.mask_ref]
  rfl

/-- The kernel's value is the reference's, clamped; clamping twice is clamping once. -/
theorem bridge (x : EReal) : Cert.Spec.clip6 (ker x) = Cert.Spec.clip6 (ref x) :=
  Cert.Spec.clip6_idem (ref x)

end Cert.FeatB

end
-- ==== Proof.FeatP.lean ====
/-
  The probability features. Each result entry is a function of one entry x of the input: x is clamped to
  [0.01, 0.99], the logit −log (1 / x − 1) is taken, and the missing-value mask multiplies it. One program forms the
  negation as a difference from zero and clamps the product to [−6, 6] before storing it; the other negates directly
  and does not clamp here. A difference from zero is a negation, and both clamp the assembled result once more at the
  end, so the two agree under the clamp.
-/
import proofs.«139877_j41429254537723_1_alg».proof.Proof.Spec
import proofs.«139877_j41429254537723_1_alg».proof.Proof.FrameDataIdeal
import proofs.«139877_j41429254537723_1_alg».proof.Proof.RefRead
import proofs.«139877_j41429254537723_1_alg».proof.Proof.FeatBits

noncomputable section

open Idealize.ShloMosaic Idealize.ShloMosaic.ValueIdx

namespace Cert.FeatP

open Cert.ReferenceIdeal

/-- The logarithm of a vector, read at an index, is the logarithm of the element. -/
theorem log_apply {s : Shape} {φ : FTy} (a : FVec Ideal s φ) (i : s.Idx) : log a i = Ideal.log (a i) := rfl

/-- What the kernel stores for a probability feature: the entry x is clamped to [0.01, 0.99], the logit
    −log (1 / x − 1) is formed as a difference from zero, the missing-value mask multiplies it, and the product is
    clamped to [−6, 6]. -/
def ker (x : EReal) : EReal :=
  min (Ideal.ofBits .f32 0x40C00000#32) (max (Ideal.ofBits .f32 0xC0C00000#32)
    ((Ideal.ofBits .f32 0x00000000#32
        - Ideal.log (Ideal.div (Ideal.ofBits .f32 0x3F800000#32)
            (min (Ideal.ofBits .f32 0x3F7D70A4#32) (max (Ideal.ofBits .f32 0x3C23D70A#32) x))
          - Ideal.ofBits .f32 0x3F800000#32))
      * (if x ≠ Ideal.ofBits .f32 0xCEA57A8A#32 then (1 : EReal) else 0)))

/-- What the reference computes for a probability feature before its final clamp: the same logit, formed by a
    negation, times the same mask. -/
def ref (x : EReal) : EReal :=
  (-(Ideal.log (Ideal.div (Ideal.ofBits .f32 0x3F800000#32)
          (min (Ideal.ofBits .f32 0x3F7D70A4#32) (max (Ideal.ofBits .f32 0x3C23D70A#32) x))
        - Ideal.ofBits .f32 0x3F800000#32)))
    * (if x ≠ Ideal.ofBits .f32 0xCEA57A8A#32 then (1 : EReal) else 0)

/-- The stored value is a pointwise function of the loaded columns. -/
theorem pay_apply (v15 : Vec Ideal Cert.KernelIdeal.S256x512 .f32) (i : Cert.KernelIdeal.S256x512.Idx) :
    Cert.KernelIdeal.Gen.k0_pay4 (F := Ideal) v15 i = ker (v15 i) := by
  unfold Cert.KernelIdeal.Gen.k0_pay4 ker
  simp only [minimumf_apply, maximumf_apply, mulf_apply, subf_apply, divf_apply, log_apply, broadcast_apply,
    sitofp_apply, extui_apply, cmpf_apply, Cert.FeatBits.mask_ker]
  rfl

theorem ker_apply (x0 : Vec Ideal Cert.KernelIdeal.S256x2624 .f32) (p : Fin 256) (q : Fin 512) :
    Cert.KernelIdeal.Frame.out0_6 (F := Ideal) x0 (ix2 p q) = ker (x0 (ix2 p (⟨512 + q.val, by omega⟩ : Fin 2624))) := by
  unfold Cert.KernelIdeal.Frame.out0_6
  rw [View.canon_unit_zero (by funext a; match a with | ⟨0, _⟩ => rfl | ⟨1, _⟩ => rfl), pay_apply]
  congr 1
  show x0 _ = x0 _
  congr 1
  funext a
  match a with
  | ⟨0, _⟩ => exact Fin.ext (by show 0 + 1 * p.val = p.val; omega)
  | ⟨1, _⟩ => exact Fin.ext (by show 512 + 1 * q.val = 512 + q.val; omega)

theorem ref_apply (x0 : (⟨Cert.ReferenceIdeal.S8192x2624, .f32⟩ : BufTy).Contents (Elt Ideal)) (b : Fin 8192) (k : Fin 512) :
    Cert.ReferenceIdeal.Read.val_main_v21 (F := Ideal) x0 (ix2 b k) = ref (x0 (ix2 b (⟨512 + k.val, by omega⟩ : Fin 2624))) := by
  have e4 : Read.idx_main_v4 (ix2 b k) = ix2 b (⟨512 + k.val, by omega⟩ : Fin 2624) := by
    funext a; match a with | ⟨0, _⟩ => rfl | ⟨1, _⟩ => rfl
  have e20 : Read.idx_main_v20 (ix2 b k) = ix2 b (⟨512 + k.val, by omega⟩ : Fin 2624) := by
    funext a; match a with | ⟨0, _⟩ => rfl | ⟨1, _⟩ => rfl
  rw [Read.val_main_v21_apply, Read.val_main_v19_apply, Read.val_main_v18_apply, Read.val_main_v17_apply,
    Read.val_main_v15_apply, Read.val_main_v14_apply, Read.val_main_cst_3_apply, Read.val_main_v13_apply,
    Read.val_main_call0_v4_apply, Read.val_main_call0_v3_apply, Read.val_main_cst_2_apply,
    Read.val_main_call0_v2_apply, Read.val_main_call0_v1_apply, Read.val_main_call0_v0_apply, Read.val_main_cst_1_apply,
    Read.val_main_v4_apply, Read.val_main_v16_apply, Read.val_main_cst_4_apply,
    Read.val_main_v20_apply, Read.val_main_v2_apply, Read.val_main_v1_apply, Read.val_main_v0_apply,
    Read.val_main_cst_apply, e4, e20]
  simp only [Ideal.mulf_def, Ideal.subf_def, Ideal.maximumf_def, Ideal.minimumf_def, Ideal.hostDivf_def,
    Ideal.hostUnary_log_def, Ideal.hostNegf_def, Ideal.negf_def, Ideal.ofBits_def, Cert.FeatBits.mask_ref]
  rfl

/-- The kernel's value is the reference's, clamped: a difference from zero is a negation. Clamping twice is clamping
    once. -/
theorem bridge (x : EReal) : Cert.Spec.clip6 (ker x) = Cert.Spec.clip6 (ref x) := by
  have h : ker x = Cert.Spec.clip6 (ref x) := by
    unfold ker ref Cert.Spec.clip6 Cert.Spec.c6 Cert.Spec.cm6
    rw [Ideal.ofBits_zero_f32, zero_sub]
  rw [h, Cert.Spec.clip6_idem]

end Cert.FeatP

end
-- ==== Proof.FeatC.lean ====
/-
  The continuous features. Each result entry is a function of one entry x of the input and of its feature's mean u and
  deviation s: (x − u) / s clamped to [−6, 6], times the missing-value mask. One program clamps that product to [−6, 6]
  once more before storing it and the other does not; since both clamp the assembled result at the end, the two agree
  under the clamp. The means and the deviations reach the entries of a block as one row repeated down the block's rows.
-/
import proofs.«139877_j41429254537723_1_alg».proof.Proof.Spec
import proofs.«139877_j41429254537723_1_alg».proof.Proof.FrameDataIdeal
import proofs.«139877_j41429254537723_1_alg».proof.Proof.RefRead
import proofs.«139877_j41429254537723_1_alg».proof.Proof.FeatBits
import Idealize.ShloMosaic.Lib.ValueLayout

noncomputable section

open Idealize.ShloMosaic Idealize.ShloMosaic.ValueIdx

namespace Cert.FeatC

open Cert.ReferenceIdeal

/-- A length-1024 vector laid out as one row and repeated down 256 rows reads, at (p, q), its entry q. -/
theorem row_apply {α : Type} (v : Cert.KernelIdeal.S1024.Idx → α)
    (hc : Cert.KernelIdeal.S1024.ShapeCasts Cert.KernelIdeal.S1x1024)
    (hb : Cert.KernelIdeal.S1x1024.Broadcasts Cert.KernelIdeal.S256x1024) (p : Fin 256) (q : Fin 1024) :
    broadcastTo Cert.KernelIdeal.S256x1024 (shapeCast Cert.KernelIdeal.S1x1024 v hc) hb (ix2 p q) = v (ix1 q) := by
  refine (broadcastTo_1b_ab_apply _ _ p q).trans ?_
  refine shapeCast_apply v _ _ (ix1 q) ?_
  rw [Shape.rowMajor_val_one, Shape.rowMajor_val_two]
  show q.val = 0 * 1024 + q.val
  omega

/-- What the kernel stores for a continuous feature: the entry x is standardised by its feature's mean u and
    deviation s, clamped to [−6, 6], multiplied by the missing-value mask, and clamped to [−6, 6] again. -/
def ker (x u s : EReal) : EReal :=
  min (Ideal.ofBits .f32 0x40C00000#32) (max (Ideal.ofBits .f32 0xC0C00000#32)
    (min (Ideal.ofBits .f32 0x40C00000#32) (max (Ideal.ofBits .f32 0xC0C00000#32) (Ideal.div (x - u) s))
      * (if x ≠ Ideal.ofBits .f32 0xCEA57A8A#32 then (1 : EReal) else 0)))

/-- What the reference computes for a continuous feature before its final clamp: the clamped standardised entry times
    the same mask. -/
def ref (x u s : EReal) : EReal :=
  min (Ideal.ofBits .f32 0x40C00000#32) (max (Ideal.ofBits .f32 0xC0C00000#32) (Ideal.div (x - u) s))
    * (if x ≠ Ideal.ofBits .f32 0xCEA57A8A#32 then (1 : EReal) else 0)

/-- The stored value at (p, q) is a function of the loaded entry at (p, q) and of entry q of the two vectors. -/
theorem pay_apply (v37 : Vec Ideal Cert.KernelIdeal.S256x1024 .f32) (v42 v44 : Vec Ideal Cert.KernelIdeal.S1024 .f32)
    (p : Fin 256) (q : Fin 1024) :
    Cert.KernelIdeal.Gen.k0_pay5 (F := Ideal) v37 v42 v44 (ix2 p q) = ker (v37 (ix2 p q)) (v42 (ix1 q)) (v44 (ix1 q)) := by
  unfold Cert.KernelIdeal.Gen.k0_pay5 ker
  simp only [minimumf_apply, maximumf_apply, mulf_apply, subf_apply, divf_apply, broadcast_apply,
    sitofp_apply, extui_apply, cmpf_apply, Cert.FeatBits.mask_ker, row_apply]
  rfl

theorem ker_apply (x0 : Vec Ideal Cert.KernelIdeal.S256x2624 .f32) (x1 x2 : Vec Ideal Cert.KernelIdeal.S1024 .f32) (p : Fin 256) (q : Fin 1024) :
    Cert.KernelIdeal.Frame.out0_7 (F := Ideal) x0 x1 x2 (ix2 p q) = ker (x0 (ix2 p (⟨1024 + q.val, by omega⟩ : Fin 2624))) (x1 (ix1 q)) (x2 (ix1 q)) := by
  unfold Cert.KernelIdeal.Frame.out0_7
  rw [View.canon_unit_zero (by funext a; match a with | ⟨0, _⟩ => rfl | ⟨1, _⟩ => rfl), pay_apply]
  refine congr (congr (congrArg ker ?_) ?_) ?_
  · show x0 _ = x0 _
    congr 1
    funext a
    match a with
    | ⟨0, _⟩ => exact Fin.ext (by show 0 + 1 * p.val = p.val; omega)
    | ⟨1, _⟩ => exact Fin.ext (by show 1024 + 1 * q.val = 1024 + q.val; omega)
  · show x1 _ = x1 _
    congr 1
    funext a
    match a with
    | ⟨0, _⟩ => exact Fin.ext (by show 0 + 1 * q.val = q.val; omega)
  · show x2 _ = x2 _
    congr 1
    funext a
    match a with
    | ⟨0, _⟩ => exact Fin.ext (by show 0 + 1 * q.val = q.val; omega)

theorem ref_apply (x0 : (⟨Cert.ReferenceIdeal.S8192x2624, .f32⟩ : BufTy).Contents (Elt Ideal))
    (x1 x2 : (⟨Cert.ReferenceIdeal.S1024, .f32⟩ : BufTy).Contents (Elt Ideal)) (b : Fin 8192) (k : Fin 1024) :
    Cert.ReferenceIdeal.Read.val_main_v30 (F := Ideal) x0 x1 x2 (ix2 b k) = ref (x0 (ix2 b (⟨1024 + k.val, by omega⟩ : Fin 2624))) (x1 (ix1 k)) (x2 (ix1 k)) := by
  have e5 : Read.idx_main_v5 (ix2 b k) = ix2 b (⟨1024 + k.val, by omega⟩ : Fin 2624) := by
    funext a; match a with | ⟨0, _⟩ => rfl | ⟨1, _⟩ => rfl
  have e29 : Read.idx_main_v29 (ix2 b k) = ix2 b (⟨1024 + k.val, by omega⟩ : Fin 2624) := by
    funext a; match a with | ⟨0, _⟩ => rfl | ⟨1, _⟩ => rfl
  have e22 : Read.idx_main_v22 (Read.idx_main_v23 (ix2 b k)) = ix1 k := by
    funext a; match a with | ⟨0, _⟩ => rfl
  have e25 : Read.idx_main_v25 (Read.idx_main_v26 (ix2 b k)) = ix1 k := by
    funext a; match a with | ⟨0, _⟩ => rfl
  rw [Read.val_main_v30_apply, Read.val_main_v28_apply, Read.val_main_call1_v4_apply, Read.val_main_call1_v3_apply,
    Read.val_main_cst_6_apply, Read.val_main_call1_v2_apply, Read.val_main_call1_v1_apply, Read.val_main_call1_v0_apply,
    Read.val_main_cst_5_apply, Read.val_main_v27_apply, Read.val_main_v24_apply, Read.val_main_v5_apply,
    Read.val_main_v23_apply, Read.val_main_v22_apply, Read.val_main_v26_apply, Read.val_main_v25_apply,
    Read.val_main_v29_apply, Read.val_main_v2_apply, Read.val_main_v1_apply, Read.val_main_v0_apply,
    Read.val_main_cst_apply, e5, e29, e22, e25]
  simp only [Ideal.mulf_def, Ideal.subf_def, Ideal.maximumf_def, Ideal.minimumf_def, Ideal.hostDivf_def,
    Ideal.ofBits_def, Cert.FeatBits.mask_ref]
  rfl

/-- The kernel's value is the reference's, clamped; clamping twice is clamping once. -/
theorem bridge (x u s : EReal) : Cert.Spec.clip6 (ker x u s) = Cert.Spec.clip6 (ref x u s) :=
  Cert.Spec.clip6_idem (ref x u s)

end Cert.FeatC

end
-- ==== Proof.FeatQMath.lean ====
/-
  The quantile feature as two scalar functions of one entry x and the eleven boundaries qb 0 … qb 10 of its feature.

  Write ge k for qb k ≤ x. Both functions answer 1 when ge 10, else 0 when x ≤ qb 0, else the interpolation
      ((cnt − 1) + (x − lo) / (hi − lo + ε)) / 10,
  all times the missing-value mask of x; cnt is the number of k with ge k, lo a lower neighbour of x among the
  boundaries and hi an upper one. They differ in how lo and hi are formed.
    ker: eleven passes. lo starts at the literal −1e20 and pass k replaces it by max lo (qb k) where ge k; hi starts at
         the literal 1e20 and pass k replaces it by min hi (qb k) where not ge k; cnt starts at 0 and pass k adds the
         indicator of ge k. The result is clamped to [−6, 6].
    ref: lo is the largest over k of (qb k where ge k, the literal −1e20 elsewhere), from −∞; hi the smallest over k of
         (the literal 1e20 where ge k, qb k elsewhere), from +∞; cnt is 0 plus the sum of the indicators.
  So ker's lo is (−1e20) ⊔ sup {qb k | ge k} and ref's is the same as soon as ONE k fails ge (that k contributes the
  −1e20); dually for hi as soon as one k has ge. The interpolation is only read when neither end case holds: then ge 10
  fails and ge 0 holds, so both conditions are met and the two functions agree. No order among the boundaries and no
  finiteness is used, and no literal is evaluated.
-/
import proofs.«139877_j41429254537723_1_alg».proof.Proof.Spec

noncomputable section

namespace Cert.FeatQ

open Idealize.ShloMosaic
open scoped BigOperators

/-! ## The literals of the two programs, by their patterns -/

/-- 0.0, 1.0, −1e20, 1e20, 1e-6, 10.0 and the missing-value marker. -/
def Lz : EReal := Ideal.ofBits .f32 0x00000000#32
def Lone : EReal := Ideal.ofBits .f32 0x3F800000#32
def Llo : EReal := Ideal.ofBits .f32 0xE0AD78EC#32
def Lhi : EReal := Ideal.ofBits .f32 0x60AD78EC#32
def Leps : EReal := Ideal.ofBits .f32 0x358637BD#32
def Lten : EReal := Ideal.ofBits .f32 0x41200000#32
def Lmiss : EReal := Ideal.ofBits .f32 0xCEA57A8A#32

/-! ## The shared pieces -/

/-- The eleven boundary positions, in the order of the passes. -/
def idxs : List (Fin 11) := [0, 1, 2, 3, 4, 5, 6, 7, 8, 9, 10]

/-- The indicator of q ≤ x as an extended real. -/
def ind (x q : EReal) : EReal := if q ≤ x then 1 else 0

/-- The missing-value mask: 1 unless x is the marker. -/
def nm (x : EReal) : EReal := if x ≠ Lmiss then 1 else 0

/-- The interpolation from a count, a lower neighbour and an upper neighbour. -/
def interp (x cnt lo hi : EReal) : EReal :=
  Ideal.div ((cnt - Lone) + Ideal.div (x - lo) ((hi - lo) + Leps)) Lten

/-- The end cases: 1 at or above the last boundary, else 0 at or below the first, else v. -/
def pick (x : EReal) (qb : Fin 11 → EReal) (v : EReal) : EReal :=
  if qb 10 ≤ x then Lone else if x ≤ qb 0 then Lz else v

/-! ## The kernel's function: eleven passes -/

def cntStep (x : EReal) (qb : Fin 11 → EReal) (a : EReal) (k : Fin 11) : EReal := a + ind x (qb k)
def loStep (x : EReal) (qb : Fin 11 → EReal) (a : EReal) (k : Fin 11) : EReal := if qb k ≤ x then max a (qb k) else a
def hiStep (x : EReal) (qb : Fin 11 → EReal) (a : EReal) (k : Fin 11) : EReal := if qb k ≤ x then a else min a (qb k)

def kCnt (x : EReal) (qb : Fin 11 → EReal) : EReal := idxs.foldl (cntStep x qb) Lz
def kLo (x : EReal) (qb : Fin 11 → EReal) : EReal := idxs.foldl (loStep x qb) Llo
def kHi (x : EReal) (qb : Fin 11 → EReal) : EReal := idxs.foldl (hiStep x qb) Lhi

/-- The kernel's quantile value. -/
def ker (x : EReal) (qb : Fin 11 → EReal) : EReal :=
  Cert.Spec.clip6 (pick x qb (interp x (kCnt x qb) (kLo x qb) (kHi x qb)) * nm x)

/-! ## The reference's function: a maximum, a minimum and a sum over the boundaries -/

def rCnt (x : EReal) (qb : Fin 11 → EReal) : EReal := Lz + ∑ k : Fin 11, ind x (qb k)
def rLo (x : EReal) (qb : Fin 11 → EReal) : EReal := Finset.univ.sup fun k : Fin 11 => if qb k ≤ x then qb k else Llo
def rHi (x : EReal) (qb : Fin 11 → EReal) : EReal := Finset.univ.inf fun k : Fin 11 => if qb k ≤ x then Lhi else qb k

/-- The reference's quantile value. -/
def ref (x : EReal) (qb : Fin 11 → EReal) : EReal :=
  pick x qb (interp x (rCnt x qb) (rLo x qb) (rHi x qb)) * nm x

/-! ## The passes in closed form -/

/-- The list of passes holds every position. -/
theorem idxs_toFinset : idxs.toFinset = Finset.univ := by decide

/-- The passes' lower neighbour from a: a joined with the largest boundary at or below x among the positions passed. -/
theorem foldl_loStep (x : EReal) (qb : Fin 11 → EReal) (l : List (Fin 11)) (a : EReal) :
    l.foldl (loStep x qb) a = a ⊔ (l.toFinset.filter fun k => qb k ≤ x).sup qb := by
  induction l generalizing a with
  | nil => simp
  | cons k l ih =>
    rw [List.foldl_cons, ih, List.toFinset_cons, Finset.filter_insert]
    unfold loStep
    by_cases h : qb k ≤ x
    · rw [if_pos h, if_pos h, Finset.sup_insert, sup_assoc]
    · rw [if_neg h, if_neg h]

/-- The passes' upper neighbour from a: a met with the smallest boundary above x among the positions passed. -/
theorem foldl_hiStep (x : EReal) (qb : Fin 11 → EReal) (l : List (Fin 11)) (a : EReal) :
    l.foldl (hiStep x qb) a = a ⊓ (l.toFinset.filter fun k => ¬ qb k ≤ x).inf qb := by
  induction l generalizing a with
  | nil => simp
  | cons k l ih =>
    rw [List.foldl_cons, ih, List.toFinset_cons, Finset.filter_insert]
    unfold hiStep
    by_cases h : qb k ≤ x
    · rw [if_pos h, if_neg (not_not.mpr h)]
    · rw [if_neg h, if_pos h, Finset.inf_insert, inf_assoc]

/-- The passes' count from a: a plus the indicators of the positions passed. -/
theorem foldl_cntStep (x : EReal) (qb : Fin 11 → EReal) (l : List (Fin 11)) (a : EReal) :
    l.foldl (cntStep x qb) a = a + (l.map fun k => ind x (qb k)).sum := by
  induction l generalizing a with
  | nil => simp
  | cons k l ih =>
    rw [List.foldl_cons, ih, List.map_cons, List.sum_cons]
    unfold cntStep
    rw [add_assoc]

/-! ## The two functions agree -/

/-- The counts agree. -/
theorem kCnt_eq (x : EReal) (qb : Fin 11 → EReal) : kCnt x qb = rCnt x qb := by
  unfold kCnt rCnt
  rw [foldl_cntStep, Fin.sum_univ_def]
  rfl

/-- The lower neighbours agree as soon as one boundary is above x. -/
theorem kLo_eq (x : EReal) (qb : Fin 11 → EReal) (k0 : Fin 11) (h0 : ¬ qb k0 ≤ x) : kLo x qb = rLo x qb := by
  unfold kLo rLo
  rw [foldl_loStep, idxs_toFinset]
  apply le_antisymm
  · refine sup_le ?_ (Finset.sup_le fun k hk => ?_)
    · have := Finset.le_sup (f := fun k : Fin 11 => if qb k ≤ x then qb k else Llo) (Finset.mem_univ k0)
      simpa [if_neg h0] using this
    · have hk' : qb k ≤ x := (Finset.mem_filter.mp hk).2
      have := Finset.le_sup (f := fun k : Fin 11 => if qb k ≤ x then qb k else Llo) (Finset.mem_univ k)
      simpa [if_pos hk'] using this
  · refine Finset.sup_le fun k _ => ?_
    by_cases hk : qb k ≤ x
    · rw [if_pos hk]
      exact le_sup_of_le_right (Finset.le_sup (f := qb) (Finset.mem_filter.mpr ⟨Finset.mem_univ k, hk⟩))
    · rw [if_neg hk]
      exact le_sup_left

/-- The upper neighbours agree as soon as one boundary is at or below x. -/
theorem kHi_eq (x : EReal) (qb : Fin 11 → EReal) (k0 : Fin 11) (h0 : qb k0 ≤ x) : kHi x qb = rHi x qb := by
  unfold kHi rHi
  rw [foldl_hiStep, idxs_toFinset]
  apply le_antisymm
  · refine Finset.le_inf fun k _ => ?_
    by_cases hk : qb k ≤ x
    · rw [if_pos hk]
      exact inf_le_left
    · rw [if_neg hk]
      exact inf_le_of_right_le (Finset.inf_le (f := qb) (Finset.mem_filter.mpr ⟨Finset.mem_univ k, hk⟩))
  · refine le_inf ?_ (Finset.le_inf fun k hk => ?_)
    · have := Finset.inf_le (f := fun k : Fin 11 => if qb k ≤ x then Lhi else qb k) (Finset.mem_univ k0)
      simpa [if_pos h0] using this
    · have hk' : ¬ qb k ≤ x := (Finset.mem_filter.mp hk).2
      have := Finset.inf_le (f := fun k : Fin 11 => if qb k ≤ x then Lhi else qb k) (Finset.mem_univ k)
      simpa [if_neg hk'] using this

/-- Under the final clamp the kernel's quantile value is the reference's. -/
theorem bridge (x : EReal) (qb : Fin 11 → EReal) : Cert.Spec.clip6 (ker x qb) = Cert.Spec.clip6 (ref x qb) := by
  unfold ker ref
  rw [Cert.Spec.clip6_idem]
  congr 2
  unfold pick
  by_cases h10 : qb 10 ≤ x
  · rw [if_pos h10, if_pos h10]
  · rw [if_neg h10, if_neg h10]
    by_cases h0 : x ≤ qb 0
    · rw [if_pos h0, if_pos h0]
    · rw [if_neg h0, if_neg h0, kCnt_eq, kLo_eq x qb 10 h10, kHi_eq x qb 0 (le_of_lt (not_le.mp h0))]

end Cert.FeatQ

end
-- ==== Proof.FeatQKer.lean ====
/-
  The kernel's quantile block, read at one entry.

  The block stored in the quantile window is a chain of pointwise operations on the block's quantile columns X and the
  boundary table T: eleven passes, pass c comparing X with column c of T (a column slice, re-laid as a row and spread down
  the rows, which at (p, q) is T (q, c)), each pass adding the comparison's indicator to the count, joining the boundary
  into the lower neighbour where the comparison holds and meeting it into the upper neighbour where it fails; then the
  interpolation, the two end cases, the missing-value mask and the clamp. Read at (p, q), every operation acts on the one
  entry x = X (p, q) and the eleven boundaries T (q, ·): the chain is the scalar function ker of FeatQMath. Each group of
  operations is read over VARIABLES for the values it takes from earlier groups, and the groups are then composed.
-/
import proofs.«139877_j41429254537723_1_alg».proof.Proof.FeatQMath
import proofs.«139877_j41429254537723_1_alg».proof.Proof.FrameDataIdeal
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.FeatQ

open Idealize.ShloMosaic Idealize.ShloMosaic.ValueIdx
open Cert.KernelIdeal Cert.KernelIdeal.Gen

/-- Column c of the boundary table, as a row, spread down the block: at (p, q) it is the table at (q, c). -/
theorem col_apply (c : Nat) (hc : c < 11) (hs : S512x11.Slices ![0, c] S512x1) (T : Vec Ideal S512x11 .f32)
    (p : Fin 256) (q : Fin 512) :
    broadcastTo S256x512 (shapeCast S1x512 (shapeCast S512 (extractStridedSlice S512x1 ![0, c] T hs) shapeCasts_S512x1_S512)
      shapeCasts_S512_S1x512) broadcasts_S1x512_S256x512 (ix2 p q) = T (ix2 q (⟨c, hc⟩ : Fin 11)) := by
  refine (broadcastTo_apply _ broadcasts_S1x512_S256x512 (ix2 p q) (ix2 (0 : Fin 1) q) (fun a => match a with
    | ⟨0, _⟩ => by show (0 : Nat) = if (1 : Nat) = 1 then 0 else _; rw [if_pos rfl]
    | ⟨1, _⟩ => by show q.val = if (512 : Nat) = 1 then 0 else q.val; rw [if_neg (by decide)])).trans ?_
  refine (shapeCast_apply _ shapeCasts_S512_S1x512 (ix2 (0 : Fin 1) q) (ix1 q)
    (by rewrite [Shape.rowMajor_val_two, Shape.rowMajor_val_one]; show q.val = 0 * 512 + q.val; omega)).trans ?_
  refine (shapeCast_apply _ shapeCasts_S512x1_S512 (ix1 q) (ix2 q (0 : Fin 1))
    (by rewrite [Shape.rowMajor_val_two, Shape.rowMajor_val_one]; show q.val * 1 + 0 = q.val; omega)).trans ?_
  exact extractStridedSlice_apply ![0, c] T hs (ix2 q (0 : Fin 1)) (ix2 q (⟨c, hc⟩ : Fin 11)) (fun a => match a with
    | ⟨0, _⟩ => by show q.val = 0 + q.val; omega
    | ⟨1, _⟩ => by show c = c + 0; omega)

/-- The comparison bit widened and converted is the indicator. -/
theorem mask_ge (a b : EReal) :
    FloatOps.sitofp (F := Ideal) .f32 ((FloatOps.cmpf (F := Ideal) (φ := .f32) .oge a b).setWidth 32) = ind a b := by
  show ((((Ideal.cmp .oge a b).setWidth 32).toInt : ℝ) : EReal) = ind a b
  unfold Ideal.cmp ind
  by_cases h : b ≤ a <;> simp [h]

/-- The missing-value bit widened and converted is the mask. -/
theorem mask_ne (a : EReal) :
    FloatOps.sitofp (F := Ideal) .f32 ((FloatOps.cmpf (F := Ideal) (φ := .f32) .one a Lmiss).setWidth 32) = nm a := by
  show ((((Ideal.cmp .one a Lmiss).setWidth 32).toInt : ℝ) : EReal) = nm a
  unfold Ideal.cmp nm
  by_cases h : a = Lmiss <;> simp [h]

/-- A select on the comparison bit is the if. -/
theorem select_ge {α : Type} (a b : EReal) (u v : α) :
    Scalar.select (FloatOps.cmpf (F := Ideal) (φ := .f32) .oge a b) u v = if b ≤ a then u else v := by
  show Scalar.select (Ideal.cmp .oge a b) u v = _
  unfold Ideal.cmp Scalar.select
  by_cases h : b ≤ a <;> simp [h]

theorem select_le {α : Type} (a b : EReal) (u v : α) :
    Scalar.select (FloatOps.cmpf (F := Ideal) (φ := .f32) .ole a b) u v = if a ≤ b then u else v := by
  show Scalar.select (Ideal.cmp .ole a b) u v = _
  unfold Ideal.cmp Scalar.select
  by_cases h : a ≤ b <;> simp [h]

/-- A select on the negated comparison bit is the if with its branches exchanged. -/
theorem select_not_ge {α : Type} (a b : EReal) (u v : α) :
    Scalar.select (IntOp.xori (FloatOps.cmpf (F := Ideal) (φ := .f32) .oge a b) 1#1) u v = if b ≤ a then v else u := by
  show Scalar.select (IntOp.xori (Ideal.cmp .oge a b) 1#1) u v = _
  unfold Ideal.cmp Scalar.select IntOp.xori
  by_cases h : b ≤ a <;> simp [h]

/-! ## The literals and the integer operations at an index -/

theorem lit (w : BitVec 32) : Scalar.ofBits (F := Ideal) .f32 w = Ideal.ofBits .f32 w := rfl
theorem xori_at {s : Shape} {w : Nat} (a b : IVec s w) (i : s.Idx) : xori a b i = IntOp.xori (a i) (b i) := rfl

section Read
variable (X : Vec Ideal S256x512 .f32) (T : Vec Ideal S512x11 .f32) (p : Fin 256) (q : Fin 512)

/-! ## The eleven columns of the table at (p, q) -/

theorem col0 : broadcastTo S256x512 (shapeCast S1x512 (shapeCast S512 (extractStridedSlice S512x1 ![0, 0] T slices_S512x11_o0_0_S512x1) shapeCasts_S512x1_S512) shapeCasts_S512_S1x512) broadcasts_S1x512_S256x512 (ix2 p q) = T (ix2 q (0 : Fin 11)) :=
  col_apply 0 (by omega) _ T p q
theorem col1 : broadcastTo S256x512 (shapeCast S1x512 (shapeCast S512 (extractStridedSlice S512x1 ![0, 1] T slices_S512x11_o0_1_S512x1) shapeCasts_S512x1_S512) shapeCasts_S512_S1x512) broadcasts_S1x512_S256x512 (ix2 p q) = T (ix2 q (1 : Fin 11)) :=
  col_apply 1 (by omega) _ T p q
theorem col2 : broadcastTo S256x512 (shapeCast S1x512 (shapeCast S512 (extractStridedSlice S512x1 ![0, 2] T slices_S512x11_o0_2_S512x1) shapeCasts_S512x1_S512) shapeCasts_S512_S1x512) broadcasts_S1x512_S256x512 (ix2 p q) = T (ix2 q (2 : Fin 11)) :=
  col_apply 2 (by omega) _ T p q
theorem col3 : broadcastTo S256x512 (shapeCast S1x512 (shapeCast S512 (extractStridedSlice S512x1 ![0, 3] T slices_S512x11_o0_3_S512x1) shapeCasts_S512x1_S512) shapeCasts_S512_S1x512) broadcasts_S1x512_S256x512 (ix2 p q) = T (ix2 q (3 : Fin 11)) :=
  col_apply 3 (by omega) _ T p q
theorem col4 : broadcastTo S256x512 (shapeCast S1x512 (shapeCast S512 (extractStridedSlice S512x1 ![0, 4] T slices_S512x11_o0_4_S512x1) shapeCasts_S512x1_S512) shapeCasts_S512_S1x512) broadcasts_S1x512_S256x512 (ix2 p q) = T (ix2 q (4 : Fin 11)) :=
  col_apply 4 (by omega) _ T p q
theorem col5 : broadcastTo S256x512 (shapeCast S1x512 (shapeCast S512 (extractStridedSlice S512x1 ![0, 5] T slices_S512x11_o0_5_S512x1) shapeCasts_S512x1_S512) shapeCasts_S512_S1x512) broadcasts_S1x512_S256x512 (ix2 p q) = T (ix2 q (5 : Fin 11)) :=
  col_apply 5 (by omega) _ T p q
theorem col6 : broadcastTo S256x512 (shapeCast S1x512 (shapeCast S512 (extractStridedSlice S512x1 ![0, 6] T slices_S512x11_o0_6_S512x1) shapeCasts_S512x1_S512) shapeCasts_S512_S1x512) broadcasts_S1x512_S256x512 (ix2 p q) = T (ix2 q (6 : Fin 11)) :=
  col_apply 6 (by omega) _ T p q
theorem col7 : broadcastTo S256x512 (shapeCast S1x512 (shapeCast S512 (extractStridedSlice S512x1 ![0, 7] T slices_S512x11_o0_7_S512x1) shapeCasts_S512x1_S512) shapeCasts_S512_S1x512) broadcasts_S1x512_S256x512 (ix2 p q) = T (ix2 q (7 : Fin 11)) :=
  col_apply 7 (by omega) _ T p q
theorem col8 : broadcastTo S256x512 (shapeCast S1x512 (shapeCast S512 (extractStridedSlice S512x1 ![0, 8] T slices_S512x11_o0_8_S512x1) shapeCasts_S512x1_S512) shapeCasts_S512_S1x512) broadcasts_S1x512_S256x512 (ix2 p q) = T (ix2 q (8 : Fin 11)) :=
  col_apply 8 (by omega) _ T p q
theorem col9 : broadcastTo S256x512 (shapeCast S1x512 (shapeCast S512 (extractStridedSlice S512x1 ![0, 9] T slices_S512x11_o0_9_S512x1) shapeCasts_S512x1_S512) shapeCasts_S512_S1x512) broadcasts_S1x512_S256x512 (ix2 p q) = T (ix2 q (9 : Fin 11)) :=
  col_apply 9 (by omega) _ T p q
theorem col10 : broadcastTo S256x512 (shapeCast S1x512 (shapeCast S512 (extractStridedSlice S512x1 ![0, 10] T slices_S512x11_o0_10_S512x1) shapeCasts_S512x1_S512) shapeCasts_S512_S1x512) broadcasts_S1x512_S256x512 (ix2 p q) = T (ix2 q (10 : Fin 11)) :=
  col_apply 10 (by omega) _ T p q

/-! ## The small payloads -/

theorem pay6_apply : k0_pay6 X (ix2 p q) = nm (X (ix2 p q)) := by
  unfold k0_pay6
  simp only [sitofp_apply, extui_apply, cmpf_apply, broadcast_apply, lit]
  exact mask_ne _
theorem pay7_apply : k0_pay7 (F := Ideal) (ix2 p q) = Llo := rfl
theorem pay8_apply : k0_pay8 (F := Ideal) (ix2 p q) = Lhi := rfl
theorem pay34_apply : k0_pay34 (F := Ideal) (ix2 p q) = Lten := rfl
theorem pay9_bc : (broadcastTo S256x512 (k0_pay9 T) broadcasts_S1x512_S256x512 (ix2 p q)) = T (ix2 q (0 : Fin 11)) := col0 T p q
theorem pay21_bc : (broadcastTo S256x512 (k0_pay21 T) broadcasts_S1x512_S256x512 (ix2 p q)) = T (ix2 q (4 : Fin 11)) := col4 T p q
theorem pay22_apply : k0_pay22 T (ix2 p q) = T (ix2 q (4 : Fin 11)) := col4 T p q
theorem pay10_apply : k0_pay10 X T (ix2 p q) = FloatOps.cmpf (F := Ideal) (φ := .f32) .oge (X (ix2 p q)) (T (ix2 q (0 : Fin 11))) := by
  unfold k0_pay10 k0_pay9
  simp only [cmpf_apply, col0 T p q]
theorem pay23_apply (v132 : FVec Ideal S256x512 .f32) :
    k0_pay23 X v132 (ix2 p q) = FloatOps.cmpf (F := Ideal) (φ := .f32) .oge (X (ix2 p q)) (v132 (ix2 p q)) := rfl

/-! ## Passes 0 to 3 -/

theorem pay11_apply : k0_pay11 X T (ix2 p q) = cntStep (X (ix2 p q)) (fun k => T (ix2 q k)) Lz 0 := by
  unfold k0_pay11 cntStep
  simp only [addf_apply, sitofp_apply, extui_apply, broadcast_apply, pay10_apply, mask_ge, lit]
  rfl

theorem pay18_apply (v76 : FVec Ideal S256x512 .f32) :
    k0_pay18 X T v76 (ix2 p q) = cntStep (X (ix2 p q)) (fun k => T (ix2 q k)) (cntStep (X (ix2 p q)) (fun k => T (ix2 q k)) (cntStep (X (ix2 p q)) (fun k => T (ix2 q k)) (v76 (ix2 p q)) 1) 2) 3 := by
  unfold k0_pay18 k0_pay17 k0_pay16 k0_pay15 k0_pay14 k0_pay13 k0_pay12 cntStep
  simp only [addf_apply, sitofp_apply, extui_apply, cmpf_apply, col1 T p q, col2 T p q, col3 T p q, mask_ge]

theorem pay19_apply (v67 : FVec Ideal S256x512 .f32) (v71 : FVec Ideal S1x512 .f32) (v73 : IVec S256x512 1) :
    k0_pay19 X T v67 v71 v73 (ix2 p q)
      = loStep (X (ix2 p q)) (fun k => T (ix2 q k)) (loStep (X (ix2 p q)) (fun k => T (ix2 q k)) (loStep (X (ix2 p q)) (fun k => T (ix2 q k)) (Scalar.select (v73 (ix2 p q)) (max (v67 (ix2 p q)) (broadcastTo S256x512 v71 broadcasts_S1x512_S256x512 (ix2 p q))) (v67 (ix2 p q))) 1) 2) 3 := by
  unfold k0_pay19 k0_pay17 k0_pay16 k0_pay15 k0_pay14 k0_pay13 k0_pay12 loStep
  simp only [select_apply, maximumf_apply, cmpf_apply, col1 T p q, col2 T p q, col3 T p q, select_ge]

theorem pay20_apply (v68 : FVec Ideal S256x512 .f32) (v71 : FVec Ideal S1x512 .f32) (v73 : IVec S256x512 1) :
    k0_pay20 X T v68 v71 v73 (ix2 p q)
      = hiStep (X (ix2 p q)) (fun k => T (ix2 q k)) (hiStep (X (ix2 p q)) (fun k => T (ix2 q k)) (hiStep (X (ix2 p q)) (fun k => T (ix2 q k)) (Scalar.select (IntOp.xori (v73 (ix2 p q)) 1#1) (min (v68 (ix2 p q)) (broadcastTo S256x512 v71 broadcasts_S1x512_S256x512 (ix2 p q))) (v68 (ix2 p q))) 1) 2) 3 := by
  unfold k0_pay20 k0_pay17 k0_pay16 k0_pay15 k0_pay14 k0_pay13 k0_pay12 hiStep
  simp only [select_apply, minimumf_apply, cmpf_apply, xori_at, constantI_apply, col1 T p q, col2 T p q, col3 T p q, select_not_ge]

theorem qCnt3_apply : Cert.KernelIdeal.Frame.qCnt3 X T (ix2 p q) = cntStep (X (ix2 p q)) (fun k => T (ix2 q k)) (cntStep (X (ix2 p q)) (fun k => T (ix2 q k)) (cntStep (X (ix2 p q)) (fun k => T (ix2 q k)) (cntStep (X (ix2 p q)) (fun k => T (ix2 q k)) (Lz) 0) 1) 2) 3 := by
  unfold Cert.KernelIdeal.Frame.qCnt3
  rw [pay18_apply, pay11_apply]
theorem qLo3_apply : Cert.KernelIdeal.Frame.qLo3 X T (ix2 p q) = loStep (X (ix2 p q)) (fun k => T (ix2 q k)) (loStep (X (ix2 p q)) (fun k => T (ix2 q k)) (loStep (X (ix2 p q)) (fun k => T (ix2 q k)) (loStep (X (ix2 p q)) (fun k => T (ix2 q k)) (Llo) 0) 1) 2) 3 := by
  unfold Cert.KernelIdeal.Frame.qLo3
  rw [pay19_apply, pay10_apply, pay9_bc, pay7_apply, select_ge]
  rfl
theorem qHi3_apply : Cert.KernelIdeal.Frame.qHi3 X T (ix2 p q) = hiStep (X (ix2 p q)) (fun k => T (ix2 q k)) (hiStep (X (ix2 p q)) (fun k => T (ix2 q k)) (hiStep (X (ix2 p q)) (fun k => T (ix2 q k)) (hiStep (X (ix2 p q)) (fun k => T (ix2 q k)) (Lhi) 0) 1) 2) 3 := by
  unfold Cert.KernelIdeal.Frame.qHi3
  rw [pay20_apply, pay10_apply, pay9_bc, pay8_apply, select_not_ge]
  rfl

/-! ## Passes 4 to 7 -/

theorem pay30_apply (v121 v132 : FVec Ideal S256x512 .f32) :
    k0_pay30 X T v121 v132 (ix2 p q)
      = cntStep (X (ix2 p q)) (fun k => T (ix2 q k)) (cntStep (X (ix2 p q)) (fun k => T (ix2 q k)) (cntStep (X (ix2 p q)) (fun k => T (ix2 q k)) (v121 (ix2 p q) + ind (X (ix2 p q)) (v132 (ix2 p q))) 5) 6) 7 := by
  unfold k0_pay30 k0_pay29 k0_pay28 k0_pay27 k0_pay26 k0_pay25 k0_pay24 k0_pay23 cntStep
  simp only [addf_apply, sitofp_apply, extui_apply, cmpf_apply, col5 T p q, col6 T p q, col7 T p q, mask_ge]

theorem pay31_apply (v124 : FVec Ideal S256x512 .f32) (v131 : FVec Ideal S1x512 .f32) (v132 : FVec Ideal S256x512 .f32) :
    k0_pay31 X T v124 v131 v132 (ix2 p q)
      = loStep (X (ix2 p q)) (fun k => T (ix2 q k)) (loStep (X (ix2 p q)) (fun k => T (ix2 q k)) (loStep (X (ix2 p q)) (fun k => T (ix2 q k)) (if v132 (ix2 p q) ≤ (X (ix2 p q)) then max (v124 (ix2 p q)) (broadcastTo S256x512 v131 broadcasts_S1x512_S256x512 (ix2 p q)) else v124 (ix2 p q)) 5) 6) 7 := by
  unfold k0_pay31 k0_pay29 k0_pay28 k0_pay27 k0_pay26 k0_pay25 k0_pay24 k0_pay23 loStep
  simp only [select_apply, maximumf_apply, cmpf_apply, col5 T p q, col6 T p q, col7 T p q, select_ge]

theorem pay32_apply (v128 : FVec Ideal S256x512 .f32) (v131 : FVec Ideal S1x512 .f32) (v132 : FVec Ideal S256x512 .f32) :
    k0_pay32 X T v128 v131 v132 (ix2 p q)
      = hiStep (X (ix2 p q)) (fun k => T (ix2 q k)) (hiStep (X (ix2 p q)) (fun k => T (ix2 q k)) (hiStep (X (ix2 p q)) (fun k => T (ix2 q k)) (if v132 (ix2 p q) ≤ (X (ix2 p q)) then v128 (ix2 p q) else min (v128 (ix2 p q)) (broadcastTo S256x512 v131 broadcasts_S1x512_S256x512 (ix2 p q))) 5) 6) 7 := by
  unfold k0_pay32 k0_pay29 k0_pay28 k0_pay27 k0_pay26 k0_pay25 k0_pay24 k0_pay23 hiStep
  simp only [select_apply, minimumf_apply, cmpf_apply, xori_at, constantI_apply, col5 T p q, col6 T p q, col7 T p q, select_not_ge]

theorem qCnt6_apply : Cert.KernelIdeal.Frame.qCnt6 X T (ix2 p q) = cntStep (X (ix2 p q)) (fun k => T (ix2 q k)) (cntStep (X (ix2 p q)) (fun k => T (ix2 q k)) (cntStep (X (ix2 p q)) (fun k => T (ix2 q k)) (cntStep (X (ix2 p q)) (fun k => T (ix2 q k)) (cntStep (X (ix2 p q)) (fun k => T (ix2 q k)) (cntStep (X (ix2 p q)) (fun k => T (ix2 q k)) (cntStep (X (ix2 p q)) (fun k => T (ix2 q k)) (cntStep (X (ix2 p q)) (fun k => T (ix2 q k)) (Lz) 0) 1) 2) 3) 4) 5) 6) 7 := by
  unfold Cert.KernelIdeal.Frame.qCnt6
  rw [pay30_apply, pay22_apply, qCnt3_apply]
  rfl
theorem qLo6_apply : Cert.KernelIdeal.Frame.qLo6 X T (ix2 p q) = loStep (X (ix2 p q)) (fun k => T (ix2 q k)) (loStep (X (ix2 p q)) (fun k => T (ix2 q k)) (loStep (X (ix2 p q)) (fun k => T (ix2 q k)) (loStep (X (ix2 p q)) (fun k => T (ix2 q k)) (loStep (X (ix2 p q)) (fun k => T (ix2 q k)) (loStep (X (ix2 p q)) (fun k => T (ix2 q k)) (loStep (X (ix2 p q)) (fun k => T (ix2 q k)) (loStep (X (ix2 p q)) (fun k => T (ix2 q k)) (Llo) 0) 1) 2) 3) 4) 5) 6) 7 := by
  unfold Cert.KernelIdeal.Frame.qLo6
  rw [pay31_apply, pay22_apply, pay21_bc, qLo3_apply]
  rfl
theorem qHi6_apply : Cert.KernelIdeal.Frame.qHi6 X T (ix2 p q) = hiStep (X (ix2 p q)) (fun k => T (ix2 q k)) (hiStep (X (ix2 p q)) (fun k => T (ix2 q k)) (hiStep (X (ix2 p q)) (fun k => T (ix2 q k)) (hiStep (X (ix2 p q)) (fun k => T (ix2 q k)) (hiStep (X (ix2 p q)) (fun k => T (ix2 q k)) (hiStep (X (ix2 p q)) (fun k => T (ix2 q k)) (hiStep (X (ix2 p q)) (fun k => T (ix2 q k)) (hiStep (X (ix2 p q)) (fun k => T (ix2 q k)) (Lhi) 0) 1) 2) 3) 4) 5) 6) 7 := by
  unfold Cert.KernelIdeal.Frame.qHi6
  rw [pay32_apply, pay22_apply, pay21_bc, qHi3_apply]
  rfl

/-! ## Passes 8 to 10 and the interpolation -/

theorem pay33_apply (v181 v184 v188 : FVec Ideal S256x512 .f32) :
    k0_pay33 X T v181 v184 v188 (ix2 p q)
      = ((cntStep (X (ix2 p q)) (fun k => T (ix2 q k)) (cntStep (X (ix2 p q)) (fun k => T (ix2 q k)) (cntStep (X (ix2 p q)) (fun k => T (ix2 q k)) (v181 (ix2 p q)) 8) 9) 10) - Lone)
        + Ideal.div ((X (ix2 p q)) - (loStep (X (ix2 p q)) (fun k => T (ix2 q k)) (loStep (X (ix2 p q)) (fun k => T (ix2 q k)) (loStep (X (ix2 p q)) (fun k => T (ix2 q k)) (v184 (ix2 p q)) 8) 9) 10))
            (((hiStep (X (ix2 p q)) (fun k => T (ix2 q k)) (hiStep (X (ix2 p q)) (fun k => T (ix2 q k)) (hiStep (X (ix2 p q)) (fun k => T (ix2 q k)) (v188 (ix2 p q)) 8) 9) 10) - (loStep (X (ix2 p q)) (fun k => T (ix2 q k)) (loStep (X (ix2 p q)) (fun k => T (ix2 q k)) (loStep (X (ix2 p q)) (fun k => T (ix2 q k)) (v184 (ix2 p q)) 8) 9) 10)) + Leps) := by
  unfold k0_pay33 cntStep loStep hiStep Lone Leps
  simp only [addf_apply, subf_apply, divf_apply, select_apply, maximumf_apply, minimumf_apply, cmpf_apply, sitofp_apply,
    extui_apply, xori_at, constantI_apply, broadcast_apply, col8 T p q, col9 T p q, col10 T p q, mask_ge, select_ge,
    select_not_ge, lit]

theorem qInterp_apply : Cert.KernelIdeal.Frame.qInterp X T (ix2 p q)
    = (kCnt (X (ix2 p q)) (fun k => T (ix2 q k)) - Lone) + Ideal.div ((X (ix2 p q)) - kLo (X (ix2 p q)) (fun k => T (ix2 q k))) ((kHi (X (ix2 p q)) (fun k => T (ix2 q k)) - kLo (X (ix2 p q)) (fun k => T (ix2 q k))) + Leps) := by
  unfold Cert.KernelIdeal.Frame.qInterp
  rw [pay33_apply, qCnt6_apply, qLo6_apply, qHi6_apply]
  rfl

/-! ## The end cases, the mask and the clamp -/

theorem pay35_apply (v64 v241 v242 : FVec Ideal S256x512 .f32) :
    k0_pay35 X v64 T v241 v242 (ix2 p q)
      = Cert.Spec.clip6 (pick (X (ix2 p q)) (fun k => T (ix2 q k)) (Ideal.div (v241 (ix2 p q)) (v242 (ix2 p q))) * v64 (ix2 p q)) := by
  unfold k0_pay35 Cert.Spec.clip6 Cert.Spec.c6 Cert.Spec.cm6 pick Lone Lz
  simp only [mulf_apply, divf_apply, select_apply, maximumf_apply, minimumf_apply, cmpf_apply, broadcast_apply,
    col0 T p q, col10 T p q, select_ge, select_le, lit]

/-- The stored quantile block at (p, q) is the kernel's scalar function of X (p, q) and row q of the table. -/
theorem qOut_apply : Cert.KernelIdeal.Frame.qOut X T (ix2 p q) = ker (X (ix2 p q)) (fun k => T (ix2 q k)) := by
  unfold Cert.KernelIdeal.Frame.qOut
  rw [pay35_apply, pay6_apply, qInterp_apply, pay34_apply]
  rfl

end Read

/-! ## The window -/

theorem zeros2 : (![0, 0] : Fin 2 → Nat) = fun _ => 0 := by
  funext a; fin_cases a <;> rfl

/-- The quantile window after the body, at (p, q): ker of the block's entry in column 2048 + q and of row q of the table. -/
theorem ker_apply (x0 : Vec Ideal Cert.KernelIdeal.S256x2624 .f32) (x3 : Vec Ideal Cert.KernelIdeal.S512x11 .f32) (p : Fin 256) (q : Fin 512) :
    Cert.KernelIdeal.Frame.out0_8 (F := Ideal) x0 x3 (ix2 p q) = ker (x0 (ix2 p (⟨2048 + q.val, by omega⟩ : Fin 2624))) (fun k => x3 (ix2 q k)) := by
  unfold Cert.KernelIdeal.Frame.out0_8
  rw [View.canon_unit_zero zeros2, View.ld_unit_zero zeros2, qOut_apply]
  have hX : View.ld x0 Cert.KernelIdeal.Frame.rxQ (ix2 p q) = x0 (ix2 p (⟨2048 + q.val, by omega⟩ : Fin 2624)) :=
    congrArg x0 (funext fun a => Fin.ext (match a with
      | ⟨0, _⟩ => by show 0 + 1 * p.val = p.val; omega
      | ⟨1, _⟩ => by show 2048 + 1 * q.val = 2048 + q.val; omega))
  rw [hX]

end Cert.FeatQ

end
-- ==== Proof.FeatQRef.lean ====
/-
  The reference's quantile feature, read at one entry.

  For row b and quantile feature k the reference computes, from the entry x = x0 (b, 2048 + k) and the feature's eleven
  boundaries qb j = x3 (k, j):  the mask m j = [qb j ≤ x] as a float;  a lower neighbour, the maximum from −∞ over j of
  m j · qb j + (1 − m j) · (−1e20);  an upper neighbour, the minimum from +∞ over j of (1 − m j) · qb j + m j · 1e20;  the
  count 0 + Σ m j;  the interpolation ((count − 1) + (x − lower) / (upper − lower + ε)) / 10;  then 1 where x ≥ qb 10, else 0
  where x ≤ qb 0, else the interpolation;  all times the missing-value mask of x.

  Since m j is 1 or 0, and 1·y + 0·z = y and 0·y + 1·z = z for EVERY extended real y, z (0 · ±∞ = 0 there), the two
  blended tables are plain choices: qb j where qb j ≤ x and −1e20 elsewhere; 1e20 where qb j ≤ x and qb j elsewhere. A
  maximum from −∞ over a finite set is its supremum, a minimum from +∞ its infimum. So the value at (b, k) is the
  scalar function `ref x qb`. Only three literals are evaluated: 1.0 = 1, and the two infinities the reductions start from.
-/
import proofs.«139877_j41429254537723_1_alg».proof.Proof.FeatQMath
import proofs.«139877_j41429254537723_1_alg».proof.Proof.RefRead
import Idealize.ShloMosaic.Lib.ValueIdx

noncomputable section

namespace Cert.FeatQ

open Idealize.ShloMosaic Idealize.ShloMosaic.ValueIdx
open Cert.ReferenceIdeal Cert.ReferenceIdeal.Gen Cert.ReferenceIdeal.Read
open scoped BigOperators

/-! ## The literals that must be evaluated: 1.0, and the two infinities the reductions start from -/

theorem Lone_eq : Lone = 1 := by
  unfold Lone; simp [Ideal.ofBits, Ideal.ieee, -EReal.coe_mul]; norm_num

theorem negInf_eq : Ideal.ofBits .f32 0xFF800000#32 = (⊥ : EReal) := by simp [Ideal.ofBits, Ideal.ieee]
theorem posInf_eq : Ideal.ofBits .f32 0x7F800000#32 = (⊤ : EReal) := by simp [Ideal.ofBits, Ideal.ieee]

/-! ## A comparison as a number, and as the condition of a choice -/

/-- The comparison x ≥ q converted to a float is the indicator of q ≤ x. -/
theorem mask_eq (x q : EReal) :
    FloatOps.uitofp (F := Ideal) .f32 (FloatOps.cmpf (F := Ideal) (φ := .f32) .oge x q) = ind x q := by
  show (((BitVec.ofBool (decide (q ≤ x))).toNat : ℝ) : EReal) = ind x q
  unfold ind
  by_cases h : q ≤ x
  · rw [if_pos h, decide_eq_true h]; simp
  · rw [if_neg h, decide_eq_false h]; simp

/-- The comparison x ≠ marker converted to a float is the missing-value mask. -/
theorem nmask_eq (x : EReal) :
    FloatOps.uitofp (F := Ideal) .f32 (FloatOps.cmpf (F := Ideal) (φ := .f32) .une x Lmiss) = nm x := by
  show (((BitVec.ofBool (decide (x ≠ Lmiss))).toNat : ℝ) : EReal) = nm x
  unfold nm
  by_cases h : x ≠ Lmiss
  · rw [if_pos h, decide_eq_true h]; simp
  · rw [if_neg h, decide_eq_false h]; simp

/-- A select on x ≥ q is a choice on q ≤ x; on x ≤ q, a choice on x ≤ q. -/
theorem select_oge (x q a b : EReal) :
    Scalar.select (FloatOps.cmpf (F := Ideal) (φ := .f32) .oge x q) a b = if q ≤ x then a else b := by
  show Scalar.select (BitVec.ofBool (decide (q ≤ x))) a b = _
  by_cases h : q ≤ x
  · rw [if_pos h, decide_eq_true h]; exact select_one a b
  · rw [if_neg h, decide_eq_false h]; exact select_zero a b
theorem select_ole (x q a b : EReal) :
    Scalar.select (FloatOps.cmpf (F := Ideal) (φ := .f32) .ole x q) a b = if x ≤ q then a else b := by
  show Scalar.select (BitVec.ofBool (decide (x ≤ q))) a b = _
  by_cases h : x ≤ q
  · rw [if_pos h, decide_eq_true h]; exact select_one a b
  · rw [if_neg h, decide_eq_false h]; exact select_zero a b

/-- 1 − 1 = 0 among the extended reals (a fact of the reals). -/
theorem one_sub_one : (1 : EReal) - 1 = 0 := by
  rw [← EReal.coe_one, ← EReal.coe_sub, sub_self, EReal.coe_zero]

/-- The boundary where it is at or below x, the low sentinel elsewhere: 1·y + 0·z = y and 0·y + 1·z = z for all
    extended reals, infinite ones included. -/
theorem blend_lo (x q : EReal) : ind x q * q + (Lone - ind x q) * Llo = if q ≤ x then q else Llo := by
  unfold ind; rw [Lone_eq]
  by_cases h : q ≤ x
  · rw [if_pos h, if_pos h, one_sub_one, one_mul, zero_mul, add_zero]
  · rw [if_neg h, if_neg h, sub_zero, one_mul, zero_mul, zero_add]

/-- The high sentinel where the boundary is at or below x, the boundary elsewhere. -/
theorem blend_hi (x q : EReal) : (Lone - ind x q) * q + ind x q * Lhi = if q ≤ x then Lhi else q := by
  unfold ind; rw [Lone_eq]
  by_cases h : q ≤ x
  · rw [if_pos h, if_pos h, one_sub_one, one_mul, zero_mul, zero_add]
  · rw [if_neg h, if_neg h, sub_zero, one_mul, zero_mul, add_zero]

/-! ## A maximum from −∞ is a supremum, a minimum from +∞ an infimum, over any finite index set -/

theorem fold_max_eq_sup {ι : Type} [DecidableEq ι] (f : ι → EReal) (s : Finset ι) :
    s.fold (FloatOps.maximumf (F := Ideal) (φ := .f32)) (⊥ : EReal) f = s.sup f := by
  induction s using Finset.induction_on with
  | empty => simp
  | insert a s ha ih => rw [Finset.fold_insert ha, Finset.sup_insert, ih]; rfl

theorem fold_min_eq_inf {ι : Type} [DecidableEq ι] (f : ι → EReal) (s : Finset ι) :
    s.fold (FloatOps.minimumf (F := Ideal) (φ := .f32)) (⊤ : EReal) f = s.inf f := by
  induction s using Finset.induction_on with
  | empty => simp
  | insert a s ha ih => rw [Finset.fold_insert ha, Finset.inf_insert, ih]; rfl

/-! ## The reference's stages read at an entry (b, k) and a boundary j

Throughout, x is the entry x0 (b, 2048 + k) and qb j the boundary x3 (k, j). -/

section Stages

variable (x0 : (⟨S8192x2624, .f32⟩ : BufTy).Contents (Elt Ideal)) (x3 : (⟨S512x11, .f32⟩ : BufTy).Contents (Elt Ideal)) (b : Fin 8192) (k : Fin 512)

/-- The quantile columns of the input at (b, k). -/
theorem x_at : val_main_v6 (F := Ideal) x0 (ix2 b k) = (x0 (ix2 b (⟨2048 + k.val, by omega⟩ : Fin 2624))) := by
  rw [val_main_v6_apply]
  exact congrArg x0 (funext fun a => by match a with | ⟨0, _⟩ => rfl | ⟨1, _⟩ => rfl)

/-- The entry broadcast along the boundaries. -/
theorem xb_at (j : Fin 11) : val_main_v33 (F := Ideal) x0 (ix3 b k j) = (x0 (ix2 b (⟨2048 + k.val, by omega⟩ : Fin 2624))) := by
  rw [val_main_v33_apply, val_main_v31_apply, val_main_v6_apply]
  exact congrArg x0 (funext fun a => by match a with | ⟨0, _⟩ => rfl | ⟨1, _⟩ => rfl)

/-- The three broadcasts of the boundary table along the rows. -/
theorem qb34_at (j : Fin 11) : val_main_v34 (F := Ideal) x3 (ix3 b k j) = x3 (ix2 k j) := by
  rw [val_main_v34_apply, val_main_v32_apply]
  exact congrArg x3 (funext fun a => by match a with | ⟨0, _⟩ => rfl | ⟨1, _⟩ => rfl)
theorem qb40_at (j : Fin 11) : val_main_v40 (F := Ideal) x3 (ix3 b k j) = x3 (ix2 k j) := by
  rw [val_main_v40_apply, val_main_v39_apply]
  exact congrArg x3 (funext fun a => by match a with | ⟨0, _⟩ => rfl | ⟨1, _⟩ => rfl)
theorem qb47_at (j : Fin 11) : val_main_v47 (F := Ideal) x3 (ix3 b k j) = x3 (ix2 k j) := by
  rw [val_main_v47_apply, val_main_v46_apply]
  exact congrArg x3 (funext fun a => by match a with | ⟨0, _⟩ => rfl | ⟨1, _⟩ => rfl)

/-- The mask as a float: the indicator of qb j ≤ x. -/
theorem mask_at (j : Fin 11) : val_main_v36 (F := Ideal) x0 x3 (ix3 b k j) = ind (x0 (ix2 b (⟨2048 + k.val, by omega⟩ : Fin 2624))) (x3 (ix2 k j)) := by
  rw [val_main_v36_apply, val_main_v35_apply, xb_at, qb34_at]
  exact mask_eq _ _

/-- One minus the mask. -/
theorem cmask_at (j : Fin 11) : val_main_v38 (F := Ideal) x0 x3 (ix3 b k j) = Lone - ind (x0 (ix2 b (⟨2048 + k.val, by omega⟩ : Fin 2624))) (x3 (ix2 k j)) := by
  rw [val_main_v38_apply, val_main_v37_apply, val_main_cst_7_apply, mask_at]
  rfl

/-- The table the maximum runs over: the boundary where it is at or below x, the low sentinel elsewhere. -/
theorem lotab_at (j : Fin 11) : val_main_v44 (F := Ideal) x0 x3 (ix3 b k j)
    = if x3 (ix2 k j) ≤ (x0 (ix2 b (⟨2048 + k.val, by omega⟩ : Fin 2624))) then x3 (ix2 k j) else Llo := by
  rw [val_main_v44_apply, val_main_v41_apply, val_main_v43_apply, mask_at, cmask_at, qb40_at, val_main_v42_apply, val_main_cst_8_apply]
  exact blend_lo _ _

/-- The table the minimum runs over: the high sentinel where the boundary is at or below x, the boundary elsewhere. -/
theorem hitab_at (j : Fin 11) : val_main_v51 (F := Ideal) x0 x3 (ix3 b k j)
    = if x3 (ix2 k j) ≤ (x0 (ix2 b (⟨2048 + k.val, by omega⟩ : Fin 2624))) then Lhi else x3 (ix2 k j) := by
  rw [val_main_v51_apply, val_main_v48_apply, val_main_v50_apply, mask_at, cmask_at, qb47_at, val_main_v49_apply, val_main_cst_10_apply]
  exact blend_hi _ _

end Stages

/-! ## The three reductions over the boundaries at (b, k) -/

section Reductions

variable (x0 : (⟨S8192x2624, .f32⟩ : BufTy).Contents (Elt Ideal)) (x3 : (⟨S512x11, .f32⟩ : BufTy).Contents (Elt Ideal)) (b : Fin 8192) (k : Fin 512)

/-- Dropping the boundary axis of the [8192, 512, 11] tables gives the [8192, 512] shape. -/
theorem red : S8192x512x11.Reduces [2] S8192x512 := by decide

/-- The table index over (b, k) with j on the boundary axis is (b, k, j). -/
theorem lift_at (j : Fin 11) : red.lift (ix2 b k) j = ix3 b k j := by
  funext a
  match a with
  | ⟨0, _⟩ => exact Fin.ext rfl
  | ⟨1, _⟩ => exact Fin.ext rfl
  | ⟨2, _⟩ => exact Fin.ext rfl

/-- The lower neighbour: the largest entry of its table, from −∞. -/
theorem lo_apply : val_main_v45 (F := Ideal) x0 x3 (ix2 b k) = rLo (x0 (ix2 b (⟨2048 + k.val, by omega⟩ : Fin 2624))) (fun j => x3 (ix2 k j)) := by
  unfold val_main_v45
  rw [Host.reduce_eq_fold_single FloatOps.maximumf _ _ reducesTo_S8192x512x11_S8192x512_d2 red h_S_ (ix2 b k),
    val_main_cst_9_apply]
  show Finset.fold (FloatOps.maximumf (F := Ideal) (φ := .f32)) (Ideal.ofBits .f32 0xFF800000#32) _ _ = _
  rw [negInf_eq, fold_max_eq_sup]
  unfold rLo
  show Finset.univ.sup (fun j : Fin 11 => val_main_v44 (F := Ideal) x0 x3 (red.lift (ix2 b k) j)) = _
  exact congrArg (Finset.univ.sup ·) (funext fun j => by rw [lift_at, lotab_at])

/-- The upper neighbour: the smallest entry of its table, from +∞. -/
theorem hi_apply : val_main_v52 (F := Ideal) x0 x3 (ix2 b k) = rHi (x0 (ix2 b (⟨2048 + k.val, by omega⟩ : Fin 2624))) (fun j => x3 (ix2 k j)) := by
  unfold val_main_v52
  rw [Host.reduce_eq_fold_single FloatOps.minimumf _ _ reducesTo_S8192x512x11_S8192x512_d2 red h_S_ (ix2 b k),
    val_main_cst_11_apply]
  show Finset.fold (FloatOps.minimumf (F := Ideal) (φ := .f32)) (Ideal.ofBits .f32 0x7F800000#32) _ _ = _
  rw [posInf_eq, fold_min_eq_inf]
  unfold rHi
  show Finset.univ.inf (fun j : Fin 11 => val_main_v51 (F := Ideal) x0 x3 (red.lift (ix2 b k) j)) = _
  exact congrArg (Finset.univ.inf ·) (funext fun j => by rw [lift_at, hitab_at])

/-- The count: 0.0 plus the sum of the indicators. -/
theorem cnt_apply : val_main_v53 (F := Ideal) x0 x3 (ix2 b k) = rCnt (x0 (ix2 b (⟨2048 + k.val, by omega⟩ : Fin 2624))) (fun j => x3 (ix2 k j)) := by
  rw [val_main_v53_apply, val_main_cst_12_apply]
  unfold rCnt
  refine congrArg (Lz + ·) (Finset.sum_congr rfl fun j _ => ?_)
  have e : idx_main_v53 (ix2 b k) j = ix3 b k j := by
    funext a; match a with | ⟨0, _⟩ => rfl | ⟨1, _⟩ => rfl | ⟨2, _⟩ => rfl
  rw [e, mask_at]

end Reductions

/-! ## The interpolation, the end cases, the missing-value mask -/

section Assembly

variable (x0 : (⟨S8192x2624, .f32⟩ : BufTy).Contents (Elt Ideal)) (x3 : (⟨S512x11, .f32⟩ : BufTy).Contents (Elt Ideal)) (b : Fin 8192) (k : Fin 512)

/-- The interpolated value at (b, k). -/
theorem interp_at : val_main_v63 (F := Ideal) x0 x3 (ix2 b k)
    = interp (x0 (ix2 b (⟨2048 + k.val, by omega⟩ : Fin 2624))) (rCnt (x0 (ix2 b (⟨2048 + k.val, by omega⟩ : Fin 2624))) (fun j => x3 (ix2 k j))) (rLo (x0 (ix2 b (⟨2048 + k.val, by omega⟩ : Fin 2624))) (fun j => x3 (ix2 k j))) (rHi (x0 (ix2 b (⟨2048 + k.val, by omega⟩ : Fin 2624))) (fun j => x3 (ix2 k j))) := by
  rw [val_main_v63_apply, val_main_v61_apply, val_main_v55_apply, val_main_v60_apply, val_main_v56_apply, val_main_v59_apply,
    val_main_v57_apply, cnt_apply, lo_apply, hi_apply, x_at, val_main_v54_apply, val_main_cst_13_apply, val_main_v58_apply,
    val_main_cst_14_apply, val_main_v62_apply, val_main_cst_15_apply]
  rfl

/-- The last boundary of feature k, broadcast along the rows. -/
theorem qlast_at : val_main_v67 (F := Ideal) x3 (ix2 b k) = x3 (ix2 k (10 : Fin 11)) := by
  rw [val_main_v67_apply, val_main_v66_apply, val_main_v65_apply, val_main_v64_apply]
  exact congrArg x3 (funext fun a => by match a with | ⟨0, _⟩ => exact Fin.ext (Nat.div_one _) | ⟨1, _⟩ => exact Fin.ext rfl)

/-- The first boundary of feature k, broadcast along the rows. -/
theorem qfirst_at : val_main_v72 (F := Ideal) x3 (ix2 b k) = x3 (ix2 k (0 : Fin 11)) := by
  rw [val_main_v72_apply, val_main_v71_apply, val_main_v70_apply, val_main_v69_apply]
  exact congrArg x3 (funext fun a => by match a with | ⟨0, _⟩ => exact Fin.ext (Nat.div_one _) | ⟨1, _⟩ => exact Fin.ext rfl)

/-- The missing-value mask of the entry at (b, k). -/
theorem nm_at : val_main_v76 (F := Ideal) x0 (ix2 b k) = nm (x0 (ix2 b (⟨2048 + k.val, by omega⟩ : Fin 2624))) := by
  rw [val_main_v76_apply, val_main_v2_apply, val_main_v1_apply, val_main_v0_apply, val_main_cst_apply]
  have e : idx_main_v76 (ix2 b k) = ix2 b (⟨2048 + k.val, by omega⟩ : Fin 2624) := by
    funext a; match a with | ⟨0, _⟩ => rfl | ⟨1, _⟩ => rfl
  rw [e]
  exact nmask_eq _

/-- THE REFERENCE'S QUANTILE VALUE at (b, k) is the scalar function of the entry and its feature's eleven boundaries. -/
theorem ref_apply (x0 : (⟨S8192x2624, .f32⟩ : BufTy).Contents (Elt Ideal)) (x3 : (⟨S512x11, .f32⟩ : BufTy).Contents (Elt Ideal)) (b : Fin 8192) (k : Fin 512) :
    Cert.ReferenceIdeal.Read.val_main_v77 (F := Ideal) x0 x3 (ix2 b k) = Cert.FeatQ.ref (x0 (ix2 b (⟨2048 + k.val, by omega⟩ : Fin 2624))) (fun j => x3 (ix2 k j)) := by
  rw [val_main_v77_apply, val_main_v75_apply, val_main_v74_apply, val_main_v68_apply, val_main_v73_apply, interp_at, x_at,
    qlast_at, qfirst_at, nm_at, val_main_call3_v1_apply, val_main_call3_v0_apply, val_main_cst_17_apply,
    val_main_call2_v1_apply, val_main_call2_v0_apply, val_main_cst_16_apply, select_oge, select_ole]
  rfl

end Assembly

end Cert.FeatQ

end
-- ==== Proof.FeatEDefs.lean ====
/-
  The enum one-hot feature, entry by entry.

  An enum column holds a category code, or the marker word that stands for "missing". Against one table value the
  feature is 1 where the code equals the value and 0 elsewhere, and it is forced to 0 where the code is the missing
  marker: the product of two 0/1 indicators. One program clamps this product to [−6, 6] at once, the other only at
  the very end; since both clamp at the end, the clamp's idempotence makes them agree.

  The indicators arise as a one-bit comparison converted to a float, spelt two ways: the bit widened to a word and
  read signed, or the bit read unsigned. Either way the result is 1 where the comparison holds and 0 elsewhere.
-/
import proofs.«139877_j41429254537723_1_alg».proof.Proof.Spec
import Idealize.ShloMosaic.PureOps.Ideal.Laws

noncomputable section

namespace Cert.FeatE

open Idealize.ShloMosaic

/-- The word that marks a missing entry. -/
def miss : EReal := Ideal.ofBits .f32 0xCEA57A8A#32

/-- The unclamped entry: the indicator of `x = v` times the indicator of `x` not being the missing marker. -/
def ref (x v : EReal) : EReal := (if x = v then 1 else 0) * (if x ≠ miss then 1 else 0)

/-- The same entry clamped to [−6, 6]. -/
def ker (x v : EReal) : EReal := Cert.Spec.clip6 (ref x v)

/-- Under the final clamp the two agree: clamping twice is clamping once. -/
theorem bridge (x v : EReal) : Cert.Spec.clip6 (ker x v) = Cert.Spec.clip6 (ref x v) :=
  Cert.Spec.clip6_idem (ref x v)

/-! ## A comparison bit as a float -/

/-- The bit of a decided proposition, read unsigned, as an extended real: 1 where it holds and 0 elsewhere. -/
theorem toNat_decide_cast (P : Prop) [Decidable P] :
    (((BitVec.ofBool (decide P)).toNat : ℝ) : EReal) = if P then 1 else 0 := by
  by_cases h : P
  · rw [decide_eq_true h, if_pos h]
    show (((1 : ℕ) : ℝ) : EReal) = 1
    rw [Nat.cast_one, EReal.coe_one]
  · rw [decide_eq_false h, if_neg h]
    show (((0 : ℕ) : ℝ) : EReal) = 0
    rw [Nat.cast_zero, EReal.coe_zero]

/-- The same bit widened to a 32-bit word and read signed. -/
theorem toInt_setWidth_decide_cast (P : Prop) [Decidable P] :
    ((((BitVec.ofBool (decide P)).setWidth 32).toInt : ℝ) : EReal) = if P then 1 else 0 := by
  by_cases h : P
  · rw [decide_eq_true h, if_pos h]
    show (((1 : ℤ) : ℝ) : EReal) = 1
    rw [Int.cast_one, EReal.coe_one]
  · rw [decide_eq_false h, if_neg h]
    show (((0 : ℤ) : ℝ) : EReal) = 0
    rw [Int.cast_zero, EReal.coe_zero]

/-- Equality, read unsigned. -/
theorem uitofp_oeq (x v : EReal) :
    FloatOps.uitofp (F := Ideal) .f32 (FloatOps.cmpf (F := Ideal) (φ := .f32) .oeq x v) = if x = v then 1 else 0 := by
  show (((BitVec.ofBool (decide (x = v))).toNat : ℝ) : EReal) = if x = v then 1 else 0
  exact toNat_decide_cast _

/-- Inequality (the unordered spelling, which on a linear order is the ordered one), read unsigned. -/
theorem uitofp_une (x m : EReal) :
    FloatOps.uitofp (F := Ideal) .f32 (FloatOps.cmpf (F := Ideal) (φ := .f32) .une x m) = if x ≠ m then 1 else 0 := by
  show (((BitVec.ofBool (decide (x ≠ m))).toNat : ℝ) : EReal) = if x ≠ m then 1 else 0
  exact toNat_decide_cast _

/-- Equality, widened and read signed. -/
theorem sitofp_oeq (x v : EReal) :
    FloatOps.sitofp (F := Ideal) .f32 ((FloatOps.cmpf (F := Ideal) (φ := .f32) .oeq x v).setWidth 32) = if x = v then 1 else 0 := by
  show ((((BitVec.ofBool (decide (x = v))).setWidth 32).toInt : ℝ) : EReal) = if x = v then 1 else 0
  exact toInt_setWidth_decide_cast _

/-- Inequality, widened and read signed. -/
theorem sitofp_one (x m : EReal) :
    FloatOps.sitofp (F := Ideal) .f32 ((FloatOps.cmpf (F := Ideal) (φ := .f32) .one x m).setWidth 32) = if x ≠ m then 1 else 0 := by
  show ((((BitVec.ofBool (decide (x ≠ m))).setWidth 32).toInt : ℝ) : EReal) = if x ≠ m then 1 else 0
  exact toInt_setWidth_decide_cast _

end Cert.FeatE

end
-- ==== Proof.FeatERef.lean ====
/-
  The reference's enum stage read at an index.

  The stage is a [8192, 64, 16] array flattened to [8192, 1024]: entry (b, 16·n + e) of the flat array is entry
  (b, n, e) of the cube, because 16·n + e with e < 16 is the row-major position of (n, e) in a 64 × 16 grid. Entry
  (b, n, e) of the cube is the indicator of x[b, 2560 + n] = value[n, e] times the indicator of x[b, 2560 + n] not
  being the missing marker: the two factors are x's enum columns and the value table broadcast along the axis they
  lack, compared, and the missing mask of the same columns broadcast along the value axis.
-/
import proofs.«139877_j41429254537723_1_alg».proof.Proof.FeatEDefs
import proofs.«139877_j41429254537723_1_alg».proof.Proof.RefRead
import Idealize.ShloMosaic.Lib.ValueIdx

noncomputable section

namespace Cert.FeatE

open Idealize.ShloMosaic Idealize.ShloMosaic.ValueIdx
open Cert.ReferenceIdeal

/-- Position 16·n + e of a flattened row is cell (n, e) of the 64 × 16 grid. -/
theorem idx_flat (b : Fin 8192) (n : Fin 64) (e : Fin 16) :
    Read.idx_main_v88 (ix2 b (⟨16 * n.val + e.val, by omega⟩ : Fin 1024)) = ix3 b n e := by
  have hb : b.val < 8192 := b.isLt
  have hn : n.val < 64 := n.isLt
  have he : e.val < 16 := e.isLt
  funext a
  match a with
  | ⟨0, _⟩ => exact Fin.ext (by show (b.val * 1024 + (16 * n.val + e.val)) / 1024 = b.val; omega)
  | ⟨1, _⟩ => exact Fin.ext (by show (b.val * 1024 + (16 * n.val + e.val)) / 16 % 64 = n.val; omega)
  | ⟨2, _⟩ => exact Fin.ext (by show (b.val * 1024 + (16 * n.val + e.val)) % 16 = e.val; omega)

/-- The compared entry of x: cell (b, n, e) reads column 2560 + n of row b. -/
theorem idx_x (b : Fin 8192) (n : Fin 64) (e : Fin 16) :
    Read.idx_main_v7 (Read.idx_main_v78 (Read.idx_main_v80 (ix3 b n e))) = ix2 b (⟨2560 + n.val, by omega⟩ : Fin 2624) := by
  funext a
  match a with
  | ⟨0, _⟩ => rfl
  | ⟨1, _⟩ => rfl

/-- The compared table value: cell (b, n, e) reads value (n, e). -/
theorem idx_v (b : Fin 8192) (n : Fin 64) (e : Fin 16) :
    Read.idx_main_v79 (Read.idx_main_v81 (ix3 b n e)) = ix2 n e := by
  funext a
  match a with
  | ⟨0, _⟩ => rfl
  | ⟨1, _⟩ => rfl

/-- The masked entry of x: the same column 2560 + n of row b. -/
theorem idx_m (b : Fin 8192) (n : Fin 64) (e : Fin 16) :
    Read.idx_main_v84 (Read.idx_main_v85 (Read.idx_main_v86 (ix3 b n e))) = ix2 b (⟨2560 + n.val, by omega⟩ : Fin 2624) := by
  funext a
  match a with
  | ⟨0, _⟩ => rfl
  | ⟨1, _⟩ => rfl

/-- The reference's enum stage at (b, 16·n + e). -/
theorem ref_apply (x0 : (⟨Cert.ReferenceIdeal.S8192x2624, .f32⟩ : BufTy).Contents (Elt Ideal)) (x4 : (⟨Cert.ReferenceIdeal.S64x16, .f32⟩ : BufTy).Contents (Elt Ideal)) (b : Fin 8192) (n : Fin 64) (e : Fin 16) :
    Cert.ReferenceIdeal.Read.val_main_v88 (F := Ideal) x0 x4 (ix2 b (⟨16 * n.val + e.val, by omega⟩ : Fin 1024)) = ref (x0 (ix2 b (⟨2560 + n.val, by omega⟩ : Fin 2624))) (x4 (ix2 n e)) := by
  rw [Read.val_main_v88_apply, idx_flat, Read.val_main_v87_apply, Read.val_main_v83_apply, Read.val_main_v82_apply,
    Read.val_main_v80_apply, Read.val_main_v78_apply, Read.val_main_v7_apply, idx_x,
    Read.val_main_v81_apply, Read.val_main_v79_apply, idx_v,
    Read.val_main_v86_apply, Read.val_main_v85_apply, Read.val_main_v84_apply, idx_m,
    Read.val_main_v2_apply, Read.val_main_v1_apply, Read.val_main_v0_apply, Read.val_main_cst_apply,
    uitofp_oeq, uitofp_une]
  rfl

end Cert.FeatE

end
-- ==== Proof.FeatEKer.lean ====
/-
  The kernel's enum slabs read at an index.

  Slab e of the 256 × 1024 enum block is a 256 × 64 array whose entry (p, n) compares entry (p, n) of the block's enum
  columns with entry (n, e) of the value table: column e of the table, cut out as a 64 × 1 array, is flattened to 64
  entries, laid out as one row and repeated down the 256 rows. The comparison's indicator is multiplied by the
  indicator of the entry not being the missing marker, and the product is clamped to [−6, 6].
-/
import proofs.«139877_j41429254537723_1_alg».proof.Proof.FeatEDefs
import proofs.«139877_j41429254537723_1_alg».proof.Proof.FrameDataIdeal
import Idealize.ShloMosaic.Lib.ValueIdx
import Idealize.ShloMosaic.Lib.ValueLayout
import Idealize.ShloMosaic.Lib.Pipeline.Value
import Idealize.ShloMosaic.Lib.Ring

noncomputable section

namespace Cert.FeatE

open Idealize.ShloMosaic Idealize.ShloMosaic.ValueIdx
open Cert.KernelIdeal Cert.KernelIdeal.Gen

/-! ## One column of the value table, repeated down the rows -/

/-- An `[a, 1]` array flattened to `[a]` reads, at `i`, the operand at `(i, 0)`: the row-major position of
    `(i, 0)` in a grid one column wide is `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `c` of the table, as the 256 × 64 array the comparison reads: entry (p, n) is table entry (n, c). -/
theorem col_apply (v269 : Vec Ideal S64x16 .f32) (c : ℕ) (hc : c < 16) (h : S64x16.Slices ![0, c] S64x1)
    (p : Fin 256) (n : Fin 64) :
    broadcastTo S256x64 (shapeCast S1x64 (shapeCast S64 (extractStridedSlice S64x1 ![0, c] v269 h) shapeCasts_S64x1_S64)
        shapeCasts_S64_S1x64) broadcasts_S1x64_S256x64 (ix2 p n) = v269 (ix2 n (⟨c, hc⟩ : Fin 16)) := by
  rw [broadcastTo_1b_ab_apply, shapeCast_a_1a_apply, shapeCast_a1_a_apply,
    slice2_axis1_apply c v269 h n (0 : Fin 1) (⟨c, hc⟩ : Fin 16) rfl]

/-! ## The missing mask and the clamped product -/

/-- The missing mask at (p, n): 1 unless the entry is the missing marker. -/
theorem pay36_apply (v264 : Vec Ideal S256x64 .f32) (p : Fin 256) (n : Fin 64) :
    k0_pay36 v264 (ix2 p n) = if v264 (ix2 p n) ≠ miss then 1 else 0 :=
  sitofp_one (v264 (ix2 p n)) miss

/-- The clamped product at (p, n), for any array `col` standing for the repeated column whose entry there is `c`. -/
theorem core_apply (v264 : Vec Ideal S256x64 .f32) (col : FVec Ideal S256x64 .f32) (p : Fin 256) (n : Fin 64) (c : EReal)
    (hcol : col (ix2 p n) = c) :
    minimumf (broadcast S256x64 (Scalar.ofBits .f32 0x40C00000#32))
      (maximumf (broadcast S256x64 (Scalar.ofBits .f32 0xC0C00000#32))
        (mulf (sitofp .f32 (extui 32 (cmpf .oeq v264 col) natLt_1_32)) (k0_pay36 v264))) (ix2 p n)
      = ker (v264 (ix2 p n)) c := by
  rw [minimumf_apply, maximumf_apply, mulf_apply, broadcast_apply, broadcast_apply, sitofp_apply, extui_apply,
    cmpf_apply, hcol, sitofp_oeq, pay36_apply]
  rfl

/-! ## The sixteen slabs

Each slab is the clamped product against its own column of the table. Three of them receive the column, or apply the
clamp, through a separately named intermediate value; unfolded, all sixteen are the same expression. -/

/-- Slab 0: the entry against table column 0. -/
theorem slab0 (v264 : Vec Ideal S256x64 .f32) (v269 : Vec Ideal S64x16 .f32) (p : Fin 256) (n : Fin 64) :
    Frame.ePay0 v264 v269 (ix2 p n) = ker (v264 (ix2 p n)) (v269 (ix2 n (⟨0, by decide⟩ : Fin 16))) := by
  unfold Frame.ePay0 k0_pay37
  exact core_apply v264 _ p n _ (col_apply v269 0 (by decide) _ p n)

/-- Slab 1: the entry against table column 1. -/
theorem slab1 (v264 : Vec Ideal S256x64 .f32) (v269 : Vec Ideal S64x16 .f32) (p : Fin 256) (n : Fin 64) :
    Frame.ePay1 v264 v269 (ix2 p n) = ker (v264 (ix2 p n)) (v269 (ix2 n (⟨1, by decide⟩ : Fin 16))) := by
  unfold Frame.ePay1 k0_pay39 k0_pay38
  exact core_apply v264 _ p n _ (col_apply v269 1 (by decide) _ p n)

/-- Slab 2: the entry against table column 2. -/
theorem slab2 (v264 : Vec Ideal S256x64 .f32) (v269 : Vec Ideal S64x16 .f32) (p : Fin 256) (n : Fin 64) :
    Frame.ePay2 v264 v269 (ix2 p n) = ker (v264 (ix2 p n)) (v269 (ix2 n (⟨2, by decide⟩ : Fin 16))) := by
  unfold Frame.ePay2 k0_pay40
  exact core_apply v264 _ p n _ (col_apply v269 2 (by decide) _ p n)

/-- Slab 3: the entry against table column 3. -/
theorem slab3 (v264 : Vec Ideal S256x64 .f32) (v269 : Vec Ideal S64x16 .f32) (p : Fin 256) (n : Fin 64) :
    Frame.ePay3 v264 v269 (ix2 p n) = ker (v264 (ix2 p n)) (v269 (ix2 n (⟨3, by decide⟩ : Fin 16))) := by
  unfold Frame.ePay3 k0_pay41
  exact core_apply v264 _ p n _ (col_apply v269 3 (by decide) _ p n)

/-- Slab 4: the entry against table column 4. -/
theorem slab4 (v264 : Vec Ideal S256x64 .f32) (v269 : Vec Ideal S64x16 .f32) (p : Fin 256) (n : Fin 64) :
    Frame.ePay4 v264 v269 (ix2 p n) = ker (v264 (ix2 p n)) (v269 (ix2 n (⟨4, by decide⟩ : Fin 16))) := by
  unfold Frame.ePay4 k0_pay43 k0_pay42
  exact core_apply v264 _ p n _ (col_apply v269 4 (by decide) _ p n)

/-- Slab 5: the entry against table column 5. -/
theorem slab5 (v264 : Vec Ideal S256x64 .f32) (v269 : Vec Ideal S64x16 .f32) (p : Fin 256) (n : Fin 64) :
    Frame.ePay5 v264 v269 (ix2 p n) = ker (v264 (ix2 p n)) (v269 (ix2 n (⟨5, by decide⟩ : Fin 16))) := by
  unfold Frame.ePay5 k0_pay44
  exact core_apply v264 _ p n _ (col_apply v269 5 (by decide) _ p n)

/-- Slab 6: the entry against table column 6. -/
theorem slab6 (v264 : Vec Ideal S256x64 .f32) (v269 : Vec Ideal S64x16 .f32) (p : Fin 256) (n : Fin 64) :
    Frame.ePay6 v264 v269 (ix2 p n) = ker (v264 (ix2 p n)) (v269 (ix2 n (⟨6, by decide⟩ : Fin 16))) := by
  unfold Frame.ePay6 k0_pay45
  exact core_apply v264 _ p n _ (col_apply v269 6 (by decide) _ p n)

/-- Slab 7: the entry against table column 7. -/
theorem slab7 (v264 : Vec Ideal S256x64 .f32) (v269 : Vec Ideal S64x16 .f32) (p : Fin 256) (n : Fin 64) :
    Frame.ePay7 v264 v269 (ix2 p n) = ker (v264 (ix2 p n)) (v269 (ix2 n (⟨7, by decide⟩ : Fin 16))) := by
  unfold Frame.ePay7 k0_pay46
  exact core_apply v264 _ p n _ (col_apply v269 7 (by decide) _ p n)

/-- Slab 8: the entry against table column 8. -/
theorem slab8 (v264 : Vec Ideal S256x64 .f32) (v269 : Vec Ideal S64x16 .f32) (p : Fin 256) (n : Fin 64) :
    Frame.ePay8 v264 v269 (ix2 p n) = ker (v264 (ix2 p n)) (v269 (ix2 n (⟨8, by decide⟩ : Fin 16))) := by
  unfold Frame.ePay8 k0_pay47
  exact core_apply v264 _ p n _ (col_apply v269 8 (by decide) _ p n)

/-- Slab 9: the entry against table column 9. -/
theorem slab9 (v264 : Vec Ideal S256x64 .f32) (v269 : Vec Ideal S64x16 .f32) (p : Fin 256) (n : Fin 64) :
    Frame.ePay9 v264 v269 (ix2 p n) = ker (v264 (ix2 p n)) (v269 (ix2 n (⟨9, by decide⟩ : Fin 16))) := by
  unfold Frame.ePay9 k0_pay48
  exact core_apply v264 _ p n _ (col_apply v269 9 (by decide) _ p n)

/-- Slab 10: the entry against table column 10. -/
theorem slab10 (v264 : Vec Ideal S256x64 .f32) (v269 : Vec Ideal S64x16 .f32) (p : Fin 256) (n : Fin 64) :
    Frame.ePay10 v264 v269 (ix2 p n) = ker (v264 (ix2 p n)) (v269 (ix2 n (⟨10, by decide⟩ : Fin 16))) := by
  unfold Frame.ePay10 k0_pay49
  exact core_apply v264 _ p n _ (col_apply v269 10 (by decide) _ p n)

/-- Slab 11: the entry against table column 11. -/
theorem slab11 (v264 : Vec Ideal S256x64 .f32) (v269 : Vec Ideal S64x16 .f32) (p : Fin 256) (n : Fin 64) :
    Frame.ePay11 v264 v269 (ix2 p n) = ker (v264 (ix2 p n)) (v269 (ix2 n (⟨11, by decide⟩ : Fin 16))) := by
  unfold Frame.ePay11 k0_pay51 k0_pay50
  exact core_apply v264 _ p n _ (col_apply v269 11 (by decide) _ p n)

/-- Slab 12: the entry against table column 12. -/
theorem slab12 (v264 : Vec Ideal S256x64 .f32) (v269 : Vec Ideal S64x16 .f32) (p : Fin 256) (n : Fin 64) :
    Frame.ePay12 v264 v269 (ix2 p n) = ker (v264 (ix2 p n)) (v269 (ix2 n (⟨12, by decide⟩ : Fin 16))) := by
  unfold Frame.ePay12 k0_pay52
  exact core_apply v264 _ p n _ (col_apply v269 12 (by decide) _ p n)

/-- Slab 13: the entry against table column 13. -/
theorem slab13 (v264 : Vec Ideal S256x64 .f32) (v269 : Vec Ideal S64x16 .f32) (p : Fin 256) (n : Fin 64) :
    Frame.ePay13 v264 v269 (ix2 p n) = ker (v264 (ix2 p n)) (v269 (ix2 n (⟨13, by decide⟩ : Fin 16))) := by
  unfold Frame.ePay13 k0_pay53
  exact core_apply v264 _ p n _ (col_apply v269 13 (by decide) _ p n)

/-- Slab 14: the entry against table column 14. -/
theorem slab14 (v264 : Vec Ideal S256x64 .f32) (v269 : Vec Ideal S64x16 .f32) (p : Fin 256) (n : Fin 64) :
    Frame.ePay14 v264 v269 (ix2 p n) = ker (v264 (ix2 p n)) (v269 (ix2 n (⟨14, by decide⟩ : Fin 16))) := by
  unfold Frame.ePay14 k0_pay1 k0_pay54
  exact core_apply v264 _ p n _ (col_apply v269 14 (by decide) _ p n)

/-- Slab 15: the entry against table column 15. -/
theorem slab15 (v264 : Vec Ideal S256x64 .f32) (v269 : Vec Ideal S64x16 .f32) (p : Fin 256) (n : Fin 64) :
    Frame.ePay15 v264 v269 (ix2 p n) = ker (v264 (ix2 p n)) (v269 (ix2 n (⟨15, by decide⟩ : Fin 16))) := by
  unfold Frame.ePay15 k0_pay2
  exact core_apply v264 _ p n _ (col_apply v269 15 (by decide) _ p n)

/-! ## The loads

The enum columns are columns 2560 … 2623 of the block of `x`; the value table is loaded whole. -/

/-- Entry (p, n) of the loaded enum columns is entry (p, 2560 + n) of the block. -/
theorem ld_x (x0 : Vec Ideal S256x2624 .f32) (p : Fin 256) (n : Fin 64) :
    View.ld x0 Frame.rxE (ix2 p n) = x0 (ix2 p (⟨2560 + n.val, by omega⟩ : Fin 2624)) :=
  congrArg x0 (funext fun a => Fin.ext (by
    match a with
    | ⟨0, _⟩ => show 0 + 1 * p.val = p.val; omega
    | ⟨1, _⟩ => show 2560 + 1 * n.val = 2560 + n.val; omega))

/-- The loaded table is the table. -/
theorem ld_v (x4 : Vec Ideal S64x16 .f32) (n : Fin 64) (e : Fin 16) :
    View.ld x4 Frame.rEv (ix2 n e) = x4 (ix2 n e) :=
  congrArg x4 (funext fun a => Fin.ext (by
    match a with
    | ⟨0, _⟩ => show 0 + 1 * n.val = n.val; omega
    | ⟨1, _⟩ => show 0 + 1 * e.val = e.val; omega))

/-! ## The whole block as one function of its index

Column j of the enum block belongs to slab j / 64 and, within it, to enum feature j % 64. -/

/-- Entry (p, j) of the enum block: feature j % 64 against value j / 64. -/
def G (x0 : Vec Ideal S256x2624 .f32) (x4 : Vec Ideal S64x16 .f32) : Vec Ideal S256x1024 .f32 := fun y =>
  ker (x0 (ix2 (⟨(y 0).val, idx2_lt0 y⟩ : Fin 256) (⟨2560 + (y 1).val % 64, by omega⟩ : Fin 2624)))
    (x4 (ix2 (⟨(y 1).val % 64, Nat.mod_lt _ (by decide)⟩ : Fin 64)
      (⟨(y 1).val / 64, by have h := idx2_lt1 y; omega⟩ : Fin 16)))

/-- At row p and column 64·e + n it is feature n against value e. -/
theorem G_at (x0 : Vec Ideal S256x2624 .f32) (x4 : Vec Ideal S64x16 .f32) (p : Fin 256) (e : Fin 16) (n : Fin 64)
    (y : S256x1024.Idx) (h0 : (y 0).val = p.val) (h1 : (y 1).val = 64 * e.val + n.val) :
    G x0 x4 y = ker (x0 (ix2 p (⟨2560 + n.val, by omega⟩ : Fin 2624))) (x4 (ix2 n e)) := by
  have hn : n.val < 64 := n.isLt
  have he : e.val < 16 := e.isLt
  have a0 : (⟨(y 0).val, idx2_lt0 y⟩ : Fin 256) = p := Fin.ext h0
  have a1 : ∀ h, (⟨2560 + (y 1).val % 64, h⟩ : Fin 2624) = ⟨2560 + n.val, by omega⟩ := fun h =>
    Fin.ext (by show 2560 + (y 1).val % 64 = 2560 + n.val; omega)
  have a2 : ∀ h, (⟨(y 1).val % 64, h⟩ : Fin 64) = n := fun h => Fin.ext (by show (y 1).val % 64 = n.val; omega)
  have a3 : ∀ h, (⟨(y 1).val / 64, h⟩ : Fin 16) = e := fun h => Fin.ext (by show (y 1).val / 64 = e.val; omega)
  unfold G
  rw [a0, a1, a2, a3]

/-! ## Every slab is a block of that function -/

/-- Slab 0, stored at columns 0 … 63, at its local index is `G` at the block's index. -/
theorem piece0 (x0 : Vec Ideal S256x2624 .f32) (x4 : Vec Ideal S64x16 .f32) (x : Frame.rE0.shape.Idx) :
    Frame.ePay0 (View.ld x0 Frame.rxE) (View.ld x4 Frame.rEv) x = G x0 x4 (Frame.rE0.emb x) := by
  obtain ⟨p, n, rfl⟩ : ∃ (p : Fin 256) (n : Fin 64), x = ix2 p n := ⟨x 0, x 1, eq_ix2 x⟩
  rw [slab0, ld_x, ld_v]
  exact (G_at x0 x4 p (⟨0, by decide⟩ : Fin 16) n _ (by show 0 + 1 * p.val = p.val; omega)
    (by show 0 + 1 * n.val = 64 * 0 + n.val; omega)).symm

/-- Slab 1, stored at columns 64 … 127, at its local index is `G` at the block's index. -/
theorem piece1 (x0 : Vec Ideal S256x2624 .f32) (x4 : Vec Ideal S64x16 .f32) (x : Frame.rE1.shape.Idx) :
    Frame.ePay1 (View.ld x0 Frame.rxE) (View.ld x4 Frame.rEv) x = G x0 x4 (Frame.rE1.emb x) := by
  obtain ⟨p, n, rfl⟩ : ∃ (p : Fin 256) (n : Fin 64), x = ix2 p n := ⟨x 0, x 1, eq_ix2 x⟩
  rw [slab1, ld_x, ld_v]
  exact (G_at x0 x4 p (⟨1, by decide⟩ : Fin 16) n _ (by show 0 + 1 * p.val = p.val; omega)
    (by show 64 + 1 * n.val = 64 * 1 + n.val; omega)).symm

/-- Slab 2, stored at columns 128 … 191, at its local index is `G` at the block's index. -/
theorem piece2 (x0 : Vec Ideal S256x2624 .f32) (x4 : Vec Ideal S64x16 .f32) (x : Frame.rE2.shape.Idx) :
    Frame.ePay2 (View.ld x0 Frame.rxE) (View.ld x4 Frame.rEv) x = G x0 x4 (Frame.rE2.emb x) := by
  obtain ⟨p, n, rfl⟩ : ∃ (p : Fin 256) (n : Fin 64), x = ix2 p n := ⟨x 0, x 1, eq_ix2 x⟩
  rw [slab2, ld_x, ld_v]
  exact (G_at x0 x4 p (⟨2, by decide⟩ : Fin 16) n _ (by show 0 + 1 * p.val = p.val; omega)
    (by show 128 + 1 * n.val = 64 * 2 + n.val; omega)).symm

/-- Slab 3, stored at columns 192 … 255, at its local index is `G` at the block's index. -/
theorem piece3 (x0 : Vec Ideal S256x2624 .f32) (x4 : Vec Ideal S64x16 .f32) (x : Frame.rE3.shape.Idx) :
    Frame.ePay3 (View.ld x0 Frame.rxE) (View.ld x4 Frame.rEv) x = G x0 x4 (Frame.rE3.emb x) := by
  obtain ⟨p, n, rfl⟩ : ∃ (p : Fin 256) (n : Fin 64), x = ix2 p n := ⟨x 0, x 1, eq_ix2 x⟩
  rw [slab3, ld_x, ld_v]
  exact (G_at x0 x4 p (⟨3, by decide⟩ : Fin 16) n _ (by show 0 + 1 * p.val = p.val; omega)
    (by show 192 + 1 * n.val = 64 * 3 + n.val; omega)).symm

/-- Slab 4, stored at columns 256 … 319, at its local index is `G` at the block's index. -/
theorem piece4 (x0 : Vec Ideal S256x2624 .f32) (x4 : Vec Ideal S64x16 .f32) (x : Frame.rE4.shape.Idx) :
    Frame.ePay4 (View.ld x0 Frame.rxE) (View.ld x4 Frame.rEv) x = G x0 x4 (Frame.rE4.emb x) := by
  obtain ⟨p, n, rfl⟩ : ∃ (p : Fin 256) (n : Fin 64), x = ix2 p n := ⟨x 0, x 1, eq_ix2 x⟩
  rw [slab4, ld_x, ld_v]
  exact (G_at x0 x4 p (⟨4, by decide⟩ : Fin 16) n _ (by show 0 + 1 * p.val = p.val; omega)
    (by show 256 + 1 * n.val = 64 * 4 + n.val; omega)).symm

/-- Slab 5, stored at columns 320 … 383, at its local index is `G` at the block's index. -/
theorem piece5 (x0 : Vec Ideal S256x2624 .f32) (x4 : Vec Ideal S64x16 .f32) (x : Frame.rE5.shape.Idx) :
    Frame.ePay5 (View.ld x0 Frame.rxE) (View.ld x4 Frame.rEv) x = G x0 x4 (Frame.rE5.emb x) := by
  obtain ⟨p, n, rfl⟩ : ∃ (p : Fin 256) (n : Fin 64), x = ix2 p n := ⟨x 0, x 1, eq_ix2 x⟩
  rw [slab5, ld_x, ld_v]
  exact (G_at x0 x4 p (⟨5, by decide⟩ : Fin 16) n _ (by show 0 + 1 * p.val = p.val; omega)
    (by show 320 + 1 * n.val = 64 * 5 + n.val; omega)).symm

/-- Slab 6, stored at columns 384 … 447, at its local index is `G` at the block's index. -/
theorem piece6 (x0 : Vec Ideal S256x2624 .f32) (x4 : Vec Ideal S64x16 .f32) (x : Frame.rE6.shape.Idx) :
    Frame.ePay6 (View.ld x0 Frame.rxE) (View.ld x4 Frame.rEv) x = G x0 x4 (Frame.rE6.emb x) := by
  obtain ⟨p, n, rfl⟩ : ∃ (p : Fin 256) (n : Fin 64), x = ix2 p n := ⟨x 0, x 1, eq_ix2 x⟩
  rw [slab6, ld_x, ld_v]
  exact (G_at x0 x4 p (⟨6, by decide⟩ : Fin 16) n _ (by show 0 + 1 * p.val = p.val; omega)
    (by show 384 + 1 * n.val = 64 * 6 + n.val; omega)).symm

/-- Slab 7, stored at columns 448 … 511, at its local index is `G` at the block's index. -/
theorem piece7 (x0 : Vec Ideal S256x2624 .f32) (x4 : Vec Ideal S64x16 .f32) (x : Frame.rE7.shape.Idx) :
    Frame.ePay7 (View.ld x0 Frame.rxE) (View.ld x4 Frame.rEv) x = G x0 x4 (Frame.rE7.emb x) := by
  obtain ⟨p, n, rfl⟩ : ∃ (p : Fin 256) (n : Fin 64), x = ix2 p n := ⟨x 0, x 1, eq_ix2 x⟩
  rw [slab7, ld_x, ld_v]
  exact (G_at x0 x4 p (⟨7, by decide⟩ : Fin 16) n _ (by show 0 + 1 * p.val = p.val; omega)
    (by show 448 + 1 * n.val = 64 * 7 + n.val; omega)).symm

/-- Slab 8, stored at columns 512 … 575, at its local index is `G` at the block's index. -/
theorem piece8 (x0 : Vec Ideal S256x2624 .f32) (x4 : Vec Ideal S64x16 .f32) (x : Frame.rE8.shape.Idx) :
    Frame.ePay8 (View.ld x0 Frame.rxE) (View.ld x4 Frame.rEv) x = G x0 x4 (Frame.rE8.emb x) := by
  obtain ⟨p, n, rfl⟩ : ∃ (p : Fin 256) (n : Fin 64), x = ix2 p n := ⟨x 0, x 1, eq_ix2 x⟩
  rw [slab8, ld_x, ld_v]
  exact (G_at x0 x4 p (⟨8, by decide⟩ : Fin 16) n _ (by show 0 + 1 * p.val = p.val; omega)
    (by show 512 + 1 * n.val = 64 * 8 + n.val; omega)).symm

/-- Slab 9, stored at columns 576 … 639, at its local index is `G` at the block's index. -/
theorem piece9 (x0 : Vec Ideal S256x2624 .f32) (x4 : Vec Ideal S64x16 .f32) (x : Frame.rE9.shape.Idx) :
    Frame.ePay9 (View.ld x0 Frame.rxE) (View.ld x4 Frame.rEv) x = G x0 x4 (Frame.rE9.emb x) := by
  obtain ⟨p, n, rfl⟩ : ∃ (p : Fin 256) (n : Fin 64), x = ix2 p n := ⟨x 0, x 1, eq_ix2 x⟩
  rw [slab9, ld_x, ld_v]
  exact (G_at x0 x4 p (⟨9, by decide⟩ : Fin 16) n _ (by show 0 + 1 * p.val = p.val; omega)
    (by show 576 + 1 * n.val = 64 * 9 + n.val; omega)).symm

/-- Slab 10, stored at columns 640 … 703, at its local index is `G` at the block's index. -/
theorem piece10 (x0 : Vec Ideal S256x2624 .f32) (x4 : Vec Ideal S64x16 .f32) (x : Frame.rE10.shape.Idx) :
    Frame.ePay10 (View.ld x0 Frame.rxE) (View.ld x4 Frame.rEv) x = G x0 x4 (Frame.rE10.emb x) := by
  obtain ⟨p, n, rfl⟩ : ∃ (p : Fin 256) (n : Fin 64), x = ix2 p n := ⟨x 0, x 1, eq_ix2 x⟩
  rw [slab10, ld_x, ld_v]
  exact (G_at x0 x4 p (⟨10, by decide⟩ : Fin 16) n _ (by show 0 + 1 * p.val = p.val; omega)
    (by show 640 + 1 * n.val = 64 * 10 + n.val; omega)).symm

/-- Slab 11, stored at columns 704 … 767, at its local index is `G` at the block's index. -/
theorem piece11 (x0 : Vec Ideal S256x2624 .f32) (x4 : Vec Ideal S64x16 .f32) (x : Frame.rE11.shape.Idx) :
    Frame.ePay11 (View.ld x0 Frame.rxE) (View.ld x4 Frame.rEv) x = G x0 x4 (Frame.rE11.emb x) := by
  obtain ⟨p, n, rfl⟩ : ∃ (p : Fin 256) (n : Fin 64), x = ix2 p n := ⟨x 0, x 1, eq_ix2 x⟩
  rw [slab11, ld_x, ld_v]
  exact (G_at x0 x4 p (⟨11, by decide⟩ : Fin 16) n _ (by show 0 + 1 * p.val = p.val; omega)
    (by show 704 + 1 * n.val = 64 * 11 + n.val; omega)).symm

/-- Slab 12, stored at columns 768 … 831, at its local index is `G` at the block's index. -/
theorem piece12 (x0 : Vec Ideal S256x2624 .f32) (x4 : Vec Ideal S64x16 .f32) (x : Frame.rE12.shape.Idx) :
    Frame.ePay12 (View.ld x0 Frame.rxE) (View.ld x4 Frame.rEv) x = G x0 x4 (Frame.rE12.emb x) := by
  obtain ⟨p, n, rfl⟩ : ∃ (p : Fin 256) (n : Fin 64), x = ix2 p n := ⟨x 0, x 1, eq_ix2 x⟩
  rw [slab12, ld_x, ld_v]
  exact (G_at x0 x4 p (⟨12, by decide⟩ : Fin 16) n _ (by show 0 + 1 * p.val = p.val; omega)
    (by show 768 + 1 * n.val = 64 * 12 + n.val; omega)).symm

/-- Slab 13, stored at columns 832 … 895, at its local index is `G` at the block's index. -/
theorem piece13 (x0 : Vec Ideal S256x2624 .f32) (x4 : Vec Ideal S64x16 .f32) (x : Frame.rE13.shape.Idx) :
    Frame.ePay13 (View.ld x0 Frame.rxE) (View.ld x4 Frame.rEv) x = G x0 x4 (Frame.rE13.emb x) := by
  obtain ⟨p, n, rfl⟩ : ∃ (p : Fin 256) (n : Fin 64), x = ix2 p n := ⟨x 0, x 1, eq_ix2 x⟩
  rw [slab13, ld_x, ld_v]
  exact (G_at x0 x4 p (⟨13, by decide⟩ : Fin 16) n _ (by show 0 + 1 * p.val = p.val; omega)
    (by show 832 + 1 * n.val = 64 * 13 + n.val; omega)).symm

/-- Slab 14, stored at columns 896 … 959, at its local index is `G` at the block's index. -/
theorem piece14 (x0 : Vec Ideal S256x2624 .f32) (x4 : Vec Ideal S64x16 .f32) (x : Frame.rE14.shape.Idx) :
    Frame.ePay14 (View.ld x0 Frame.rxE) (View.ld x4 Frame.rEv) x = G x0 x4 (Frame.rE14.emb x) := by
  obtain ⟨p, n, rfl⟩ : ∃ (p : Fin 256) (n : Fin 64), x = ix2 p n := ⟨x 0, x 1, eq_ix2 x⟩
  rw [slab14, ld_x, ld_v]
  exact (G_at x0 x4 p (⟨14, by decide⟩ : Fin 16) n _ (by show 0 + 1 * p.val = p.val; omega)
    (by show 896 + 1 * n.val = 64 * 14 + n.val; omega)).symm

/-- Slab 15, stored at columns 960 … 1023, at its local index is `G` at the block's index. -/
theorem piece15 (x0 : Vec Ideal S256x2624 .f32) (x4 : Vec Ideal S64x16 .f32) (x : Frame.rE15.shape.Idx) :
    Frame.ePay15 (View.ld x0 Frame.rxE) (View.ld x4 Frame.rEv) x = G x0 x4 (Frame.rE15.emb x) := by
  obtain ⟨p, n, rfl⟩ : ∃ (p : Fin 256) (n : Fin 64), x = ix2 p n := ⟨x 0, x 1, eq_ix2 x⟩
  rw [slab15, ld_x, ld_v]
  exact (G_at x0 x4 p (⟨15, by decide⟩ : Fin 16) n _ (by show 0 + 1 * p.val = p.val; omega)
    (by show 960 + 1 * n.val = 64 * 15 + n.val; omega)).symm

/-! ## The enum block at an index -/

/-- The enum block after the body, at row p and column 64·e + n. -/
theorem ker_apply (x0 : Vec Ideal Cert.KernelIdeal.S256x2624 .f32) (x4 : Vec Ideal Cert.KernelIdeal.S64x16 .f32) (p : Fin 256) (e : Fin 16) (n : Fin 64) :
    Cert.KernelIdeal.Frame.out0_9 (F := Ideal) x0 x4 (ix2 p (⟨64 * e.val + n.val, by omega⟩ : Fin 1024)) = ker (x0 (ix2 p (⟨2560 + n.val, by omega⟩ : Fin 2624))) (x4 (ix2 n e)) := by
  unfold Frame.out0_9
  refine (View.canon_apply_of_pieces (G x0 x4) _ ?_ _ ?_).trans ?_
  · intro q hq
    simp only [List.mem_cons, List.not_mem_nil, or_false] at hq
    rcases hq with rfl | rfl | rfl | rfl | rfl | rfl | rfl | rfl | rfl | rfl | rfl | rfl | rfl | rfl | rfl | rfl
    · exact piece15 x0 x4
    · exact piece14 x0 x4
    · exact piece13 x0 x4
    · exact piece12 x0 x4
    · exact piece11 x0 x4
    · exact piece10 x0 x4
    · exact piece9 x0 x4
    · exact piece8 x0 x4
    · exact piece7 x0 x4
    · exact piece6 x0 x4
    · exact piece5 x0 x4
    · exact piece4 x0 x4
    · exact piece3 x0 x4
    · exact piece2 x0 x4
    · exact piece1 x0 x4
    · exact piece0 x0 x4
  · exact View.cover_of_tiledL (s := S256x1024) _ S256x64.size (by sl_kernel_rfl) _
  · exact G_at x0 x4 p e n _ rfl rfl

end Cert.FeatE

end
-- ==== Proof.FeatE.lean ====
/-
  The enum one-hot feature: the two programs' entries as scalar functions, each program's enum stretch read at an
  index, and their agreement under the final clamp. This module only gathers the three parts.
    Cert.FeatE.ker, Cert.FeatE.ref, Cert.FeatE.bridge   — the scalar functions and their agreement
    Cert.FeatE.ref_apply                                — the reference's stage at (b, 16·n + e)
    Cert.FeatE.ker_apply                                — the kernel's block at (p, 64·e + n)
-/
import proofs.«139877_j41429254537723_1_alg».proof.Proof.FeatEDefs
import proofs.«139877_j41429254537723_1_alg».proof.Proof.FeatERef
import proofs.«139877_j41429254537723_1_alg».proof.Proof.FeatEKer
-- ==== Proof.Claims.lean ====
/-
  The five claims. The two kernel programs' frames are the frame runs of the pallas_call with its host
  ending (one proof, stated for any reading of the floats and used at the word level and at the extended reals); the reference's frame is its run with the result
  dropped; the idealization rewrote nothing, so its claim is trivial. The value claim: at the extended reals the kernel
  program's result and the reference's are the same layout of five per-feature scalar functions under the final clamp
  to [−6, 6], over the same argument arrays — and feature by feature the kernel's function and the reference's agree
  under that clamp. For four features the kernel's function is the clamp of the reference's (the kernel clamps inside
  the body as well), so the clamp's idempotence is all there is; for the quantile feature the kernel keeps the largest
  boundary below the entry and the smallest above it by running maxima and minima from −1e20 and 1e20, while the reference
  takes a maximum and a minimum over all eleven boundaries with ∓1e20 standing in at the boundaries on the other side:
  the two agree as soon as boundaries lie on both sides of the entry, and when they lie on one side only, the entry is at
  or beyond the last boundary or at or below the first, where both programs return 1 or 0 whatever the interpolation.
-/
import proofs.«139877_j41429254537723_1_alg».proof.Defs
import proofs.«139877_j41429254537723_1_alg».proof.Proof.Gen.Kernel
import proofs.«139877_j41429254537723_1_alg».proof.Proof.Gen.KernelIdeal
import proofs.«139877_j41429254537723_1_alg».proof.Proof.Gen.ReferenceIdeal
import proofs.«139877_j41429254537723_1_alg».proof.Proof.Gen.Pre_finite_inputs
import proofs.«139877_j41429254537723_1_alg».proof.Proof.FrameRunBits
import proofs.«139877_j41429254537723_1_alg».proof.Proof.FrameRunIdeal
import proofs.«139877_j41429254537723_1_alg».proof.Proof.KerValue
import proofs.«139877_j41429254537723_1_alg».proof.Proof.RefValue
import proofs.«139877_j41429254537723_1_alg».proof.Proof.FeatB
import proofs.«139877_j41429254537723_1_alg».proof.Proof.FeatP
import proofs.«139877_j41429254537723_1_alg».proof.Proof.FeatC
import proofs.«139877_j41429254537723_1_alg».proof.Proof.FeatQMath
import proofs.«139877_j41429254537723_1_alg».proof.Proof.FeatQKer
import proofs.«139877_j41429254537723_1_alg».proof.Proof.FeatQRef
import proofs.«139877_j41429254537723_1_alg».proof.Proof.FeatE

set_option maxRecDepth 16384

noncomputable section

namespace Cert.Proof.Claims

open Idealize.ShloMosaic Idealize.ShloMosaic.TcCoe Idealize.ShloMosaic.ValueIdx
open Idealize.SL Idealize.SL.Sem

/-- The kernel program's result buffer is the reference's last stage of the same argument arrays: index by index both
    are the shared layout, and the five pairs of scalar functions agree under the clamp. -/
theorem kernel_result_eq (m : (ℓ : Loc Cert.KernelIdeal.nD Cert.KernelIdeal.τ Cert.KernelIdeal.sig) → Buf (Elt Ideal) ℓ) (c : Dev Cert.KernelIdeal.nD) :
    (Pipeline.afterTail₀ Cert.KernelIdeal.cfgs (Cert.KernelIdeal.Frame.dats m) 0 (Cert.KernelIdeal.Frame.V0 m)
        [Cert.KernelIdeal.Gen.hostOps1, Cert.KernelIdeal.Gen.hostOps1_1] c Cert.KernelIdeal.main_v5 : Cert.KernelIdeal.S8192x3584.Idx → EReal)
      = Cert.ReferenceIdeal.Read.val_main_v90 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  funext i
  obtain ⟨b, j, rfl⟩ : ∃ (b : Fin 8192) (j : Fin 3584), i = ix2 b j := ⟨i 0, i 1, eq_ix2 i⟩
  rw [Cert.KernelIdeal.FrameValue.ker_value m Cert.FeatB.ker Cert.FeatP.ker Cert.FeatC.ker Cert.FeatQ.ker Cert.FeatE.ker
        Cert.FeatB.ker_apply Cert.FeatP.ker_apply Cert.FeatC.ker_apply Cert.FeatQ.ker_apply Cert.FeatE.ker_apply c b j,
      Cert.RefSide.ref_value Cert.FeatB.ref Cert.FeatP.ref Cert.FeatC.ref Cert.FeatQ.ref Cert.FeatE.ref
        Cert.FeatB.ref_apply Cert.FeatP.ref_apply Cert.FeatC.ref_apply Cert.FeatQ.ref_apply Cert.FeatE.ref_apply _ _ _ _ _ b j,
      Cert.Spec.assemble_congr (fun x => Cert.FeatB.bridge x) (fun x => Cert.FeatP.bridge x) (fun x u s => Cert.FeatC.bridge x u s)
        (fun x q => Cert.FeatQ.bridge x q) (fun x v => Cert.FeatE.bridge x v)]
  rfl

theorem frame_p : Cert.frame_Kernel (hKernel := Cert.Kernel.Gen.facts) (hPre_finite_inputs := Cert.Pre_finite_inputs.Gen.facts) :=
  fun m ρ _ => Cert.Kernel.Frame.frame (F := Bits) m ρ

theorem frame_pi : Cert.frame_KernelIdeal (hKernelIdeal := Cert.KernelIdeal.Gen.facts) (hPre_finite_inputs := Cert.Pre_finite_inputs.Gen.facts) :=
  fun m ρ _ => Cert.KernelIdeal.Frame.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end, the kernel program's result buffer at the reference's last stage of the arguments (its frame run
    read through the host ending), the reference's at the same stage of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v90 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Frame.run_main (F := Ideal) m ρ)
    refine ⟨((h c).2 Cert.KernelIdeal.main_v5 (Pipeline.mem_restRefs_of Cert.KernelIdeal.main_v5 (by decide) (by decide))).trans (kernel_result_eq m c), ?_⟩
    exact ⟨((h c).1 (0 : Fin 10)).trans (((Cert.KernelIdeal.Frame.dats m 0 c).arrAt_in (0 : Fin 10) rfl _).trans ((Cert.KernelIdeal.Frame.A_eq m c (0 : Fin 10)).trans (Cert.KernelIdeal.Frame.V_main_arg0 m c))),
      ((h c).1 (1 : Fin 10)).trans (((Cert.KernelIdeal.Frame.dats m 0 c).arrAt_in (1 : Fin 10) rfl _).trans ((Cert.KernelIdeal.Frame.A_eq m c (1 : Fin 10)).trans (Cert.KernelIdeal.Frame.V_main_arg1 m c))),
      ((h c).1 (2 : Fin 10)).trans (((Cert.KernelIdeal.Frame.dats m 0 c).arrAt_in (2 : Fin 10) rfl _).trans ((Cert.KernelIdeal.Frame.A_eq m c (2 : Fin 10)).trans (Cert.KernelIdeal.Frame.V_main_arg2 m c))),
      ((h c).1 (3 : Fin 10)).trans (((Cert.KernelIdeal.Frame.dats m 0 c).arrAt_in (3 : Fin 10) rfl _).trans ((Cert.KernelIdeal.Frame.A_eq m c (3 : Fin 10)).trans (Cert.KernelIdeal.Frame.V_main_arg3 m c))),
      ((h c).1 (4 : Fin 10)).trans (((Cert.KernelIdeal.Frame.dats m 0 c).arrAt_in (4 : Fin 10) rfl _).trans ((Cert.KernelIdeal.Frame.A_eq m c (4 : Fin 10)).trans (Cert.KernelIdeal.Frame.V_main_arg4 m c)))⟩
  · refine (θ_run Cert.ReferenceIdeal.defs _ _).mono (fun r h c => ⟨?_, (h c).2⟩) (Cert.ReferenceIdeal.Value.run (F := Ideal) m' ρ')
    rw [(h c).1, Cert.ReferenceIdeal.Read.val_main_v90_eq, (hagree c).1, (hagree c).2.1, (hagree c).2.2.1, (hagree c).2.2.2.1, (hagree c).2.2.2.2]

end Cert.Proof.Claims

end
-- ==== Proof.lean ====
/-
  The certificate of one preprocessing kernel against its array-code reference. A batch of 8192 rows of 2624 raw features is turned
  into 3584 columns: 512 binary indicators, 512 logits of clamped probabilities, 1024 standardised continuous features, 512
  quantile interpolations against 11 boundaries each, and the one-hots of 64 enum features against 16 values each, every
  entry zeroed where the raw entry is the missing-value marker and clamped to [−6, 6]. The kernel does the arithmetic in one
  pallas_call over 32 blocks of 256 rows and lets the host re-lay the one-hots and put the five tables side by side; the
  reference is plain array code. Proof/Claims.lean assembles the five claims from the modules under Proof/.
-/
import proofs.«139877_j41429254537723_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_p, Cert.Proof.Claims.frame_pi, Cert.Proof.Claims.frame_ri, trivial, Cert.Proof.Claims.algebraic⟩

end Cert.Proof

end
